-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x33 : Shape := ⟨3, ![2, 4096, 33]⟩
abbrev S2x4096 : Shape := ⟨2, ![2, 4096]⟩
abbrev S_ : Shape := ⟨0, ![]⟩

class Facts : Prop where
  bcast_S_S2x4096x33 : S_.BroadcastsInDim S2x4096x33 (![] : Fin 0 → Fin S2x4096x33.rank)
  reducesTo_S2x4096x33_S_d0_1_2 : S2x4096x33.ReducesTo [0, 1, 2] S_
  h_S_ : 0 < S_.numel

variable [Facts]

def fn {F : FTy → Type} [FloatOps F] (main_arg0 : FVec F S2x4096x33 .f32) (main_arg1 : FVec F S2x4096x33 .f32) (main_arg2 : IVec S2x4096 32) (main_arg3 : IVec S2x4096 32) : IVec S_ 1 :=
  let main_v0 : FVec F S2x4096x33 .f32 := Host.absf main_arg0
  let main_cst : FVec F S_ .f32 := constant S_ .f32 0x7F800000#32
  let main_v1 : FVec F S2x4096x33 .f32 := broadcastInDim S2x4096x33 ![] bcast_S_S2x4096x33 main_cst
  let main_v2 : IVec S2x4096x33 1 := cmpf .olt main_v0 main_v1
  let main_c : IVec S_ 1 := constantI S_ 1 1#1
  let main_v3 : IVec S_ 1 := (fun x v => Host.reduce IntOp.andi x v reducesTo_S2x4096x33_S_d0_1_2 h_S_) main_v2 main_c
  let main_v4 : FVec F S2x4096x33 .f32 := Host.absf main_arg1
  let main_cst_0 : FVec F S_ .f32 := constant S_ .f32 0x7F800000#32
  let main_v5 : FVec F S2x4096x33 .f32 := broadcastInDim S2x4096x33 ![] bcast_S_S2x4096x33 main_cst_0
  let main_v6 : IVec S2x4096x33 1 := cmpf .olt main_v4 main_v5
  let main_c_1 : IVec S_ 1 := constantI S_ 1 1#1
  let main_v7 : IVec S_ 1 := (fun x v => Host.reduce IntOp.andi x v reducesTo_S2x4096x33_S_d0_1_2 h_S_) main_v6 main_c_1
  let main_v8 : IVec S_ 1 := andi main_v3 main_v7
  main_v8
-- ==== Kernel.lean ====
abbrev S2x4096x33 : Shape := ⟨3, ![2, 4096, 33]⟩
abbrev S2x4096 : Shape := ⟨2, ![2, 4096]⟩
abbrev S_ : Shape := ⟨0, ![]⟩
abbrev S2x4096x1 : Shape := ⟨3, ![2, 4096, 1]⟩
abbrev S2x4096x1x1 : Shape := ⟨4, ![2, 4096, 1, 1]⟩
abbrev S1 : Shape := ⟨1, ![1]⟩
abbrev S1x1x1x1 : Shape := ⟨4, ![1, 1, 1, 1]⟩
abbrev S8192 : Shape := ⟨1, ![8192]⟩
abbrev S1x1 : Shape := ⟨2, ![1, 1]⟩
abbrev S1x512x33 : Shape := ⟨3, ![1, 512, 33]⟩
abbrev S512x33 : Shape := ⟨2, ![512, 33]⟩
abbrev S512 : Shape := ⟨1, ![512]⟩
abbrev S512x1 : Shape := ⟨2, ![512, 1]⟩
abbrev S33x512 : Shape := ⟨2, ![33, 512]⟩
abbrev S512x512 : Shape := ⟨2, ![512, 512]⟩
abbrev S1x512 : Shape := ⟨2, ![1, 512]⟩

abbrev nBuf : Space → Nat
  | .hbm => 95
  | .vmem => 9
  | .smem => 0
  | _ => 0

abbrev bufTy : (tb : Table) → Fin (tcTables nBuf tb) → BufTy
  | .hbm, ⟨0, _⟩ => ⟨S2x4096x33, .f32⟩
  | .hbm, ⟨1, _⟩ => ⟨S2x4096x33, .f32⟩
  | .hbm, ⟨2, _⟩ => ⟨S2x4096, .i32⟩
  | .hbm, ⟨3, _⟩ => ⟨S2x4096, .i32⟩
  | .hbm, ⟨4, _⟩ => ⟨S_, .f32⟩
  | .hbm, ⟨5, _⟩ => ⟨S2x4096, .f32⟩
  | .hbm, ⟨6, _⟩ => ⟨S_, .f32⟩
  | .hbm, ⟨7, _⟩ => ⟨S2x4096, .f32⟩
  | .hbm, ⟨8, _⟩ => ⟨S2x4096, .f32⟩
  | .hbm, ⟨9, _⟩ => ⟨S2x4096x1, .f32⟩
  | .hbm, ⟨10, _⟩ => ⟨S2x4096x33, .f32⟩
  | .hbm, ⟨11, _⟩ => ⟨S2x4096x33, .f32⟩
  | .hbm, ⟨12, _⟩ => ⟨S2x4096x33, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S2x4096x1, .f32⟩
  | .hbm, ⟨17, _⟩ => ⟨S2x4096x33, .f32⟩
  | .hbm, ⟨18, _⟩ => ⟨S2x4096x33, .f32⟩
  | .hbm, ⟨19, _⟩ => ⟨S2x4096x1, .i32⟩
  | .hbm, ⟨20, _⟩ => ⟨S_, .i32⟩
  | .hbm, ⟨21, _⟩ => ⟨S2x4096x1, .i32⟩
  | .hbm, ⟨22, _⟩ => ⟨S2x4096x1, .i1⟩
  | .hbm, ⟨23, _⟩ => ⟨S_, .i32⟩
  | .hbm, ⟨24, _⟩ => ⟨S2x4096x1, .i32⟩
  | .hbm, ⟨25, _⟩ => ⟨S2x4096x1, .i32⟩
  | .hbm, ⟨26, _⟩ => ⟨S2x4096x1, .i32⟩
  | .hbm, ⟨27, _⟩ => ⟨S2x4096x1x1, .i32⟩
  | .hbm, ⟨28, _⟩ => ⟨S1, .i32⟩
  | .hbm, ⟨29, _⟩ => ⟨S_, .i32⟩
  | .hbm, ⟨30, _⟩ => ⟨S2x4096x1x1, .i32⟩
  | .hbm, ⟨31, _⟩ => ⟨S2x4096x1x1, .i1⟩
  | .hbm, ⟨32, _⟩ => ⟨S1x1x1x1, .i32⟩
  | .hbm, ⟨33, _⟩ => ⟨S2x4096x1x1, .i32⟩
  | .hbm, ⟨34, _⟩ => ⟨S2x4096x1x1, .i1⟩
  | .hbm, ⟨35, _⟩ => ⟨S2x4096x1x1, .i1⟩
  | .hbm, ⟨36, _⟩ => ⟨S_, .i1⟩
  | .hbm, ⟨37, _⟩ => ⟨S2x4096x1, .i1⟩
  | .hbm, ⟨38, _⟩ => ⟨S2x4096x1, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S2x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2x4096, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2x4096, .f32⟩
  | .hbm, ⟨63, _⟩ => ⟨S_, .f32⟩
  | .hbm, ⟨64, _⟩ => ⟨S2x4096, .f32⟩
  | .hbm, ⟨65, _⟩ => ⟨S2x4096, .f32⟩
  | .hbm, ⟨66, _⟩ => ⟨S2x4096x1, .f32⟩
  | .hbm, ⟨67, _⟩ => ⟨S2x4096x33, .f32⟩
  | .hbm, ⟨68, _⟩ => ⟨S2x4096x33, .f32⟩
  | .hbm, ⟨69, _⟩ => ⟨S2x4096x33, .f32⟩
  | .hbm, ⟨70, _⟩ => ⟨S_, .f32⟩
  | .hbm, ⟨71, _⟩ => ⟨S2x4096, .f32⟩
  | .hbm, ⟨72, _⟩ => ⟨S2x4096x1, .f32⟩
  | .hbm, ⟨73, _⟩ => ⟨S2x4096x33, .f32⟩
  | .hbm, ⟨74, _⟩ => ⟨S2x4096x33, .f32⟩
  | .hbm, ⟨75, _⟩ => ⟨S1x1, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S8192, .i32⟩
  | .hbm, ⟨80, _⟩ => ⟨S8192, .i32⟩
  | .hbm, ⟨81, _⟩ => ⟨S8192, .i1⟩
  | .hbm, ⟨82, _⟩ => ⟨S8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .local _ .vmem, ⟨0, _⟩ => ⟨S1x512x33, .f32⟩
  | .local _ .vmem, ⟨1, _⟩ => ⟨S1x512x33, .f32⟩
  | .local _ .vmem, ⟨2, _⟩ => ⟨S1x512x33, .f32⟩
  | .local _ .vmem, ⟨3, _⟩ => ⟨S1x512x33, .f32⟩
  | .local _ .vmem, ⟨4, _⟩ => ⟨S1x512x33, .f32⟩
  | .local _ .vmem, ⟨5, _⟩ => ⟨S1x512x33, .f32⟩
  | .local _ .vmem, ⟨6, _⟩ => ⟨S1x512x33, .f32⟩
  | .local _ .vmem, ⟨7, _⟩ => ⟨S1x512x33, .f32⟩
  | .local _ .vmem, ⟨8, _⟩ => ⟨S1x1, .f32⟩
  | _, _ => ⟨S2x4096x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_cst : Ref sig .tc := ⟨.hbm, 43, rfl⟩
abbrev main_v4 : Ref sig .tc := ⟨.hbm, 44, rfl⟩
abbrev main_cst_0 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_cst_1 : Ref sig .tc := ⟨.hbm, 50, rfl⟩
abbrev main_v9 : Ref sig .tc := ⟨.hbm, 51, rfl⟩
abbrev main_v10 : Ref sig .tc := ⟨.hbm, 52, rfl⟩
abbrev main_cst_2 : Ref sig .tc := ⟨.hbm, 53, rfl⟩
abbrev main_v11 : Ref sig .tc := ⟨.hbm, 54, rfl⟩
abbrev main_v12 : Ref sig .tc := ⟨.hbm, 55, rfl⟩
abbrev main_cst_3 : Ref sig .tc := ⟨.hbm, 56, rfl⟩
abbrev main_v13 : Ref sig .tc := ⟨.hbm, 57, rfl⟩
abbrev main_cst_4 : Ref sig .tc := ⟨.hbm, 58, rfl⟩
abbrev main_v14 : Ref sig .tc := ⟨.hbm, 59, rfl⟩
abbrev main_v15 : Ref sig .tc := ⟨.hbm, 60, rfl⟩
abbrev main_cst_5 : Ref sig .tc := ⟨.hbm, 61, rfl⟩
abbrev main_v16 : Ref sig .tc := ⟨.hbm, 62, rfl⟩
abbrev main_cst_6 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_7 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_8 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_cst_9 : Ref sig .tc := ⟨.hbm, 83, rfl⟩
abbrev main_v34 : Ref sig .tc := ⟨.hbm, 84, rfl⟩
abbrev main_cst_10 : Ref sig .tc := ⟨.hbm, 85, rfl⟩
abbrev main_v35 : Ref sig .tc := ⟨.hbm, 86, rfl⟩
abbrev main_cst_11 : Ref sig .tc := ⟨.hbm, 87, rfl⟩
abbrev main_v36 : Ref sig .tc := ⟨.hbm, 88, rfl⟩
abbrev main_cst_12 : Ref sig .tc := ⟨.hbm, 89, rfl⟩
abbrev main_v37 : Ref sig .tc := ⟨.hbm, 90, rfl⟩
abbrev main_cst_13 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x33 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x33 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x33 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x33 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

class Facts₀ : Prop where
  reducesTo_S2x4096x33_S2x4096_d2 : S2x4096x33.ReducesTo [2] S2x4096
  h_S_ : 0 < S_.numel
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x33_0_1_2 : S2x4096x1.BroadcastsInDim S2x4096x33 (![0, 1, 2] : Fin 3 → Fin S2x4096x33.rank)
  bcast_S_S2x4096x1 : S_.BroadcastsInDim S2x4096x1 (![] : Fin 0 → Fin S2x4096x1.rank)
  shapeCasts_S2x4096x1_S2x4096x1x1 : S2x4096x1.ShapeCasts S2x4096x1x1
  bcast_S_S2x4096x1x1 : S_.BroadcastsInDim S2x4096x1x1 (![] : Fin 0 → Fin S2x4096x1x1.rank)
  bcast_S1_S1x1x1x1_3 : S1.BroadcastsInDim S1x1x1x1 (![3] : Fin 1 → Fin S1x1x1x1.rank)
  bcast_S1x1x1x1_S2x4096x1x1_0_1_2_3 : S1x1x1x1.BroadcastsInDim S2x4096x1x1 (![0, 1, 2, 3] : Fin 4 → Fin S2x4096x1x1.rank)
  reducesTo_S2x4096x1x1_S2x4096x1_d3 : S2x4096x1x1.ReducesTo [3] S2x4096x1
  shapeCasts_S2x4096x1_S2x4096 : S2x4096x1.ShapeCasts S2x4096
  reducesTo_S2x4096_S_d0_1 : S2x4096.ReducesTo [0, 1] S_
  shapeCasts_S2x4096_S8192 : S2x4096.ShapeCasts S8192
  bcast_S_S8192 : S_.BroadcastsInDim S8192 (![] : Fin 0 → Fin S8192.rank)
  reducesTo_S8192_S_d0 : S8192.ReducesTo [0] S_
  inb_S1x1_S1x1_0_0 : ∀ a, (![0, 0] : Fin 2 → Nat) a + S1x1.size a ≤ S1x1.size a
  h_S1x1 : 0 < S1x1.numel
  inb_S1x512x33_S1x512x33_0_0_0 : ∀ a, (![0, 0, 0] : Fin 3 → Nat) a + S1x512x33.size a ≤ S1x512x33.size a
  h_S1x512x33 : 0 < S1x512x33.numel
  shapeCasts_S1x512x33_S512x33 : S1x512x33.ShapeCasts S512x33
  reduces_S512x33_S512 : S512x33.Reduces [1] S512
  shapeCasts_S512_S512x1 : S512.ShapeCasts S512x1
  bitsLt_bf16_f32 : FTy.bits .bf16 < FTy.bits .f32
  transposes_S512x33_p1_0_S33x512 : S512x33.Transposes [1, 0] S33x512
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  gather_S2x4096x33_S2x4096x1x1_S2x4096x1_n_2_01_01_2_3_111_wf : GatherDims.WF S2x4096x33 S2x4096x1x1 S2x4096x1 [] [2] [0, 1] [2] [0, 1] 3 ![1, 1, 1]
  dot_S512x33_S33x512_S512x512_1_0_0_1_n_n_wf : DotDims.WF S512x33 S33x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x33.size a ≤ S2x4096x33.size a
  hwx0_0 : ∀ i : grid0.Coords, EltTy.bits .f32 = 32 ∨ (Rect.block (s := S2x4096x33) S1x512x33.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x33.size a ≤ S2x4096x33.size a
  hwx0_1 : ∀ i : grid0.Coords, EltTy.bits .f32 = 32 ∨ (Rect.block (s := S2x4096x33) S1x512x33.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x33.size a ≤ S2x4096x33.size a
  hwx0_2 : ∀ i : grid0.Coords, EltTy.bits .f32 = 32 ∨ (Rect.block (s := S2x4096x33) S1x512x33.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x33.size a ≤ S2x4096x33.size a
  hwx0_3 : ∀ i : grid0.Coords, EltTy.bits .f32 = 32 ∨ (Rect.block (s := S2x4096x33) S1x512x33.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S2x4096x33_S2x4096x1x1_S2x4096x1_n_2_01_01_2_3_111 : GatherDims S2x4096x33 S2x4096x1x1 S2x4096x1 where
  offsetDims := []
  collapsedSliceDims := [2]
  operandBatchingDims := [0, 1]
  startIndicesBatchingDims := [0, 1]
  startIndexMap := [2]
  indexVectorDim := 3
  sliceSizes := ![1, 1, 1]
  wf := gather_S2x4096x33_S2x4096x1x1_S2x4096x1_n_2_01_01_2_3_111_wf
def dot_S512x33_S33x512_S512x512_1_0_0_1_n_n : DotDims S512x33 S33x512 S512x512 where
  lhsContracting := [1]
  rhsContracting := [0]
  lhsNonContracting := [0]
  rhsNonContracting := [1]
  lhsBatch := []
  rhsBatch := []
  wf := dot_S512x33_S33x512_S512x512_1_0_0_1_n_n_wf

abbrev win0_0 : Pipeline.Window sig grid0 :=
  Pipeline.Window.ofSpec (Memref.whole main_arg1) S1x512x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x33.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x512x33.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x512x33.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x4096x33 : Shape := ⟨3, ![2, 4096, 33]⟩
abbrev S2x4096 : Shape := ⟨2, ![2, 4096]⟩
abbrev S_ : Shape := ⟨0, ![]⟩
abbrev S2x4096x1 : Shape := ⟨3, ![2, 4096, 1]⟩
abbrev S2x4096x1x1 : Shape := ⟨4, ![2, 4096, 1, 1]⟩
abbrev S1 : Shape := ⟨1, ![1]⟩
abbrev S1x1x1x1 : Shape := ⟨4, ![1, 1, 1, 1]⟩
abbrev S2x1x4096 : Shape := ⟨3, ![2, 1, 4096]⟩
abbrev S2x4096x4096 : Shape := ⟨3, ![2, 4096, 4096]⟩
abbrev S8192 : Shape := ⟨1, ![8192]⟩

abbrev nBuf : Space → Nat
  | .hbm => 199
  | .vmem => 0
  | .smem => 0
  | _ => 0

abbrev hbmTy0_0 (i : Nat) : BufTy := match i % 128 with
  | 0 => ⟨S2x4096x33, .f32⟩
  | 1 => ⟨S2x4096x33, .f32⟩
  | 2 => ⟨S2x4096, .i32⟩
  | 3 => ⟨S2x4096, .i32⟩
  | 4 => ⟨S_, .f32⟩
  | 5 => ⟨S2x4096, .f32⟩
  | 6 => ⟨S_, .f32⟩
  | 7 => ⟨S2x4096, .f32⟩
  | 8 => ⟨S2x4096, .f32⟩
  | 9 => ⟨S2x4096x1, .f32⟩
  | 10 => ⟨S2x4096x33, .f32⟩
  | 11 => ⟨S2x4096x33, .f32⟩
  | 12 => ⟨S2x4096x33, .f32⟩
  | 13 => ⟨S_, .f32⟩
  | 14 => ⟨S2x4096, .f32⟩
  | 15 => ⟨S2x4096x1, .f32⟩
  | 16 => ⟨S2x4096x1, .f32⟩
  | 17 => ⟨S2x4096x33, .f32⟩
  | 18 => ⟨S2x4096x33, .f32⟩
  | 19 => ⟨S2x4096x1, .i32⟩
  | 20 => ⟨S_, .i32⟩
  | 21 => ⟨S2x4096x1, .i32⟩
  | 22 => ⟨S2x4096x1, .i1⟩
  | 23 => ⟨S_, .i32⟩
  | 24 => ⟨S2x4096x1, .i32⟩
  | 25 => ⟨S2x4096x1, .i32⟩
  | 26 => ⟨S2x4096x1, .i32⟩
  | 27 => ⟨S2x4096x1x1, .i32⟩
  | 28 => ⟨S1, .i32⟩
  | 29 => ⟨S_, .i32⟩
  | 30 => ⟨S2x4096x1x1, .i32⟩
  | 31 => ⟨S2x4096x1x1, .i1⟩
  | 32 => ⟨S1x1x1x1, .i32⟩
  | 33 => ⟨S2x4096x1x1, .i32⟩
  | 34 => ⟨S2x4096x1x1, .i1⟩
  | 35 => ⟨S2x4096x1x1, .i1⟩
  | 36 => ⟨S_, .i1⟩
  | 37 => ⟨S2x4096x1, .i1⟩
  | 38 => ⟨S2x4096x1, .f32⟩
  | 39 => ⟨S_, .f32⟩
  | 40 => ⟨S2x4096x1, .f32⟩
  | 41 => ⟨S2x4096x1, .f32⟩
  | 42 => ⟨S2x4096, .f32⟩
  | 43 => ⟨S_, .f32⟩
  | 44 => ⟨S_, .f32⟩
  | 45 => ⟨S_, .f32⟩
  | 46 => ⟨S_, .f32⟩
  | 47 => ⟨S_, .f32⟩
  | 48 => ⟨S2x4096x33, .f32⟩
  | 49 => ⟨S_, .f32⟩
  | 50 => ⟨S2x4096, .f32⟩
  | 51 => ⟨S2x4096x1, .f32⟩
  | 52 => ⟨S2x1x4096, .f32⟩
  | 53 => ⟨S2x4096x4096, .f32⟩
  | 54 => ⟨S2x4096x4096, .f32⟩
  | 55 => ⟨S2x4096x4096, .f32⟩
  | 56 => ⟨S2x4096x4096, .f32⟩
  | 57 => ⟨S_, .f32⟩
  | 58 => ⟨S2x4096x4096, .f32⟩
  | 59 => ⟨S2x4096x4096, .f32⟩
  | 60 => ⟨S2x4096x4096, .f32⟩
  | 61 => ⟨S_, .f32⟩
  | 62 => ⟨S2x4096x4096, .f32⟩
  | 63 => ⟨S2x4096x4096, .f32⟩
  | 64 => ⟨S_, .f32⟩
  | 65 => ⟨S2x4096x4096, .f32⟩
  | 66 => ⟨S2x4096x4096, .i1⟩
  | 67 => ⟨S_, .f32⟩
  | 68 => ⟨S_, .f32⟩
  | 69 => ⟨S2x4096x4096, .f32⟩
  | 70 => ⟨S2x4096x4096, .f32⟩
  | 71 => ⟨S2x4096x4096, .f32⟩
  | 72 => ⟨S_, .f32⟩
  | 73 => ⟨S2x4096x4096, .f32⟩
  | 74 => ⟨S2x4096x4096, .i1⟩
  | 75 => ⟨S_, .f32⟩
  | 76 => ⟨S_, .f32⟩
  | 77 => ⟨S2x4096x4096, .f32⟩
  | 78 => ⟨S2x4096x4096, .f32⟩
  | 79 => ⟨S_, .f32⟩
  | 80 => ⟨S2x4096x4096, .f32⟩
  | 81 => ⟨S2x4096x4096, .i1⟩
  | 82 => ⟨S_, .f32⟩
  | 83 => ⟨S_, .f32⟩
  | 84 => ⟨S2x4096x4096, .f32⟩
  | 85 => ⟨S2x4096x4096, .f32⟩
  | 86 => ⟨S_, .f32⟩
  | 87 => ⟨S2x4096x4096, .f32⟩
  | 88 => ⟨S2x4096x4096, .i1⟩
  | 89 => ⟨S_, .f32⟩
  | 90 => ⟨S_, .f32⟩
  | 91 => ⟨S2x4096x4096, .f32⟩
  | 92 => ⟨S2x4096x4096, .f32⟩
  | 93 => ⟨S_, .f32⟩
  | 94 => ⟨S2x4096, .f32⟩
  | 95 => ⟨S_, .f32⟩
  | 96 => ⟨S2x4096, .f32⟩
  | 97 => ⟨S2x4096, .f32⟩
  | 98 => ⟨S2x4096x1, .f32⟩
  | 99 => ⟨S2x4096x33, .f32⟩
  | 100 => ⟨S2x4096x33, .f32⟩
  | 101 => ⟨S2x4096x33, .f32⟩
  | 102 => ⟨S_, .f32⟩
  | 103 => ⟨S2x4096, .f32⟩
  | 104 => ⟨S2x4096x1, .f32⟩
  | 105 => ⟨S2x4096x33, .f32⟩
  | 106 => ⟨S2x4096x33, .f32⟩
  | 107 => ⟨S2x4096x33, .f32⟩
  | 108 => ⟨S_, .f32⟩
  | 109 => ⟨S2x4096, .f32⟩
  | 110 => ⟨S2x4096x1, .f32⟩
  | 111 => ⟨S2x1x4096, .f32⟩
  | 112 => ⟨S2x4096x4096, .f32⟩
  | 113 => ⟨S2x4096x4096, .f32⟩
  | 114 => ⟨S2x4096x4096, .f32⟩
  | 115 => ⟨S2x4096x4096, .f32⟩
  | 116 => ⟨S_, .f32⟩
  | 117 => ⟨S2x4096x4096, .f32⟩
  | 118 => ⟨S2x4096x4096, .f32⟩
  | 119 => ⟨S2x4096x4096, .f32⟩
  | 120 => ⟨S_, .f32⟩
  | 121 => ⟨S2x4096x4096, .f32⟩
  | 122 => ⟨S2x4096x4096, .f32⟩
  | 123 => ⟨S_, .f32⟩
  | 124 => ⟨S2x4096x4096, .f32⟩
  | 125 => ⟨S2x4096x4096, .i1⟩
  | 126 => ⟨S_, .f32⟩
  | 127 => ⟨S_, .f32⟩
  | _ => ⟨S2x4096x33, .f32⟩

abbrev hbmTy0_1 (i : Nat) : BufTy := match i % 128 with
  | 0 => ⟨S2x4096x4096, .f32⟩
  | 1 => ⟨S2x4096x4096, .f32⟩
  | 2 => ⟨S2x4096x4096, .f32⟩
  | 3 => ⟨S_, .f32⟩
  | 4 => ⟨S2x4096x4096, .f32⟩
  | 5 => ⟨S2x4096x4096, .i1⟩
  | 6 => ⟨S_, .f32⟩
  | 7 => ⟨S_, .f32⟩
  | 8 => ⟨S2x4096x4096, .f32⟩
  | 9 => ⟨S2x4096x4096, .f32⟩
  | 10 => ⟨S2x4096x4096, .f32⟩
  | 11 => ⟨S2x4096x4096, .f32⟩
  | 12 => ⟨S2x4096x4096, .f32⟩
  | 13 => ⟨S_, .f32⟩
  | 14 => ⟨S_, .f32⟩
  | 15 => ⟨S_, .f32⟩
  | 16 => ⟨S_, .f32⟩
  | 17 => ⟨S2x4096x33, .f32⟩
  | 18 => ⟨S2x4096x1, .i32⟩
  | 19 => ⟨S_, .i32⟩
  | 20 => ⟨S2x4096x1, .i32⟩
  | 21 => ⟨S2x4096x1, .i1⟩
  | 22 => ⟨S_, .i32⟩
  | 23 => ⟨S2x4096x1, .i32⟩
  | 24 => ⟨S2x4096x1, .i32⟩
  | 25 => ⟨S2x4096x1, .i32⟩
  | 26 => ⟨S2x4096x1x1, .i32⟩
  | 27 => ⟨S1, .i32⟩
  | 28 => ⟨S_, .i32⟩
  | 29 => ⟨S2x4096x1x1, .i32⟩
  | 30 => ⟨S2x4096x1x1, .i1⟩
  | 31 => ⟨S1x1x1x1, .i32⟩
  | 32 => ⟨S2x4096x1x1, .i32⟩
  | 33 => ⟨S2x4096x1x1, .i1⟩
  | 34 => ⟨S2x4096x1x1, .i1⟩
  | 35 => ⟨S_, .i1⟩
  | 36 => ⟨S2x4096x1, .i1⟩
  | 37 => ⟨S2x4096x1, .f32⟩
  | 38 => ⟨S_, .f32⟩
  | 39 => ⟨S2x4096x1, .f32⟩
  | 40 => ⟨S2x4096x1, .f32⟩
  | 41 => ⟨S2x4096, .f32⟩
  | 42 => ⟨S8192, .f32⟩
  | 43 => ⟨S_, .f32⟩
  | 44 => ⟨S8192, .f32⟩
  | 45 => ⟨S8192, .f32⟩
  | 46 => ⟨S_, .f32⟩
  | 47 => ⟨S8192, .f32⟩
  | 48 => ⟨S8192, .f32⟩
  | 49 => ⟨S8192, .f32⟩
  | 50 => ⟨S8192, .f32⟩
  | 51 => ⟨S_, .f32⟩
  | 52 => ⟨S_, .f32⟩
  | 53 => ⟨S_, .f32⟩
  | 54 => ⟨S_, .f32⟩
  | 55 => ⟨S8192, .i32⟩
  | 56 => ⟨S8192, .i32⟩
  | 57 => ⟨S8192, .i1⟩
  | 58 => ⟨S8192, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | _ => ⟨S2x4096x33, .f32⟩

abbrev hbmTy (i : Nat) : BufTy := match i / 128 with
  | 0 => hbmTy0_0 i
  | 1 => hbmTy0_1 i
  | _ => ⟨S2x4096x33, .f32⟩

abbrev bufTy : (tb : Table) → Fin (tcTables nBuf tb) → BufTy
  | .hbm, ⟨i, _⟩ => hbmTy i
  | _, _ => ⟨S2x4096x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_cst : Ref sig .tc := ⟨.hbm, 43, rfl⟩
abbrev main_v4 : Ref sig .tc := ⟨.hbm, 44, rfl⟩
abbrev main_cst_0 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_cst_1 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_cst_2 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_3 : Ref sig .tc := ⟨.hbm, 61, rfl⟩
abbrev main_v18 : Ref sig .tc := ⟨.hbm, 62, rfl⟩
abbrev main_v19 : Ref sig .tc := ⟨.hbm, 63, rfl⟩
abbrev main_cst_4 : Ref sig .tc := ⟨.hbm, 64, rfl⟩
abbrev main_v20 : Ref sig .tc := ⟨.hbm, 65, rfl⟩
abbrev main_v21 : Ref sig .tc := ⟨.hbm, 66, rfl⟩
abbrev main_cst_5 : Ref sig .tc := ⟨.hbm, 67, rfl⟩
abbrev main_call2_v0 : Ref sig .tc := ⟨.hbm, 68, rfl⟩
abbrev main_call2_v1 : Ref sig .tc := ⟨.hbm, 69, rfl⟩
abbrev main_v22 : Ref sig .tc := ⟨.hbm, 70, rfl⟩
abbrev main_v23 : Ref sig .tc := ⟨.hbm, 71, rfl⟩
abbrev main_cst_6 : Ref sig .tc := ⟨.hbm, 72, rfl⟩
abbrev main_v24 : Ref sig .tc := ⟨.hbm, 73, rfl⟩
abbrev main_v25 : Ref sig .tc := ⟨.hbm, 74, rfl⟩
abbrev main_cst_7 : Ref sig .tc := ⟨.hbm, 75, rfl⟩
abbrev main_call3_v0 : Ref sig .tc := ⟨.hbm, 76, rfl⟩
abbrev main_call3_v1 : Ref sig .tc := ⟨.hbm, 77, rfl⟩
abbrev main_v26 : Ref sig .tc := ⟨.hbm, 78, rfl⟩
abbrev main_cst_8 : Ref sig .tc := ⟨.hbm, 79, rfl⟩
abbrev main_v27 : Ref sig .tc := ⟨.hbm, 80, rfl⟩
abbrev main_v28 : Ref sig .tc := ⟨.hbm, 81, rfl⟩
abbrev main_cst_9 : Ref sig .tc := ⟨.hbm, 82, rfl⟩
abbrev main_call4_v0 : Ref sig .tc := ⟨.hbm, 83, rfl⟩
abbrev main_call4_v1 : Ref sig .tc := ⟨.hbm, 84, rfl⟩
abbrev main_v29 : Ref sig .tc := ⟨.hbm, 85, rfl⟩
abbrev main_cst_10 : Ref sig .tc := ⟨.hbm, 86, rfl⟩
abbrev main_v30 : Ref sig .tc := ⟨.hbm, 87, rfl⟩
abbrev main_v31 : Ref sig .tc := ⟨.hbm, 88, rfl⟩
abbrev main_cst_11 : Ref sig .tc := ⟨.hbm, 89, rfl⟩
abbrev main_call5_v0 : Ref sig .tc := ⟨.hbm, 90, rfl⟩
abbrev main_call5_v1 : Ref sig .tc := ⟨.hbm, 91, rfl⟩
abbrev main_v32 : Ref sig .tc := ⟨.hbm, 92, rfl⟩
abbrev main_cst_12 : Ref sig .tc := ⟨.hbm, 93, rfl⟩
abbrev main_v33 : Ref sig .tc := ⟨.hbm, 94, rfl⟩
abbrev main_cst_13 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_cst_14 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_15 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_cst_16 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_cst_17 : Ref sig .tc := ⟨.hbm, 120, rfl⟩
abbrev main_v55 : Ref sig .tc := ⟨.hbm, 121, rfl⟩
abbrev main_v56 : Ref sig .tc := ⟨.hbm, 122, rfl⟩
abbrev main_cst_18 : Ref sig .tc := ⟨.hbm, 123, rfl⟩
abbrev main_v57 : Ref sig .tc := ⟨.hbm, 124, rfl⟩
abbrev main_v58 : Ref sig .tc := ⟨.hbm, 125, rfl⟩
abbrev main_cst_19 : Ref sig .tc := ⟨.hbm, 126, rfl⟩
abbrev main_call6_v0 : Ref sig .tc := ⟨.hbm, 127, rfl⟩
abbrev main_call6_v1 : Ref sig .tc := ⟨.hbm, 128, rfl⟩
abbrev main_v59 : Ref sig .tc := ⟨.hbm, 129, rfl⟩
abbrev main_v60 : Ref sig .tc := ⟨.hbm, 130, rfl⟩
abbrev main_cst_20 : Ref sig .tc := ⟨.hbm, 131, rfl⟩
abbrev main_v61 : Ref sig .tc := ⟨.hbm, 132, rfl⟩
abbrev main_v62 : Ref sig .tc := ⟨.hbm, 133, rfl⟩
abbrev main_cst_21 : Ref sig .tc := ⟨.hbm, 134, rfl⟩
abbrev main_call7_v0 : Ref sig .tc := ⟨.hbm, 135, rfl⟩
abbrev main_call7_v1 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_cst_22 : Ref sig .tc := ⟨.hbm, 141, rfl⟩
abbrev main_v67 : Ref sig .tc := ⟨.hbm, 142, rfl⟩
abbrev main_cst_23 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_call8_c : Ref sig .tc := ⟨.hbm, 147, rfl⟩
abbrev main_call8_v0 : Ref sig .tc := ⟨.hbm, 148, rfl⟩
abbrev main_call8_v1 : Ref sig .tc := ⟨.hbm, 149, rfl⟩
abbrev main_call8_c_0 : Ref sig .tc := ⟨.hbm, 150, rfl⟩
abbrev main_call8_v2 : Ref sig .tc := ⟨.hbm, 151, rfl⟩
abbrev main_call8_v3 : Ref sig .tc := ⟨.hbm, 152, rfl⟩
abbrev main_call8_v4 : Ref sig .tc := ⟨.hbm, 153, rfl⟩
abbrev main_call8_v5 : Ref sig .tc := ⟨.hbm, 154, rfl⟩
abbrev main_call8_c_1 : Ref sig .tc := ⟨.hbm, 155, rfl⟩
abbrev main_call8_c_2 : Ref sig .tc := ⟨.hbm, 156, rfl⟩
abbrev main_call8_v6 : Ref sig .tc := ⟨.hbm, 157, rfl⟩
abbrev main_call8_v7 : Ref sig .tc := ⟨.hbm, 158, rfl⟩
abbrev main_call8_v8 : Ref sig .tc := ⟨.hbm, 159, rfl⟩
abbrev main_call8_v9 : Ref sig .tc := ⟨.hbm, 160, rfl⟩
abbrev main_call8_v10 : Ref sig .tc := ⟨.hbm, 161, rfl⟩
abbrev main_call8_v11 : Ref sig .tc := ⟨.hbm, 162, rfl⟩
abbrev main_call8_c_3 : Ref sig .tc := ⟨.hbm, 163, rfl⟩
abbrev main_call8_v12 : Ref sig .tc := ⟨.hbm, 164, rfl⟩
abbrev main_call8_v13 : Ref sig .tc := ⟨.hbm, 165, rfl⟩
abbrev main_call8_cst : Ref sig .tc := ⟨.hbm, 166, rfl⟩
abbrev main_call8_v14 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_cst_24 : Ref sig .tc := ⟨.hbm, 171, rfl⟩
abbrev main_v74 : Ref sig .tc := ⟨.hbm, 172, rfl⟩
abbrev main_v75 : Ref sig .tc := ⟨.hbm, 173, rfl⟩
abbrev main_cst_25 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_cst_26 : Ref sig .tc := ⟨.hbm, 179, rfl⟩
abbrev main_v80 : Ref sig .tc := ⟨.hbm, 180, rfl⟩
abbrev main_cst_27 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_cst_28 : Ref sig .tc := ⟨.hbm, 187, rfl⟩
abbrev main_v86 : Ref sig .tc := ⟨.hbm, 188, rfl⟩
abbrev main_cst_29 : Ref sig .tc := ⟨.hbm, 189, rfl⟩
abbrev main_v87 : Ref sig .tc := ⟨.hbm, 190, rfl⟩
abbrev main_cst_30 : Ref sig .tc := ⟨.hbm, 191, rfl⟩
abbrev main_v88 : Ref sig .tc := ⟨.hbm, 192, rfl⟩
abbrev main_cst_31 : Ref sig .tc := ⟨.hbm, 193, rfl⟩
abbrev main_v89 : Ref sig .tc := ⟨.hbm, 194, rfl⟩
abbrev main_cst_32 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩

abbrev nD : Nat := 1
abbrev τ : Topo := Topo.v7x

variable {F : FTy → Type} [FloatOps F]

class Facts₀ : Prop where
  reducesTo_S2x4096x33_S2x4096_d2 : S2x4096x33.ReducesTo [2] S2x4096
  h_S_ : 0 < S_.numel
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x33_0_1_2 : S2x4096x1.BroadcastsInDim S2x4096x33 (![0, 1, 2] : Fin 3 → Fin S2x4096x33.rank)
  bcast_S_S2x4096x1 : S_.BroadcastsInDim S2x4096x1 (![] : Fin 0 → Fin S2x4096x1.rank)
  shapeCasts_S2x4096x1_S2x4096x1x1 : S2x4096x1.ShapeCasts S2x4096x1x1
  bcast_S_S2x4096x1x1 : S_.BroadcastsInDim S2x4096x1x1 (![] : Fin 0 → Fin S2x4096x1x1.rank)
  bcast_S1_S1x1x1x1_3 : S1.BroadcastsInDim S1x1x1x1 (![3] : Fin 1 → Fin S1x1x1x1.rank)
  bcast_S1x1x1x1_S2x4096x1x1_0_1_2_3 : S1x1x1x1.BroadcastsInDim S2x4096x1x1 (![0, 1, 2, 3] : Fin 4 → Fin S2x4096x1x1.rank)
  reducesTo_S2x4096x1x1_S2x4096x1_d3 : S2x4096x1x1.ReducesTo [3] S2x4096x1
  shapeCasts_S2x4096x1_S2x4096 : S2x4096x1.ShapeCasts S2x4096
  reducesTo_S2x4096_S_d0_1 : S2x4096.ReducesTo [0, 1] S_
  bcast_S2x4096_S2x1x4096_0_2 : S2x4096.BroadcastsInDim S2x1x4096 (![0, 2] : Fin 2 → Fin S2x1x4096.rank)
  bcast_S2x4096x1_S2x4096x4096_0_1_2 : S2x4096x1.BroadcastsInDim S2x4096x4096 (![0, 1, 2] : Fin 3 → Fin S2x4096x4096.rank)
  bcast_S2x1x4096_S2x4096x4096_0_1_2 : S2x1x4096.BroadcastsInDim S2x4096x4096 (![0, 1, 2] : Fin 3 → Fin S2x4096x4096.rank)
  bcast_S_S2x4096x4096 : S_.BroadcastsInDim S2x4096x4096 (![] : Fin 0 → Fin S2x4096x4096.rank)
  reducesTo_S2x4096x4096_S_d0_1_2 : S2x4096x4096.ReducesTo [0, 1, 2] S_
  shapeCasts_S2x4096_S8192 : S2x4096.ShapeCasts S8192
  bcast_S_S8192 : S_.BroadcastsInDim S8192 (![] : Fin 0 → Fin S8192.rank)
  reducesTo_S8192_S_d0 : S8192.ReducesTo [0] S_
  gather_S2x4096x33_S2x4096x1x1_S2x4096x1_n_2_01_01_2_3_111_wf : GatherDims.WF S2x4096x33 S2x4096x1x1 S2x4096x1 [] [2] [0, 1] [2] [0, 1] 3 ![1, 1, 1]
  dot_S2x4096x33_S2x4096x33_S2x4096x4096_2_2_1_1_0_0_wf : DotDims.WF S2x4096x33 S2x4096x33 S2x4096x4096 [2] [2] [1] [1] [0] [0]

variable [Facts₀]

def gather_S2x4096x33_S2x4096x1x1_S2x4096x1_n_2_01_01_2_3_111 : GatherDims S2x4096x33 S2x4096x1x1 S2x4096x1 where
  offsetDims := []
  collapsedSliceDims := [2]
  operandBatchingDims := [0, 1]
  startIndicesBatchingDims := [0, 1]
  startIndexMap := [2]
  indexVectorDim := 3
  sliceSizes := ![1, 1, 1]
  wf := gather_S2x4096x33_S2x4096x1x1_S2x4096x1_n_2_01_01_2_3_111_wf
def dot_S2x4096x33_S2x4096x33_S2x4096x4096_2_2_1_1_0_0 : DotDims S2x4096x33 S2x4096x33 S2x4096x4096 where
  lhsContracting := [2]
  rhsContracting := [2]
  lhsNonContracting := [1]
  rhsNonContracting := [1]
  lhsBatch := [0]
  rhsBatch := [0]
  wf := dot_S2x4096x33_S2x4096x33_S2x4096x4096_2_2_1_1_0_0_wf

class Facts : Prop extends Facts₀ where

variable [Facts]
-- ==== Proof.KernelBody.lean ====
/-
  The kernel body of the pairwise-distance KL sweep, run once at symbolic operands.

  At a grid point (b, i, j) the body reads four staged tiles — the query rows and the key rows of the one-hot
  targets, the query rows and the key rows of the class probabilities, each 512 rows of 33 classes — and one
  staged scalar accumulator. It adds to the accumulator the tile's contribution
      Σ_r Σ_c  D(r, c) · (log D(r, c) − E(r, c)),
  D the thresholded distance between target rows r and c, E the distance between probability rows r and c.
  At the first point of the grid it first overwrites the accumulator by zero. The two runs below are the body at
  the first point (the accumulator found is ignored) and at any later point (the accumulator found is kept and
  added to). In both the four input tiles are handed back as found.
-/
import proofs.«171995_j84464826843907_1_alg».proof.Proof.Gen.Kernel.Launch
import proofs.«171995_j84464826843907_1_alg».proof.Proof.Gen.Kernel.Skeleton
import proofs.«171995_j84464826843907_1_alg».proof.Proof.Gen.Kernel.Points
import Idealize.ShloMosaic.Lib.Pipeline.FrameBody
import Idealize.ShloMosaic.Lib.Tactic
import Idealize.ShloMosaic.Lib.Pipeline.Value

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body resets the accumulator exactly when all three grid coordinates are zero. -/
abbrev atFirst (i : grid0.Coords) : Prop :=
  Scalar.cmpi .ne (Scalar.extui (Scalar.andi (Scalar.andi (Scalar.cmpi .eq (BitVec.ofNat 32 (i 0).val) 0#32)
    (Scalar.cmpi .eq (BitVec.ofNat 32 (i 1).val) 0#32)) (Scalar.cmpi .eq (BitVec.ofNat 32 (i 2).val) 0#32))) 0#32 = 1#1

/-- Over the grid (2, 8, 8) in row-major order that is the point numbered zero. -/
theorem atFirst_iff : ∀ t : Fin cfg0.N, atFirst (grid0.coords t) ↔ t.val = 0 :=
  (by decide +kernel : ∀ t : Fin grid0.N, atFirst (grid0.coords t) ↔ t.val = 0)

/-- The accumulator after the body, from the four tiles and the accumulator the addition reads: the accumulator plus
    the tile's contribution. -/
def stepAcc (yq yk pq pk : Vec F S1x512x33 .f32) (acc : Vec F S1x1 .f32) : Vec F S1x1 .f32 :=
  k0_pay1 (k0_pay6 (k0_pay5 yq yk) (Scalar.ofBits .f32 0x00000000#32)) (k0_pay8 (k0_pay3 pq) (k0_pay4 pk))
    (k0_pay9 (k0_pay3 pq) (k0_pay4 pk)) (k0_pay10 (F := F)) acc

theorem hz2 : (![0, 0] : Fin 2 → ℕ) = fun _ => 0 := by funext a; fin_cases a <;> rfl
theorem hz3 : (![0, 0, 0] : Fin 3 → ℕ) = fun _ => 0 := by funext a; fin_cases a <;> rfl

set_option maxHeartbeats 1000000 in
/-- A later point: the accumulator found is added to. -/
theorem run_later (c : Dev nD) (i : grid0.Coords)
    (a3 : Memref sig .tc .vmem S1x512x33 .f32) (h3 : a3.IsWhole) (a4 : Memref sig .tc .vmem S1x512x33 .f32) (h4 : a4.IsWhole)
    (a5 : Memref sig .tc .vmem S1x512x33 .f32) (h5 : a5.IsWhole) (a6 : Memref sig .tc .vmem S1x512x33 .f32) (h6 : a6.IsWhole)
    (a7 : Memref sig .tc .vmem S1x1 .f32) (h7 : a7.IsWhole) (hc : ¬ atFirst i)
    (yq yk pq pk : Vec F S1x512x33 .f32) (acc : Vec F S1x1 .f32) (E : Set ℕ) (K : PUnit → sProp 𝕄) :
    iprop(owns (c : Thread nD τ) a3 fullShare yq ∗ owns (c : Thread nD τ) a4 fullShare yk ∗ owns (c : Thread nD τ) a5 fullShare pq
        ∗ owns (c : Thread nD τ) a6 fullShare pk ∗ owns (c : Thread nD τ) a7 fullShare acc
        ∗ (iprop(owns (c : Thread nD τ) a3 fullShare yq ∗ owns (c : Thread nD τ) a4 fullShare yk ∗ owns (c : Thread nD τ) a5 fullShare pq
            ∗ owns (c : Thread nD τ) a6 fullShare pk ∗ owns (c : Thread nD τ) a7 fullShare (stepAcc yq yk pq pk acc)) -∗ K ⟨⟩))
      ⊢ wp frame (wpE (defs₀ (F := F)) Variants.none c none) E (cc0__kl_kernel i a3 h3 a4 h4 a5 h5 a6 h6 a7 h7) K := by
  simp only [cc0__kl_kernel_eq_skeleton]; unfold cc0__kl_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3
  obtain rfl := h4.eq_unread hf4
  obtain rfl := h5.eq_unread hf5
  obtain rfl := h6.eq_unread hf6
  obtain rfl := h7.eq_unread hf7
  sl_exec (disch := first | exact hc)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  rw [View.read_writes_eq_canon _ _ _ (fun y => ⟨_, List.mem_singleton_self _, View.mem_set_unit_zero hz2 inb_S1x1_S1x1_0_0 y⟩), View.canon_unit_zero hz2]
  sl_unfold_words
  simp only [View.readAt_eq_ld, h3.read_unread, h4.read_unread, h5.read_unread, h6.read_unread, h7.read_unread,
    View.ld_unit_zero (S := S1x512x33) hz3, View.ld_unit_zero (S := S1x1) hz2]
  rfl

set_option maxHeartbeats 1000000 in
/-- The first point: the accumulator found is overwritten by zero before it is added to. -/
theorem run_first (c : Dev nD) (i : grid0.Coords)
    (a3 : Memref sig .tc .vmem S1x512x33 .f32) (h3 : a3.IsWhole) (a4 : Memref sig .tc .vmem S1x512x33 .f32) (h4 : a4.IsWhole)
    (a5 : Memref sig .tc .vmem S1x512x33 .f32) (h5 : a5.IsWhole) (a6 : Memref sig .tc .vmem S1x512x33 .f32) (h6 : a6.IsWhole)
    (a7 : Memref sig .tc .vmem S1x1 .f32) (h7 : a7.IsWhole) (hc : atFirst i)
    (yq yk pq pk : Vec F S1x512x33 .f32) (acc : Vec F S1x1 .f32) (E : Set ℕ) (K : PUnit → sProp 𝕄) :
    iprop(owns (c : Thread nD τ) a3 fullShare yq ∗ owns (c : Thread nD τ) a4 fullShare yk ∗ owns (c : Thread nD τ) a5 fullShare pq
        ∗ owns (c : Thread nD τ) a6 fullShare pk ∗ owns (c : Thread nD τ) a7 fullShare acc
        ∗ (iprop(owns (c : Thread nD τ) a3 fullShare yq ∗ owns (c : Thread nD τ) a4 fullShare yk ∗ owns (c : Thread nD τ) a5 fullShare pq
            ∗ owns (c : Thread nD τ) a6 fullShare pk ∗ owns (c : Thread nD τ) a7 fullShare (stepAcc yq yk pq pk (k0_pay2 (F := F)))) -∗ K ⟨⟩))
      ⊢ wp frame (wpE (defs₀ (F := F)) Variants.none c none) E (cc0__kl_kernel i a3 h3 a4 h4 a5 h5 a6 h6 a7 h7) K := by
  simp only [cc0__kl_kernel_eq_skeleton]; unfold cc0__kl_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3
  obtain rfl := h4.eq_unread hf4
  obtain rfl := h5.eq_unread hf5
  obtain rfl := h6.eq_unread hf6
  obtain rfl := h7.eq_unread hf7
  sl_exec (disch := first | exact hc)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  rw [View.read_writes_eq_canon _ _ _ (fun y => ⟨_, List.mem_cons.mpr (Or.inl rfl), View.mem_set_unit_zero hz2 inb_S1x1_S1x1_0_0 y⟩),
    View.canon_cons_unit_zero hz2]
  sl_unfold_words
  have e := View.readCov_unit_zero (Val := Elt F) (S := S1x1) (e := .f32) a7.view hz2 inb_S1x1_S1x1_0_0 (k0_pay2 (F := F))
  simp only [View.readAt_eq_ld, h3.read_unread, h4.read_unread, h5.read_unread, h6.read_unread, h7.read_unread,
    View.ld_unit_zero (S := S1x512x33) hz3, View.ld_unit_zero (S := S1x1) hz2, e]
  rfl

end Cert.Kernel.Sweep

end
-- ==== Proof.KernelData.lean ====
/-
  The sweep's proof data over the pipeline: what every staging buffer holds before and after the body at each of
  the 128 grid points.

  The four input windows read two arrays — the one-hot targets through the query window (block (b, i)) and the key
  window (block (b, j)), the class probabilities likewise — so each array is held by two windows, half a share each.
  An input's staging buffer holds the window's block of its array at every point, fetched there or kept from the
  point before. The output window is one scalar, written back after the last point only: its staging buffer is the
  running sum, zero plus the first tile's contribution after point 0, the previous value plus tile t's after point t.
-/
import proofs.«171995_j84464826843907_1_alg».proof.Proof.KernelBody
import Idealize.ShloMosaic.Lib.Pipeline.Frame
import Idealize.ShloMosaic.Lib.Pipeline.Regions

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The host program's buffers, stretch by stretch -/

/-- Core `c`'s buffers at launch, -/
abbrev V0 (c : Dev nD) : Valuation τ sig (Elt F) := fun b => m (c, b)
/-- after the log-softmax, -/
abbrev V1 (c : Dev nD) : Valuation τ sig (Elt F) := StableHlo.after hostOps0 (V0 m c)
/-- after the targets are given a unit axis, -/
abbrev V2 (c : Dev nD) : Valuation τ sig (Elt F) := StableHlo.after hostOps0_1 (V1 m c)
/-- after the gather along the class axis, -/
abbrev V3 (c : Dev nD) : Valuation τ sig (Elt F) := StableHlo.after hostOps0_2 (V2 m c)
/-- and when the sweep is entered: the focal term and the softmax are computed. -/
abbrev V4 (c : Dev nD) : Valuation τ sig (Elt F) := StableHlo.after hostOps0_3 (V3 m c)

/-- The buffers as the sweep finds them, by reference. -/
abbrev Ve (c : Dev nD) (b : Ref sig .tc) : Buf (Elt F) ((c : Thread nD τ).loc b) := V4 m c b

/-! ## The windows' blocks and the running sum -/

/-- Window `w`'s block at point `t`, read off its array as the sweep finds it. -/
def iblk (c : Dev nD) (w : Fin cfg0.W) (t : Fin cfg0.N) : ((cfg0.win w).xblock (cfg0.grid.coords t)).Idx → Elt F (cfg0.win w).elt :=
  ((cfg0.win w).blk t).view.read (Elt F) (Ve m c (Pipeline.arrRef spec0 w))

/-- The running sum after point `n`: zero plus the first tile's contribution, then each tile's added in turn. -/
def accAt (c : Dev nD) : (n : ℕ) → n < cfg0.N → Vec F S1x1 .f32
  | 0, hn => stepAcc (iblk m c 0 ⟨0, hn⟩) (iblk m c 1 ⟨0, hn⟩) (iblk m c 2 ⟨0, hn⟩) (iblk m c 3 ⟨0, hn⟩) (k0_pay2 (F := F))
  | n + 1, hn => stepAcc (iblk m c 0 ⟨n + 1, hn⟩) (iblk m c 1 ⟨n + 1, hn⟩) (iblk m c 2 ⟨n + 1, hn⟩) (iblk m c 3 ⟨n + 1, hn⟩)
      (accAt c n (Nat.lt_of_succ_lt hn))

theorem accAt_first (c : Dev nD) (t : Fin cfg0.N) (h0 : t.val = 0) :
    accAt m c t.val t.isLt = stepAcc (iblk m c 0 t) (iblk m c 1 t) (iblk m c 2 t) (iblk m c 3 t) (k0_pay2 (F := F)) := by
  obtain ⟨n, hn⟩ := t
  cases n with
  | zero => rfl
  | succ n => exact absurd h0 (Nat.succ_ne_zero n)

theorem accAt_later (c : Dev nD) (t : Fin cfg0.N) (h0 : t.val ≠ 0) :
    accAt m c t.val t.isLt = stepAcc (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd rfl h0
  | succ n => rfl

/-! ## The proof data -/

/-- On core `c`: the arrays as the sweep finds them; after the body each input's buffer at its block and the
    output's at the running sum; between points only the scoped buffers that are no staging buffer; each shared
    array's share halved between its two windows; nothing owed. -/
def dats (_ : Fin 1) (c : Dev nD) : Dat τ (Elt F) Unit ℕ (UR sig nD τ) ℕ cfg0 c where
  A w := Ve m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = Ve m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = accAt m c t.val t.isLt := by dsimp only [dats]

/-- An input's staging buffer holds its block at every point, fetched there or kept (the block index has not moved). -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- At the first point the output's staging buffer is fresh. -/
theorem before_4_first (c : Dev nD) (t : Fin cfg0.N) (h0 : t.val = 0) (d) : (dats m 0 c).before 4 t d = d :=
  (dats m 0 c).before_out_reset 4 rfl t (.inl h0) d

/-- At a later point it holds the running sum the point before left: it is written back after the last point only. -/
theorem before_4_later (c : Dev nD) (t : Fin cfg0.N) (h0 : t.val ≠ 0) (d) :
    (dats m 0 c).before 4 t d = accAt m c (t.val - 1) (Nat.lt_of_le_of_lt (Nat.sub_le _ _) t.isLt) := by
  have hN : t.val < 128 := lt_of_lt_of_eq t.isLt (show cfg0.N = 128 from N_0)
  rw [Dat.before_out_kept _ 4 rfl t h0 (Bool.eq_false_iff.mpr fun h => by have := (flush0_4 _).mp h; dsimp only at this; omega)
    (fun _ => rfl) (fun _ _ => rfl)]
  dsimp only [dats]

/-! ## The body obligation -/

/-- Each window's current staging memref at point `t`, as the pipeline passes it to the body. -/
abbrev ms0 (t : Fin cfg0.N) : Memref sig .tc .vmem S1x512x33 .f32 := win0_0.stage (cfg0.slots t 0)
abbrev ms1 (t : Fin cfg0.N) : Memref sig .tc .vmem S1x512x33 .f32 := win0_1.stage (cfg0.slots t 1)
abbrev ms2 (t : Fin cfg0.N) : Memref sig .tc .vmem S1x512x33 .f32 := win0_2.stage (cfg0.slots t 2)
abbrev ms3 (t : Fin cfg0.N) : Memref sig .tc .vmem S1x512x33 .f32 := win0_3.stage (cfg0.slots t 3)
abbrev ms4 (t : Fin cfg0.N) : Memref sig .tc .vmem S1x1 .f32 := win0_4.stage (cfg0.slots t 4)

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def pointPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; at the first point the output's buffer is fresh and
    the body resets it, at a later point it holds the running sum and the body adds to it. The invariant and the
    core's dues pass through untouched. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val = 0
  · rw [accAt_first m c t h0]
    simp only [before_4_first m c t h0]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((atFirst_iff t).mpr h0)
      (iblk m c 0 t) (iblk m c 1 t) (iblk m c 2 t) (iblk m c 3 t) d4 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_later m c t h0]
    simp only [before_4_later m c t h0]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun h => h0 ((atFirst_iff t).mp h))
      (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact point_sound m c t

end Cert.Kernel.Sweep

end
-- ==== Proof.KernelRun.lean ====
/-
  The sweep's launch: the host program as six segments — the log-softmax, the unit axis given to the targets, the
  gather along the class axis, the focal term with the softmax, THE SWEEP, and the closing arithmetic — and what every
  buffer outside the core's scratch holds when the program returns.

  The sweep reads two arrays through two windows each; each array's buffer is split in two half shares at the entry and
  put together again at the exit, where both halves still hold the entry contents (an input window is never written
  back). The scalar result's buffer ends at what the last point wrote back: the running sum over all 128 tiles.
-/
import proofs.«171995_j84464826843907_1_alg».proof.Proof.KernelData

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers after the sweep and at the return -/

/-- The three buffers behind the windows' arrays: the one-hot targets, the class probabilities, the scalar result. -/
def arrSet : Finset (DevRef τ sig) :=
  {Proc.devRef .tc main_arg1, Proc.devRef .tc main_v26, Proc.devRef .tc main_v27}

theorem arrSet_sub : (arrSet : Finset (DevRef τ sig)) ⊆ Pipeline.ucRefs τ sig := by decide

/-- After the sweep: the result's buffer at what the pipeline wrote back, every other buffer as the sweep found it. -/
def V5 (c : Dev nD) : Valuation τ sig (Elt F) :=
  Function.update (V4 m c) (Proc.devRef .tc main_v27) ((dats m 0 c).arrAt 4 cfg0.N)

/-- At the return: the closing arithmetic has run. -/
abbrev V6 (c : Dev nD) : Valuation τ sig (Elt F) := StableHlo.after hostOps1 (V5 m c)

theorem V5_of_ne (c : Dev nD) (b : DevRef τ sig) (h : b ≠ Proc.devRef .tc main_v27) : V5 m c b = V4 m c b := by
  unfold V5; exact Function.update_of_ne h _ _

theorem V5_out (c : Dev nD) : V5 m c (Proc.devRef .tc main_v27) = (dats m 0 c).arrAt 4 cfg0.N := by
  unfold V5; exact Function.update_self _ _ _

/-! ## The segments -/

abbrev adm : (p : Fin 1) → (pcfgs (F := F) p).Adm := fun p => (cfgs p).toPCfg_adm
/-- No core owes another anything: no level is assigned. -/
abbrev L : GSem nD τ sig → Finset Unit := fun _ => ∅
abbrev lv : GSem nD τ sig → Unit → ℕ := fun _ _ => 0
/-- What rides beside the buffers through every segment: the core's dues, at nothing. -/
abbrev R (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations as a segment: over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The arrays in and out of the unscoped buffers -/

/-- The three buffers, one by one. -/
theorem held_arrSet (c : Dev nD) (W : Valuation τ sig (Elt F)) :
    (StableHlo.held (c : Thread nD τ) arrSet W : sProp 𝕄)
      = iprop((((c : Thread nD τ).1, Proc.devRef .tc main_arg1) ↦{fullShare} W (Proc.devRef .tc main_arg1))
          ∗ (((c : Thread nD τ).1, Proc.devRef .tc main_v26) ↦{fullShare} W (Proc.devRef .tc main_v26))
          ∗ (((c : Thread nD τ).1, Proc.devRef .tc main_v27) ↦{fullShare} W (Proc.devRef .tc main_v27))) := by
  unfold StableHlo.held arrSet
  rw [bigSep_insert (by decide), bigSep_insert (by decide), bigSep_singleton]
  rfl

/-- ENTRY: the three buffers make the five windows' arrays at their entry contents — each shared array's buffer cut in
    two half shares, one per window on it. -/
theorem arrays_in (c : Dev nD) :
    (StableHlo.held (c : Thread nD τ) arrSet (V4 m c) : sProp 𝕄) ⊢ (dats m 0 c).arrays ((dats m 0 c).arrAt · 0) := by
  rw [held_arrSet]
  unfold Dat.arrays
  rw [bigSep_W0]
  rw [(arr_whole0 0).set_eq_univ, (arr_whole0 2).set_eq_univ, (arr_whole0 4).set_eq_univ]
  iintro ⟨H1, H26, H27⟩
  ihave H1' := (pointsTo_share (PosShare.mem_left_op_right fullShare)).1 $$ H1
  icases H1' with ⟨H1a, H1b⟩
  ihave H26' := (pointsTo_share (PosShare.mem_left_op_right fullShare)).1 $$ H26
  icases H26' with ⟨H26a, H26b⟩
  isplitl [H1a]; · iexact H1a
  isplitl [H1b]; · iexact H1b
  isplitl [H26a]; · iexact H26a
  isplitl [H26b]; · iexact H26b
  iexact H27

/-- Two half shares of one buffer at the same contents are the buffer whole. -/
theorem join_halves (c : Dev nD) (b : Ref sig .tc) (f : Buf (Elt F) ((c : Thread nD τ).loc b)) :
    iprop((((c : Thread nD τ).loc b) ↦{fullShare.left} f) ∗ (((c : Thread nD τ).loc b) ↦{fullShare.right} f))
      ⊢ ((((c : Thread nD τ).loc b) ↦{fullShare} f) : sProp 𝕄) :=
  (pointsTo_share (PosShare.mem_left_op_right fullShare)).2

set_option maxHeartbeats 1000000 in
/-- EXIT: the five windows' arrays at their final contents make the three buffers at the contents after the sweep —
    the two halves of each shared array's buffer hold the same (entry) contents and join. -/
theorem arrays_out (c : Dev nD) :
    (dats m 0 c).arrays ((dats m 0 c).arrAt · cfg0.N) ⊢ (StableHlo.held (c : Thread nD τ) arrSet (V5 m c) : sProp 𝕄) := by
  rw [held_arrSet, V5_out, V5_of_ne m c _ (by decide), V5_of_ne m c _ (by decide)]
  unfold Dat.arrays
  rw [bigSep_W0]
  rw [(arr_whole0 0).set_eq_univ, (arr_whole0 2).set_eq_univ, (arr_whole0 4).set_eq_univ]
  beta_reduce
  rw [(dats m 0 c).arrAt_in 0 rfl, (dats m 0 c).arrAt_in 1 rfl, (dats m 0 c).arrAt_in 2 rfl, (dats m 0 c).arrAt_in 3 rfl,
    A_eq m c 0, A_eq m c 1, A_eq m c 2, A_eq m c 3]
  iintro ⟨H0, H1, H2, H3, H4⟩
  ihave Ha := (join_halves c main_arg1 (V4 m c (Proc.devRef .tc main_arg1))) $$ [H0 H1]
  · isplitl [H0]; · iexact H0
    iexact H1
  ihave Hb := (join_halves c main_v26 (V4 m c (Proc.devRef .tc main_v26))) $$ [H2 H3]
  · isplitl [H2]; · iexact H2
    iexact H3
  isplitl [Ha]; · iexact Ha
  isplitl [Hb]; · iexact Hb
  iexact H4

/-- The buffers that are no window's array are untouched by the sweep. -/
theorem held_rest (c : Dev nD) :
    (StableHlo.held (c : Thread nD τ) (Pipeline.ucRefs τ sig \ arrSet) (V5 m c) : sProp 𝕄)
      = StableHlo.held (c : Thread nD τ) (Pipeline.ucRefs τ sig \ arrSet) (V4 m c) :=
  StableHlo.held_congr _ fun b hb => V5_of_ne m c b fun e => (Finset.mem_sdiff.mp hb).2 (by rw [e]; decide)

set_option backward.isDefEq.respectTransparency.types false in
/-- THE SWEEP as a segment: entered from every unscoped buffer at the contents the host prefix left, left at the
    contents after the sweep. No semaphore of its own; the invariant between points is the core's scoped buffers
    that are no staging buffer; nothing owed. -/
def sweepSeg : Pipeline.RegionSeg (pcfgs (F := F)) adm (dats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m c) ∗ R c)
  X c := iprop(emp)
  Y c := iprop(emp)
  Z c := StableHlo.held (c : Thread nD τ) (Pipeline.ucRefs τ sig \ arrSet) (V4 m c)
  hentry c := by
    rw [Pipeline.ownSems0_none, StableHlo.held_sub_split (c : Thread nD τ) arrSet_sub (V4 m c)]
    iintro ⟨⟨⟨Harr, Hrest⟩, HO⟩, -, -⟩
    ihave Ha := (arrays_in m c) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [StableHlo.held_sub_split (c : Thread nD τ) arrSet_sub (V5 m c), held_rest]
    iintro ⟨Ha, HO, -, Hrest⟩
    ihave Harr := (arrays_out m c) $$ Ha
    imodintro
    isplitl [Harr Hrest]
    · isplitl [Harr]; · iexact Harr
      iexact Hrest
    unfold Pipeline.Dat.owesAt Pipeline.owesWithin
    icases HO with ⟨%W, -, HO⟩; iexists W; iexact HO

/-! ## @main as the six segments, and the launch -/

abbrev segs : List (Pipeline.Seg (pcfgs (F := F)) adm (dats m) () defs₀ Variants.none L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .region (sweepSeg m),
    .host (hseg hostOps1 hostOps1_sub hostOps1_fresh (V5 m)) ]

/-- @main is the run of the segments. -/
theorem main_run (c : Dev nD) : main (F := F) c = Pipeline.Seg.run (segs m) := (main_chain c).trans (by chain_rfl)

set_option backward.isDefEq.respectTransparency.types false in
/-- At the compiled mesh, from any memory with zero counters: every weakly fair execution of @main on the TensorCores
    terminates, nothing faulting, and every final state has every unscoped buffer at the contents the six segments
    compute. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V6 m c b) :=
  Pipeline.θ_run_regions_kit (pcfgs (F := F)) adm (dats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V6 m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = V6 m c b)
    (hfin := fun c s' => by
      iintro ⟨Hh, HSI⟩
      unfold StableHlo.held
      imodintro
      iapply (pointsTo_read_all (Pipeline.ucRefs τ sig) (fun b => (((c : Thread nD τ)).1, b)) (V6 m c) s')
      isplitl [Hh] <;> iassumption)
    (hQ := fun s h c => h c)

/-! ## The arguments end as launched: no host operation writes one, and the sweep only reads them -/

/-- An unscoped TensorCore reference is among those the last segment leaves held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

local macro "no_write " ops:ident : tactic =>
  `(tactic| (simp only [$ops:ident, List.Forall, StableHlo.nullary_writes, StableHlo.unary_writes, StableHlo.binary_writes, StableHlo.ternary_writes, StableHlo.quaternary_writes, StableHlo.reshape_writes, StableHlo.binaryIndexed_writes, Finset.mem_singleton] <;> repeat' apply And.intro) <;> exact StableHlo.devRef_ne_of_ne (by decide))

theorem V6_arg0 (c : Dev nD) : V6 m c (Proc.devRef .tc main_arg0) = m ((c : Thread nD τ).loc main_arg0) :=
  calc V6 m c (Proc.devRef .tc main_arg0)
    _ = V5 m c (Proc.devRef .tc main_arg0) := StableHlo.after_of_forall_not_mem (b := Proc.devRef .tc main_arg0) _ _ (List.forall_iff_forall_mem.mp (by no_write hostOps1))
    _ = V4 m c (Proc.devRef .tc main_arg0) := V5_of_ne m c _ (by decide)
    _ = V3 m c (Proc.devRef .tc main_arg0) := StableHlo.after_of_forall_not_mem (b := Proc.devRef .tc main_arg0) _ _ (List.forall_iff_forall_mem.mp (by no_write hostOps0_3))
    _ = V2 m c (Proc.devRef .tc main_arg0) := StableHlo.after_of_forall_not_mem (b := Proc.devRef .tc main_arg0) _ _ (List.forall_iff_forall_mem.mp (by no_write hostOps0_2))
    _ = V1 m c (Proc.devRef .tc main_arg0) := StableHlo.after_of_forall_not_mem (b := Proc.devRef .tc main_arg0) _ _ (List.forall_iff_forall_mem.mp (by no_write hostOps0_1))
    _ = V0 m c (Proc.devRef .tc main_arg0) := StableHlo.after_of_forall_not_mem (b := Proc.devRef .tc main_arg0) _ _ (List.forall_iff_forall_mem.mp (by no_write hostOps0))
    _ = m ((c : Thread nD τ).loc main_arg0) := rfl

theorem V6_arg1 (c : Dev nD) : V6 m c (Proc.devRef .tc main_arg1) = m ((c : Thread nD τ).loc main_arg1) :=
  calc V6 m c (Proc.devRef .tc main_arg1)
    _ = V5 m c (Proc.devRef .tc main_arg1) := StableHlo.after_of_forall_not_mem (b := Proc.devRef .tc main_arg1) _ _ (List.forall_iff_forall_mem.mp (by no_write hostOps1))
    _ = V4 m c (Proc.devRef .tc main_arg1) := V5_of_ne m c _ (by decide)
    _ = V3 m c (Proc.devRef .tc main_arg1) := StableHlo.after_of_forall_not_mem (b := Proc.devRef .tc main_arg1) _ _ (List.forall_iff_forall_mem.mp (by no_write hostOps0_3))
    _ = V2 m c (Proc.devRef .tc main_arg1) := StableHlo.after_of_forall_not_mem (b := Proc.devRef .tc main_arg1) _ _ (List.forall_iff_forall_mem.mp (by no_write hostOps0_2))
    _ = V1 m c (Proc.devRef .tc main_arg1) := StableHlo.after_of_forall_not_mem (b := Proc.devRef .tc main_arg1) _ _ (List.forall_iff_forall_mem.mp (by no_write hostOps0_1))
    _ = V0 m c (Proc.devRef .tc main_arg1) := StableHlo.after_of_forall_not_mem (b := Proc.devRef .tc main_arg1) _ _ (List.forall_iff_forall_mem.mp (by no_write hostOps0))
    _ = m ((c : Thread nD τ).loc main_arg1) := rfl

theorem V6_arg2 (c : Dev nD) : V6 m c (Proc.devRef .tc main_arg2) = m ((c : Thread nD τ).loc main_arg2) :=
  calc V6 m c (Proc.devRef .tc main_arg2)
    _ = V5 m c (Proc.devRef .tc main_arg2) := StableHlo.after_of_forall_not_mem (b := Proc.devRef .tc main_arg2) _ _ (List.forall_iff_forall_mem.mp (by no_write hostOps1))
    _ = V4 m c (Proc.devRef .tc main_arg2) := V5_of_ne m c _ (by decide)
    _ = V3 m c (Proc.devRef .tc main_arg2) := StableHlo.after_of_forall_not_mem (b := Proc.devRef .tc main_arg2) _ _ (List.forall_iff_forall_mem.mp (by no_write hostOps0_3))
    _ = V2 m c (Proc.devRef .tc main_arg2) := StableHlo.after_of_forall_not_mem (b := Proc.devRef .tc main_arg2) _ _ (List.forall_iff_forall_mem.mp (by no_write hostOps0_2))
    _ = V1 m c (Proc.devRef .tc main_arg2) := StableHlo.after_of_forall_not_mem (b := Proc.devRef .tc main_arg2) _ _ (List.forall_iff_forall_mem.mp (by no_write hostOps0_1))
    _ = V0 m c (Proc.devRef .tc main_arg2) := StableHlo.after_of_forall_not_mem (b := Proc.devRef .tc main_arg2) _ _ (List.forall_iff_forall_mem.mp (by no_write hostOps0))
    _ = m ((c : Thread nD τ).loc main_arg2) := rfl

theorem V6_arg3 (c : Dev nD) : V6 m c (Proc.devRef .tc main_arg3) = m ((c : Thread nD τ).loc main_arg3) :=
  calc V6 m c (Proc.devRef .tc main_arg3)
    _ = V5 m c (Proc.devRef .tc main_arg3) := StableHlo.after_of_forall_not_mem (b := Proc.devRef .tc main_arg3) _ _ (List.forall_iff_forall_mem.mp (by no_write hostOps1))
    _ = V4 m c (Proc.devRef .tc main_arg3) := V5_of_ne m c _ (by decide)
    _ = V3 m c (Proc.devRef .tc main_arg3) := StableHlo.after_of_forall_not_mem (b := Proc.devRef .tc main_arg3) _ _ (List.forall_iff_forall_mem.mp (by no_write hostOps0_3))
    _ = V2 m c (Proc.devRef .tc main_arg3) := StableHlo.after_of_forall_not_mem (b := Proc.devRef .tc main_arg3) _ _ (List.forall_iff_forall_mem.mp (by no_write hostOps0_2))
    _ = V1 m c (Proc.devRef .tc main_arg3) := StableHlo.after_of_forall_not_mem (b := Proc.devRef .tc main_arg3) _ _ (List.forall_iff_forall_mem.mp (by no_write hostOps0_1))
    _ = V0 m c (Proc.devRef .tc main_arg3) := StableHlo.after_of_forall_not_mem (b := Proc.devRef .tc main_arg3) _ _ (List.forall_iff_forall_mem.mp (by no_write hostOps0))
    _ = m ((c : Thread nD τ).loc main_arg3) := rfl

end Cert.Kernel.Sweep

end
-- ==== Proof.KernelIdealBody.lean ====
/-
  The kernel body of the pairwise-distance KL sweep, run once at symbolic operands.

  At a grid point (b, i, j) the body reads four staged tiles — the query rows and the key rows of the one-hot
  targets, the query rows and the key rows of the class probabilities, each 512 rows of 33 classes — and one
  staged scalar accumulator. It adds to the accumulator the tile's contribution
      Σ_r Σ_c  D(r, c) · (log D(r, c) − E(r, c)),
  D the thresholded distance between target rows r and c, E the distance between probability rows r and c.
  At the first point of the grid it first overwrites the accumulator by zero. The two runs below are the body at
  the first point (the accumulator found is ignored) and at any later point (the accumulator found is kept and
  added to). In both the four input tiles are handed back as found.
-/
import proofs.«171995_j84464826843907_1_alg».proof.Proof.Gen.KernelIdeal.Launch
import proofs.«171995_j84464826843907_1_alg».proof.Proof.Gen.KernelIdeal.Skeleton
import proofs.«171995_j84464826843907_1_alg».proof.Proof.Gen.KernelIdeal.Points
import Idealize.ShloMosaic.Lib.Pipeline.FrameBody
import Idealize.ShloMosaic.Lib.Tactic
import Idealize.ShloMosaic.Lib.Pipeline.Value

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body resets the accumulator exactly when all three grid coordinates are zero. -/
abbrev atFirst (i : grid0.Coords) : Prop :=
  Scalar.cmpi .ne (Scalar.extui (Scalar.andi (Scalar.andi (Scalar.cmpi .eq (BitVec.ofNat 32 (i 0).val) 0#32)
    (Scalar.cmpi .eq (BitVec.ofNat 32 (i 1).val) 0#32)) (Scalar.cmpi .eq (BitVec.ofNat 32 (i 2).val) 0#32))) 0#32 = 1#1

/-- Over the grid (2, 8, 8) in row-major order that is the point numbered zero. -/
theorem atFirst_iff : ∀ t : Fin cfg0.N, atFirst (grid0.coords t) ↔ t.val = 0 :=
  (by decide +kernel : ∀ t : Fin grid0.N, atFirst (grid0.coords t) ↔ t.val = 0)

/-- The accumulator after the body, from the four tiles and the accumulator the addition reads: the accumulator plus
    the tile's contribution. -/
def stepAcc (yq yk pq pk : Vec F S1x512x33 .f32) (acc : Vec F S1x1 .f32) : Vec F S1x1 .f32 :=
  k0_pay1 (k0_pay6 (k0_pay5 yq yk) (Scalar.ofBits .f32 0x00000000#32)) (k0_pay8 (k0_pay3 pq) (k0_pay4 pk))
    (k0_pay9 (k0_pay3 pq) (k0_pay4 pk)) (k0_pay10 (F := F)) acc

theorem hz2 : (![0, 0] : Fin 2 → ℕ) = fun _ => 0 := by funext a; fin_cases a <;> rfl
theorem hz3 : (![0, 0, 0] : Fin 3 → ℕ) = fun _ => 0 := by funext a; fin_cases a <;> rfl

set_option maxHeartbeats 1000000 in
/-- A later point: the accumulator found is added to. -/
theorem run_later (c : Dev nD) (i : grid0.Coords)
    (a3 : Memref sig .tc .vmem S1x512x33 .f32) (h3 : a3.IsWhole) (a4 : Memref sig .tc .vmem S1x512x33 .f32) (h4 : a4.IsWhole)
    (a5 : Memref sig .tc .vmem S1x512x33 .f32) (h5 : a5.IsWhole) (a6 : Memref sig .tc .vmem S1x512x33 .f32) (h6 : a6.IsWhole)
    (a7 : Memref sig .tc .vmem S1x1 .f32) (h7 : a7.IsWhole) (hc : ¬ atFirst i)
    (yq yk pq pk : Vec F S1x512x33 .f32) (acc : Vec F S1x1 .f32) (E : Set ℕ) (K : PUnit → sProp 𝕄) :
    iprop(owns (c : Thread nD τ) a3 fullShare yq ∗ owns (c : Thread nD τ) a4 fullShare yk ∗ owns (c : Thread nD τ) a5 fullShare pq
        ∗ owns (c : Thread nD τ) a6 fullShare pk ∗ owns (c : Thread nD τ) a7 fullShare acc
        ∗ (iprop(owns (c : Thread nD τ) a3 fullShare yq ∗ owns (c : Thread nD τ) a4 fullShare yk ∗ owns (c : Thread nD τ) a5 fullShare pq
            ∗ owns (c : Thread nD τ) a6 fullShare pk ∗ owns (c : Thread nD τ) a7 fullShare (stepAcc yq yk pq pk acc)) -∗ K ⟨⟩))
      ⊢ wp frame (wpE (defs₀ (F := F)) Variants.none c none) E (cc0__kl_kernel i a3 h3 a4 h4 a5 h5 a6 h6 a7 h7) K := by
  simp only [cc0__kl_kernel_eq_skeleton]; unfold cc0__kl_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3
  obtain rfl := h4.eq_unread hf4
  obtain rfl := h5.eq_unread hf5
  obtain rfl := h6.eq_unread hf6
  obtain rfl := h7.eq_unread hf7
  sl_exec (disch := first | exact hc)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  rw [View.read_writes_eq_canon _ _ _ (fun y => ⟨_, List.mem_singleton_self _, View.mem_set_unit_zero hz2 inb_S1x1_S1x1_0_0 y⟩), View.canon_unit_zero hz2]
  sl_unfold_words
  simp only [View.readAt_eq_ld, h3.read_unread, h4.read_unread, h5.read_unread, h6.read_unread, h7.read_unread,
    View.ld_unit_zero (S := S1x512x33) hz3, View.ld_unit_zero (S := S1x1) hz2]
  rfl

set_option maxHeartbeats 1000000 in
/-- The first point: the accumulator found is overwritten by zero before it is added to. -/
theorem run_first (c : Dev nD) (i : grid0.Coords)
    (a3 : Memref sig .tc .vmem S1x512x33 .f32) (h3 : a3.IsWhole) (a4 : Memref sig .tc .vmem S1x512x33 .f32) (h4 : a4.IsWhole)
    (a5 : Memref sig .tc .vmem S1x512x33 .f32) (h5 : a5.IsWhole) (a6 : Memref sig .tc .vmem S1x512x33 .f32) (h6 : a6.IsWhole)
    (a7 : Memref sig .tc .vmem S1x1 .f32) (h7 : a7.IsWhole) (hc : atFirst i)
    (yq yk pq pk : Vec F S1x512x33 .f32) (acc : Vec F S1x1 .f32) (E : Set ℕ) (K : PUnit → sProp 𝕄) :
    iprop(owns (c : Thread nD τ) a3 fullShare yq ∗ owns (c : Thread nD τ) a4 fullShare yk ∗ owns (c : Thread nD τ) a5 fullShare pq
        ∗ owns (c : Thread nD τ) a6 fullShare pk ∗ owns (c : Thread nD τ) a7 fullShare acc
        ∗ (iprop(owns (c : Thread nD τ) a3 fullShare yq ∗ owns (c : Thread nD τ) a4 fullShare yk ∗ owns (c : Thread nD τ) a5 fullShare pq
            ∗ owns (c : Thread nD τ) a6 fullShare pk ∗ owns (c : Thread nD τ) a7 fullShare (stepAcc yq yk pq pk (k0_pay2 (F := F)))) -∗ K ⟨⟩))
      ⊢ wp frame (wpE (defs₀ (F := F)) Variants.none c none) E (cc0__kl_kernel i a3 h3 a4 h4 a5 h5 a6 h6 a7 h7) K := by
  simp only [cc0__kl_kernel_eq_skeleton]; unfold cc0__kl_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3
  obtain rfl := h4.eq_unread hf4
  obtain rfl := h5.eq_unread hf5
  obtain rfl := h6.eq_unread hf6
  obtain rfl := h7.eq_unread hf7
  sl_exec (disch := first | exact hc)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  rw [View.read_writes_eq_canon _ _ _ (fun y => ⟨_, List.mem_cons.mpr (Or.inl rfl), View.mem_set_unit_zero hz2 inb_S1x1_S1x1_0_0 y⟩),
    View.canon_cons_unit_zero hz2]
  sl_unfold_words
  have e := View.readCov_unit_zero (Val := Elt F) (S := S1x1) (e := .f32) a7.view hz2 inb_S1x1_S1x1_0_0 (k0_pay2 (F := F))
  simp only [View.readAt_eq_ld, h3.read_unread, h4.read_unread, h5.read_unread, h6.read_unread, h7.read_unread,
    View.ld_unit_zero (S := S1x512x33) hz3, View.ld_unit_zero (S := S1x1) hz2, e]
  rfl

end Cert.KernelIdeal.Sweep

end
-- ==== Proof.KernelIdealData.lean ====
/-
  The sweep's proof data over the pipeline: what every staging buffer holds before and after the body at each of
  the 128 grid points.

  The four input windows read two arrays — the one-hot targets through the query window (block (b, i)) and the key
  window (block (b, j)), the class probabilities likewise — so each array is held by two windows, half a share each.
  An input's staging buffer holds the window's block of its array at every point, fetched there or kept from the
  point before. The output window is one scalar, written back after the last point only: its staging buffer is the
  running sum, zero plus the first tile's contribution after point 0, the previous value plus tile t's after point t.
-/
import proofs.«171995_j84464826843907_1_alg».proof.Proof.KernelIdealBody
import Idealize.ShloMosaic.Lib.Pipeline.Frame
import Idealize.ShloMosaic.Lib.Pipeline.Regions

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The host program's buffers, stretch by stretch -/

/-- Core `c`'s buffers at launch, -/
abbrev V0 (c : Dev nD) : Valuation τ sig (Elt F) := fun b => m (c, b)
/-- after the log-softmax, -/
abbrev V1 (c : Dev nD) : Valuation τ sig (Elt F) := StableHlo.after hostOps0 (V0 m c)
/-- after the targets are given a unit axis, -/
abbrev V2 (c : Dev nD) : Valuation τ sig (Elt F) := StableHlo.after hostOps0_1 (V1 m c)
/-- after the gather along the class axis, -/
abbrev V3 (c : Dev nD) : Valuation τ sig (Elt F) := StableHlo.after hostOps0_2 (V2 m c)
/-- and when the sweep is entered: the focal term and the softmax are computed. -/
abbrev V4 (c : Dev nD) : Valuation τ sig (Elt F) := StableHlo.after hostOps0_3 (V3 m c)

/-- The buffers as the sweep finds them, by reference. -/
abbrev Ve (c : Dev nD) (b : Ref sig .tc) : Buf (Elt F) ((c : Thread nD τ).loc b) := V4 m c b

/-! ## The windows' blocks and the running sum -/

/-- Window `w`'s block at point `t`, read off its array as the sweep finds it. -/
def iblk (c : Dev nD) (w : Fin cfg0.W) (t : Fin cfg0.N) : ((cfg0.win w).xblock (cfg0.grid.coords t)).Idx → Elt F (cfg0.win w).elt :=
  ((cfg0.win w).blk t).view.read (Elt F) (Ve m c (Pipeline.arrRef spec0 w))

/-- The running sum after point `n`: zero plus the first tile's contribution, then each tile's added in turn. -/
def accAt (c : Dev nD) : (n : ℕ) → n < cfg0.N → Vec F S1x1 .f32
  | 0, hn => stepAcc (iblk m c 0 ⟨0, hn⟩) (iblk m c 1 ⟨0, hn⟩) (iblk m c 2 ⟨0, hn⟩) (iblk m c 3 ⟨0, hn⟩) (k0_pay2 (F := F))
  | n + 1, hn => stepAcc (iblk m c 0 ⟨n + 1, hn⟩) (iblk m c 1 ⟨n + 1, hn⟩) (iblk m c 2 ⟨n + 1, hn⟩) (iblk m c 3 ⟨n + 1, hn⟩)
      (accAt c n (Nat.lt_of_succ_lt hn))

theorem accAt_first (c : Dev nD) (t : Fin cfg0.N) (h0 : t.val = 0) :
    accAt m c t.val t.isLt = stepAcc (iblk m c 0 t) (iblk m c 1 t) (iblk m c 2 t) (iblk m c 3 t) (k0_pay2 (F := F)) := by
  obtain ⟨n, hn⟩ := t
  cases n with
  | zero => rfl
  | succ n => exact absurd h0 (Nat.succ_ne_zero n)

theorem accAt_later (c : Dev nD) (t : Fin cfg0.N) (h0 : t.val ≠ 0) :
    accAt m c t.val t.isLt = stepAcc (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd rfl h0
  | succ n => rfl

/-! ## The proof data -/

/-- On core `c`: the arrays as the sweep finds them; after the body each input's buffer at its block and the
    output's at the running sum; between points only the scoped buffers that are no staging buffer; each shared
    array's share halved between its two windows; nothing owed. -/
def dats (_ : Fin 1) (c : Dev nD) : Dat τ (Elt F) Unit ℕ (UR sig nD τ) ℕ cfg0 c where
  A w := Ve m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = Ve m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = accAt m c t.val t.isLt := by dsimp only [dats]

/-- An input's staging buffer holds its block at every point, fetched there or kept (the block index has not moved). -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- At the first point the output's staging buffer is fresh. -/
theorem before_4_first (c : Dev nD) (t : Fin cfg0.N) (h0 : t.val = 0) (d) : (dats m 0 c).before 4 t d = d :=
  (dats m 0 c).before_out_reset 4 rfl t (.inl h0) d

/-- At a later point it holds the running sum the point before left: it is written back after the last point only. -/
theorem before_4_later (c : Dev nD) (t : Fin cfg0.N) (h0 : t.val ≠ 0) (d) :
    (dats m 0 c).before 4 t d = accAt m c (t.val - 1) (Nat.lt_of_le_of_lt (Nat.sub_le _ _) t.isLt) := by
  have hN : t.val < 128 := lt_of_lt_of_eq t.isLt (show cfg0.N = 128 from N_0)
  rw [Dat.before_out_kept _ 4 rfl t h0 (Bool.eq_false_iff.mpr fun h => by have := (flush0_4 _).mp h; dsimp only at this; omega)
    (fun _ => rfl) (fun _ _ => rfl)]
  dsimp only [dats]

/-! ## The body obligation -/

/-- Each window's current staging memref at point `t`, as the pipeline passes it to the body. -/
abbrev ms0 (t : Fin cfg0.N) : Memref sig .tc .vmem S1x512x33 .f32 := win0_0.stage (cfg0.slots t 0)
abbrev ms1 (t : Fin cfg0.N) : Memref sig .tc .vmem S1x512x33 .f32 := win0_1.stage (cfg0.slots t 1)
abbrev ms2 (t : Fin cfg0.N) : Memref sig .tc .vmem S1x512x33 .f32 := win0_2.stage (cfg0.slots t 2)
abbrev ms3 (t : Fin cfg0.N) : Memref sig .tc .vmem S1x512x33 .f32 := win0_3.stage (cfg0.slots t 3)
abbrev ms4 (t : Fin cfg0.N) : Memref sig .tc .vmem S1x1 .f32 := win0_4.stage (cfg0.slots t 4)

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def pointPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; at the first point the output's buffer is fresh and
    the body resets it, at a later point it holds the running sum and the body adds to it. The invariant and the
    core's dues pass through untouched. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val = 0
  · rw [accAt_first m c t h0]
    simp only [before_4_first m c t h0]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((atFirst_iff t).mpr h0)
      (iblk m c 0 t) (iblk m c 1 t) (iblk m c 2 t) (iblk m c 3 t) d4 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_later m c t h0]
    simp only [before_4_later m c t h0]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun h => h0 ((atFirst_iff t).mp h))
      (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact point_sound m c t

end Cert.KernelIdeal.Sweep

end
-- ==== Proof.KernelIdealRun.lean ====
/-
  The sweep's launch: the host program as six segments — the log-softmax, the unit axis given to the targets, the
  gather along the class axis, the focal term with the softmax, THE SWEEP, and the closing arithmetic — and what every
  buffer outside the core's scratch holds when the program returns.

  The sweep reads two arrays through two windows each; each array's buffer is split in two half shares at the entry and
  put together again at the exit, where both halves still hold the entry contents (an input window is never written
  back). The scalar result's buffer ends at what the last point wrote back: the running sum over all 128 tiles.
-/
import proofs.«171995_j84464826843907_1_alg».proof.Proof.KernelIdealData

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers after the sweep and at the return -/

/-- The three buffers behind the windows' arrays: the one-hot targets, the class probabilities, the scalar result. -/
def arrSet : Finset (DevRef τ sig) :=
  {Proc.devRef .tc main_arg1, Proc.devRef .tc main_v26, Proc.devRef .tc main_v27}

theorem arrSet_sub : (arrSet : Finset (DevRef τ sig)) ⊆ Pipeline.ucRefs τ sig := by decide

/-- After the sweep: the result's buffer at what the pipeline wrote back, every other buffer as the sweep found it. -/
def V5 (c : Dev nD) : Valuation τ sig (Elt F) :=
  Function.update (V4 m c) (Proc.devRef .tc main_v27) ((dats m 0 c).arrAt 4 cfg0.N)

/-- At the return: the closing arithmetic has run. -/
abbrev V6 (c : Dev nD) : Valuation τ sig (Elt F) := StableHlo.after hostOps1 (V5 m c)

theorem V5_of_ne (c : Dev nD) (b : DevRef τ sig) (h : b ≠ Proc.devRef .tc main_v27) : V5 m c b = V4 m c b := by
  unfold V5; exact Function.update_of_ne h _ _

theorem V5_out (c : Dev nD) : V5 m c (Proc.devRef .tc main_v27) = (dats m 0 c).arrAt 4 cfg0.N := by
  unfold V5; exact Function.update_self _ _ _

/-! ## The segments -/

abbrev adm : (p : Fin 1) → (pcfgs (F := F) p).Adm := fun p => (cfgs p).toPCfg_adm
/-- No core owes another anything: no level is assigned. -/
abbrev L : GSem nD τ sig → Finset Unit := fun _ => ∅
abbrev lv : GSem nD τ sig → Unit → ℕ := fun _ _ => 0
/-- What rides beside the buffers through every segment: the core's dues, at nothing. -/
abbrev R (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations as a segment: over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The arrays in and out of the unscoped buffers -/

/-- The three buffers, one by one. -/
theorem held_arrSet (c : Dev nD) (W : Valuation τ sig (Elt F)) :
    (StableHlo.held (c : Thread nD τ) arrSet W : sProp 𝕄)
      = iprop((((c : Thread nD τ).1, Proc.devRef .tc main_arg1) ↦{fullShare} W (Proc.devRef .tc main_arg1))
          ∗ (((c : Thread nD τ).1, Proc.devRef .tc main_v26) ↦{fullShare} W (Proc.devRef .tc main_v26))
          ∗ (((c : Thread nD τ).1, Proc.devRef .tc main_v27) ↦{fullShare} W (Proc.devRef .tc main_v27))) := by
  unfold StableHlo.held arrSet
  rw [bigSep_insert (by decide), bigSep_insert (by decide), bigSep_singleton]
  rfl

/-- ENTRY: the three buffers make the five windows' arrays at their entry contents — each shared array's buffer cut in
    two half shares, one per window on it. -/
theorem arrays_in (c : Dev nD) :
    (StableHlo.held (c : Thread nD τ) arrSet (V4 m c) : sProp 𝕄) ⊢ (dats m 0 c).arrays ((dats m 0 c).arrAt · 0) := by
  rw [held_arrSet]
  unfold Dat.arrays
  rw [bigSep_W0]
  rw [(arr_whole0 0).set_eq_univ, (arr_whole0 2).set_eq_univ, (arr_whole0 4).set_eq_univ]
  iintro ⟨H1, H26, H27⟩
  ihave H1' := (pointsTo_share (PosShare.mem_left_op_right fullShare)).1 $$ H1
  icases H1' with ⟨H1a, H1b⟩
  ihave H26' := (pointsTo_share (PosShare.mem_left_op_right fullShare)).1 $$ H26
  icases H26' with ⟨H26a, H26b⟩
  isplitl [H1a]; · iexact H1a
  isplitl [H1b]; · iexact H1b
  isplitl [H26a]; · iexact H26a
  isplitl [H26b]; · iexact H26b
  iexact H27

/-- Two half shares of one buffer at the same contents are the buffer whole. -/
theorem join_halves (c : Dev nD) (b : Ref sig .tc) (f : Buf (Elt F) ((c : Thread nD τ).loc b)) :
    iprop((((c : Thread nD τ).loc b) ↦{fullShare.left} f) ∗ (((c : Thread nD τ).loc b) ↦{fullShare.right} f))
      ⊢ ((((c : Thread nD τ).loc b) ↦{fullShare} f) : sProp 𝕄) :=
  (pointsTo_share (PosShare.mem_left_op_right fullShare)).2

set_option maxHeartbeats 1000000 in
/-- EXIT: the five windows' arrays at their final contents make the three buffers at the contents after the sweep —
    the two halves of each shared array's buffer hold the same (entry) contents and join. -/
theorem arrays_out (c : Dev nD) :
    (dats m 0 c).arrays ((dats m 0 c).arrAt · cfg0.N) ⊢ (StableHlo.held (c : Thread nD τ) arrSet (V5 m c) : sProp 𝕄) := by
  rw [held_arrSet, V5_out, V5_of_ne m c _ (by decide), V5_of_ne m c _ (by decide)]
  unfold Dat.arrays
  rw [bigSep_W0]
  rw [(arr_whole0 0).set_eq_univ, (arr_whole0 2).set_eq_univ, (arr_whole0 4).set_eq_univ]
  beta_reduce
  rw [(dats m 0 c).arrAt_in 0 rfl, (dats m 0 c).arrAt_in 1 rfl, (dats m 0 c).arrAt_in 2 rfl, (dats m 0 c).arrAt_in 3 rfl,
    A_eq m c 0, A_eq m c 1, A_eq m c 2, A_eq m c 3]
  iintro ⟨H0, H1, H2, H3, H4⟩
  ihave Ha := (join_halves c main_arg1 (V4 m c (Proc.devRef .tc main_arg1))) $$ [H0 H1]
  · isplitl [H0]; · iexact H0
    iexact H1
  ihave Hb := (join_halves c main_v26 (V4 m c (Proc.devRef .tc main_v26))) $$ [H2 H3]
  · isplitl [H2]; · iexact H2
    iexact H3
  isplitl [Ha]; · iexact Ha
  isplitl [Hb]; · iexact Hb
  iexact H4

/-- The buffers that are no window's array are untouched by the sweep. -/
theorem held_rest (c : Dev nD) :
    (StableHlo.held (c : Thread nD τ) (Pipeline.ucRefs τ sig \ arrSet) (V5 m c) : sProp 𝕄)
      = StableHlo.held (c : Thread nD τ) (Pipeline.ucRefs τ sig \ arrSet) (V4 m c) :=
  StableHlo.held_congr _ fun b hb => V5_of_ne m c b fun e => (Finset.mem_sdiff.mp hb).2 (by rw [e]; decide)

set_option backward.isDefEq.respectTransparency.types false in
/-- THE SWEEP as a segment: entered from every unscoped buffer at the contents the host prefix left, left at the
    contents after the sweep. No semaphore of its own; the invariant between points is the core's scoped buffers
    that are no staging buffer; nothing owed. -/
def sweepSeg : Pipeline.RegionSeg (pcfgs (F := F)) adm (dats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m c) ∗ R c)
  X c := iprop(emp)
  Y c := iprop(emp)
  Z c := StableHlo.held (c : Thread nD τ) (Pipeline.ucRefs τ sig \ arrSet) (V4 m c)
  hentry c := by
    rw [Pipeline.ownSems0_none, StableHlo.held_sub_split (c : Thread nD τ) arrSet_sub (V4 m c)]
    iintro ⟨⟨⟨Harr, Hrest⟩, HO⟩, -, -⟩
    ihave Ha := (arrays_in m c) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [StableHlo.held_sub_split (c : Thread nD τ) arrSet_sub (V5 m c), held_rest]
    iintro ⟨Ha, HO, -, Hrest⟩
    ihave Harr := (arrays_out m c) $$ Ha
    imodintro
    isplitl [Harr Hrest]
    · isplitl [Harr]; · iexact Harr
      iexact Hrest
    unfold Pipeline.Dat.owesAt Pipeline.owesWithin
    icases HO with ⟨%W, -, HO⟩; iexists W; iexact HO

/-! ## @main as the six segments, and the launch -/

abbrev segs : List (Pipeline.Seg (pcfgs (F := F)) adm (dats m) () defs₀ Variants.none L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .region (sweepSeg m),
    .host (hseg hostOps1 hostOps1_sub hostOps1_fresh (V5 m)) ]

/-- @main is the run of the segments. -/
theorem main_run (c : Dev nD) : main (F := F) c = Pipeline.Seg.run (segs m) := (main_chain c).trans (by chain_rfl)

set_option backward.isDefEq.respectTransparency.types false in
/-- At the compiled mesh, from any memory with zero counters: every weakly fair execution of @main on the TensorCores
    terminates, nothing faulting, and every final state has every unscoped buffer at the contents the six segments
    compute. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V6 m c b) :=
  Pipeline.θ_run_regions_kit (pcfgs (F := F)) adm (dats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V6 m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = V6 m c b)
    (hfin := fun c s' => by
      iintro ⟨Hh, HSI⟩
      unfold StableHlo.held
      imodintro
      iapply (pointsTo_read_all (Pipeline.ucRefs τ sig) (fun b => (((c : Thread nD τ)).1, b)) (V6 m c) s')
      isplitl [Hh] <;> iassumption)
    (hQ := fun s h c => h c)

/-! ## The arguments end as launched: no host operation writes one, and the sweep only reads them -/

/-- An unscoped TensorCore reference is among those the last segment leaves held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

local macro "no_write " ops:ident : tactic =>
  `(tactic| (simp only [$ops:ident, List.Forall, StableHlo.nullary_writes, StableHlo.unary_writes, StableHlo.binary_writes, StableHlo.ternary_writes, StableHlo.quaternary_writes, StableHlo.reshape_writes, StableHlo.binaryIndexed_writes, Finset.mem_singleton] <;> repeat' apply And.intro) <;> exact StableHlo.devRef_ne_of_ne (by decide))

theorem V6_arg0 (c : Dev nD) : V6 m c (Proc.devRef .tc main_arg0) = m ((c : Thread nD τ).loc main_arg0) :=
  calc V6 m c (Proc.devRef .tc main_arg0)
    _ = V5 m c (Proc.devRef .tc main_arg0) := StableHlo.after_of_forall_not_mem (b := Proc.devRef .tc main_arg0) _ _ (List.forall_iff_forall_mem.mp (by no_write hostOps1))
    _ = V4 m c (Proc.devRef .tc main_arg0) := V5_of_ne m c _ (by decide)
    _ = V3 m c (Proc.devRef .tc main_arg0) := StableHlo.after_of_forall_not_mem (b := Proc.devRef .tc main_arg0) _ _ (List.forall_iff_forall_mem.mp (by no_write hostOps0_3))
    _ = V2 m c (Proc.devRef .tc main_arg0) := StableHlo.after_of_forall_not_mem (b := Proc.devRef .tc main_arg0) _ _ (List.forall_iff_forall_mem.mp (by no_write hostOps0_2))
    _ = V1 m c (Proc.devRef .tc main_arg0) := StableHlo.after_of_forall_not_mem (b := Proc.devRef .tc main_arg0) _ _ (List.forall_iff_forall_mem.mp (by no_write hostOps0_1))
    _ = V0 m c (Proc.devRef .tc main_arg0) := StableHlo.after_of_forall_not_mem (b := Proc.devRef .tc main_arg0) _ _ (List.forall_iff_forall_mem.mp (by no_write hostOps0))
    _ = m ((c : Thread nD τ).loc main_arg0) := rfl

theorem V6_arg1 (c : Dev nD) : V6 m c (Proc.devRef .tc main_arg1) = m ((c : Thread nD τ).loc main_arg1) :=
  calc V6 m c (Proc.devRef .tc main_arg1)
    _ = V5 m c (Proc.devRef .tc main_arg1) := StableHlo.after_of_forall_not_mem (b := Proc.devRef .tc main_arg1) _ _ (List.forall_iff_forall_mem.mp (by no_write hostOps1))
    _ = V4 m c (Proc.devRef .tc main_arg1) := V5_of_ne m c _ (by decide)
    _ = V3 m c (Proc.devRef .tc main_arg1) := StableHlo.after_of_forall_not_mem (b := Proc.devRef .tc main_arg1) _ _ (List.forall_iff_forall_mem.mp (by no_write hostOps0_3))
    _ = V2 m c (Proc.devRef .tc main_arg1) := StableHlo.after_of_forall_not_mem (b := Proc.devRef .tc main_arg1) _ _ (List.forall_iff_forall_mem.mp (by no_write hostOps0_2))
    _ = V1 m c (Proc.devRef .tc main_arg1) := StableHlo.after_of_forall_not_mem (b := Proc.devRef .tc main_arg1) _ _ (List.forall_iff_forall_mem.mp (by no_write hostOps0_1))
    _ = V0 m c (Proc.devRef .tc main_arg1) := StableHlo.after_of_forall_not_mem (b := Proc.devRef .tc main_arg1) _ _ (List.forall_iff_forall_mem.mp (by no_write hostOps0))
    _ = m ((c : Thread nD τ).loc main_arg1) := rfl

theorem V6_arg2 (c : Dev nD) : V6 m c (Proc.devRef .tc main_arg2) = m ((c : Thread nD τ).loc main_arg2) :=
  calc V6 m c (Proc.devRef .tc main_arg2)
    _ = V5 m c (Proc.devRef .tc main_arg2) := StableHlo.after_of_forall_not_mem (b := Proc.devRef .tc main_arg2) _ _ (List.forall_iff_forall_mem.mp (by no_write hostOps1))
    _ = V4 m c (Proc.devRef .tc main_arg2) := V5_of_ne m c _ (by decide)
    _ = V3 m c (Proc.devRef .tc main_arg2) := StableHlo.after_of_forall_not_mem (b := Proc.devRef .tc main_arg2) _ _ (List.forall_iff_forall_mem.mp (by no_write hostOps0_3))
    _ = V2 m c (Proc.devRef .tc main_arg2) := StableHlo.after_of_forall_not_mem (b := Proc.devRef .tc main_arg2) _ _ (List.forall_iff_forall_mem.mp (by no_write hostOps0_2))
    _ = V1 m c (Proc.devRef .tc main_arg2) := StableHlo.after_of_forall_not_mem (b := Proc.devRef .tc main_arg2) _ _ (List.forall_iff_forall_mem.mp (by no_write hostOps0_1))
    _ = V0 m c (Proc.devRef .tc main_arg2) := StableHlo.after_of_forall_not_mem (b := Proc.devRef .tc main_arg2) _ _ (List.forall_iff_forall_mem.mp (by no_write hostOps0))
    _ = m ((c : Thread nD τ).loc main_arg2) := rfl

theorem V6_arg3 (c : Dev nD) : V6 m c (Proc.devRef .tc main_arg3) = m ((c : Thread nD τ).loc main_arg3) :=
  calc V6 m c (Proc.devRef .tc main_arg3)
    _ = V5 m c (Proc.devRef .tc main_arg3) := StableHlo.after_of_forall_not_mem (b := Proc.devRef .tc main_arg3) _ _ (List.forall_iff_forall_mem.mp (by no_write hostOps1))
    _ = V4 m c (Proc.devRef .tc main_arg3) := V5_of_ne m c _ (by decide)
    _ = V3 m c (Proc.devRef .tc main_arg3) := StableHlo.after_of_forall_not_mem (b := Proc.devRef .tc main_arg3) _ _ (List.forall_iff_forall_mem.mp (by no_write hostOps0_3))
    _ = V2 m c (Proc.devRef .tc main_arg3) := StableHlo.after_of_forall_not_mem (b := Proc.devRef .tc main_arg3) _ _ (List.forall_iff_forall_mem.mp (by no_write hostOps0_2))
    _ = V1 m c (Proc.devRef .tc main_arg3) := StableHlo.after_of_forall_not_mem (b := Proc.devRef .tc main_arg3) _ _ (List.forall_iff_forall_mem.mp (by no_write hostOps0_1))
    _ = V0 m c (Proc.devRef .tc main_arg3) := StableHlo.after_of_forall_not_mem (b := Proc.devRef .tc main_arg3) _ _ (List.forall_iff_forall_mem.mp (by no_write hostOps0))
    _ = m ((c : Thread nD τ).loc main_arg3) := rfl

end Cert.KernelIdeal.Sweep

end
-- ==== Proof.Terms.lean ====
/-
  The reference's result as one function of the four argument arrays, at the ideal values.

  Inputs: X = predictions [2,4096,33], Y = y_ohe [2,4096,33], T = targets [2,4096] (32-bit words),
  Pc = pred_choice [2,4096].  The result is  focal + dice + kl:

  * the row-wise log-softmax  logp = (X - rowmax X) - log (Σ exp (X - rowmax X))  and softmax
    P = exp (X - rowmax X) / Σ exp (X - rowmax X), kept as whole-array terms in the host
    operations' own order (`logpVec`, `smxVec`);
  * the fill-mode take along the class axis (`takeAt`): with t' = t + 33 if t < 0 else t, the entry
    A[b, n, t'] when 0 ≤ t' ≤ 32 and the fill word (a NaN pattern) otherwise;
  * ce = -(Σ_{b,n} takeAt logp / 8192),  focal = (Σ_{b,n} (1 - takeAt (exp logp))^2 · ce) / 8192;
  * dice = 1 - 2 · ((count(T = Pc) + 1) / 16385), as the whole-array term `diceVec`;
  * kl = (0 + Σ_{b,n,m} D · (log D - E)) / 2^25, D the thresholded distance of rows n, m of Y
    and E the distance of rows n, m of P (`klEntry`, a function of four rows).
-/
import Idealize.ShloMosaic.PureOps.Ideal
import Idealize.ShloMosaic.PureOps.Ideal.Laws
import Idealize.ShloMosaic.Lib.ValueIdx

noncomputable section

open scoped BigOperators

namespace Cert.RefSide

open Idealize.ShloMosaic Idealize.ShloMosaic.ValueIdx

/-! ## Shapes and their relations -/

abbrev SX : Shape := ⟨3, ![2, 4096, 33]⟩
abbrev ST : Shape := ⟨2, ![2, 4096]⟩
abbrev SK : Shape := ⟨3, ![2, 4096, 1]⟩
abbrev S0 : Shape := ⟨0, ![]⟩
abbrev SF : Shape := ⟨1, ![8192]⟩

theorem red_SX_ST : SX.ReducesTo [2] ST := by decide
theorem pos_S0 : 0 < S0.numel := by decide
theorem bc_S0_ST : S0.BroadcastsInDim ST (![] : Fin 0 → Fin ST.rank) := by decide
theorem bc_ST_SK : ST.BroadcastsInDim SK (![0, 1] : Fin 2 → Fin SK.rank) := by decide
theorem bc_SK_SX : SK.BroadcastsInDim SX (![0, 1, 2] : Fin 3 → Fin SX.rank) := by decide
theorem cast_ST_SF : ST.ShapeCasts SF := by decide
theorem red_SF_S0 : SF.ReducesTo [0] S0 := by decide

/-! ## The shared whole-array pieces, in the host operations' order -/

/-- max(-∞, max over the class axis of X, from -∞): the row maximum, [2,4096]. -/
def rowMaxVec (X : FVec Ideal SX .f32) : FVec Ideal ST .f32 :=
  maximumf (broadcastInDim ST ![] bc_S0_ST (constant (F := Ideal) S0 .f32 0xFF800000#32))
    (Host.reduce FloatOps.maximumf X (constant (F := Ideal) S0 .f32 0xFF800000#32) red_SX_ST pos_S0)

/-- X minus its row maximum. -/
def shiftVec (X : FVec Ideal SX .f32) : FVec Ideal SX .f32 :=
  subf X (broadcastInDim SX ![0, 1, 2] bc_SK_SX (broadcastInDim SK ![0, 1] bc_ST_SK (rowMaxVec X)))

/-- exp (X - rowmax). -/
def expShiftVec (X : FVec Ideal SX .f32) : FVec Ideal SX .f32 := Host.exp (shiftVec X)

/-- The row sums of exp (X - rowmax), from 0. -/
def rowSumVec (X : FVec Ideal SX .f32) : FVec Ideal ST .f32 :=
  Host.reduceAdd (expShiftVec X) (constant (F := Ideal) S0 .f32 0x00000000#32) red_SX_ST pos_S0

/-- log-softmax over the class axis. -/
def logpVec (X : FVec Ideal SX .f32) : FVec Ideal SX .f32 :=
  subf (shiftVec X)
    (broadcastInDim SX ![0, 1, 2] bc_SK_SX (Host.log (broadcastInDim SK ![0, 1] bc_ST_SK (rowSumVec X))))

/-- softmax over the class axis. -/
def smxVec (X : FVec Ideal SX .f32) : FVec Ideal SX .f32 :=
  Host.divf (expShiftVec X)
    (broadcastInDim SX ![0, 1, 2] bc_SK_SX (broadcastInDim SK ![0, 1] bc_ST_SK (rowSumVec X)))

/-- 1 - 2 · ((Σ [T = Pc] + 1) / 16385) as a rank-0 array. -/
def diceVec (T Pc : IVec ST 32) : FVec Ideal S0 .f32 :=
  subf (constant (F := Ideal) S0 .f32 0x3F800000#32)
    (mulf (constant (F := Ideal) S0 .f32 0x40000000#32)
      (Host.divf
        (addf
          (Host.reduceAdd
            (uitofp (F := Ideal) .f32 (cmpi .eq (shapeCast SF T cast_ST_SF) (shapeCast SF Pc cast_ST_SF)))
            (constant (F := Ideal) S0 .f32 0x00000000#32) red_SF_S0 pos_S0)
          (constant (F := Ideal) S0 .f32 0x3F800000#32))
        (constant (F := Ideal) S0 .f32 0x46800200#32)))

/-- The dice term, a number. -/
def diceVal (T Pc : IVec ST 32) : EReal := diceVec T Pc ix0

/-! ## The take along the class axis, fill mode -/

/-- A negative class index counts from the end: t + 33. -/
def wrapT (t : BitVec 32) : BitVec 32 := Scalar.select (IntOp.cmpi .slt t 0#32) (IntOp.addi t 33#32) t

/-- 0 ≤ t ≤ 32, as a bit. -/
def inRange (t : BitVec 32) : BitVec 1 := IntOp.andi (IntOp.cmpi .sge t 0#32) (IntOp.cmpi .sle t 32#32)

/-- A[b, n, wrapT T[b,n]] when that class is in range (the gather clamps the start into [0, 32], which is then the
    identity), else the fill word 0x7FC00000 (a NaN pattern). -/
def takeAt (A : FVec Ideal SX .f32) (T : IVec ST 32) (b : Fin 2) (n : Fin 4096) : EReal :=
  Scalar.select (inRange (wrapT (T (ix2 b n))))
    (A (ix3 b n ⟨min (wrapT (T (ix2 b n))).toInt.toNat 32, by omega⟩))
    (Ideal.ofBits .f32 0x7FC00000#32)

/-! ## Cross-entropy and the focal term -/

/-- ce = -((0 + Σ_{b,n} logp[b,n,t]) / 8192). -/
def ceRef (X : FVec Ideal SX .f32) (T : IVec ST 32) : EReal :=
  -(Ideal.div (0 + ∑ b : Fin 2, ∑ n : Fin 4096, takeAt (logpVec X) T b n) (Ideal.ofBits .f32 0x46000000#32))

/-- focal = (0 + Σ_{b,n} (1 - exp(logp)[b,n,t])^2 · ce) / 8192. -/
def focalRef (X : FVec Ideal SX .f32) (T : IVec ST 32) : EReal :=
  Ideal.div
    (0 + ∑ b : Fin 2, ∑ n : Fin 4096,
      Ideal.pow (Ideal.ofBits .f32 0x3F800000#32 - takeAt (Host.exp (logpVec X)) T b n) (Ideal.ofBits .f32 0x40000000#32)
        * ceRef X T)
    (Ideal.ofBits .f32 0x46000000#32)

/-! ## The distance-map term, entry by entry -/

/-- Row n of batch b. -/
def row (A : FVec Ideal SX .f32) (b : Fin 2) (n : Fin 4096) : Fin 33 → EReal := fun k => A (ix3 b n k)

/-- |u|². -/
def sq (u : Fin 33 → EReal) : EReal := ∑ k : Fin 33, u k * u k

/-- ⟨u, v⟩. -/
def dotp (u v : Fin 33 → EReal) : EReal := ∑ k : Fin 33, u k * v k

/-- max(|u|² + |v|² - 2⟨u,v⟩, 0). -/
def dist2 (u v : Fin 33 → EReal) : EReal :=
  max (sq u + sq v - Ideal.ofBits .f32 0x40000000#32 * dotp u v) (Ideal.ofBits .f32 0x00000000#32)

/-- d2 > 0 ? sqrt (d2 > 0 ? d2 : 1) : 0. -/
def safeSqrt (d2 : EReal) : EReal :=
  Scalar.select (Ideal.cmp .ogt d2 (Ideal.ofBits .f32 0x00000000#32))
    (Ideal.sqrt (Scalar.select (Ideal.cmp .ogt d2 (Ideal.ofBits .f32 0x00000000#32)) d2 (Ideal.ofBits .f32 0x3F800000#32)))
    (Ideal.ofBits .f32 0x00000000#32)

/-- d > 1 → the word 0x3F666666; then < 1 → the word 0x3D4CCCCD. -/
def thresh (d : EReal) : EReal :=
  Scalar.select
    (Ideal.cmp .olt (Scalar.select (Ideal.cmp .ogt d (Ideal.ofBits .f32 0x3F800000#32)) (Ideal.ofBits .f32 0x3F666666#32) d)
      (Ideal.ofBits .f32 0x3F800000#32))
    (Ideal.ofBits .f32 0x3D4CCCCD#32)
    (Scalar.select (Ideal.cmp .ogt d (Ideal.ofBits .f32 0x3F800000#32)) (Ideal.ofBits .f32 0x3F666666#32) d)

/-- D · (log D - E) for the rows y, y' of Y and p, p' of P. -/
def klEntry (y y' p p' : Fin 33 → EReal) : EReal :=
  thresh (safeSqrt (dist2 y y')) * (Ideal.log (thresh (safeSqrt (dist2 y y'))) - safeSqrt (dist2 p p'))

/-- 0 + Σ_{b,n,m} klEntry. -/
def klRef (Y P : FVec Ideal SX .f32) : EReal :=
  0 + ∑ b : Fin 2, ∑ n : Fin 4096, ∑ m : Fin 4096, klEntry (row Y b n) (row Y b m) (row P b n) (row P b m)

/-! ## The whole result -/

/-- focal + dice + kl / 2^25. -/
def refTotal (X Y : FVec Ideal SX .f32) (T Pc : IVec ST 32) : EReal :=
  focalRef X T + diceVal T Pc + Ideal.div (klRef Y (smxVec X)) (Ideal.ofBits .f32 0x4C000000#32)

end Cert.RefSide

end
-- ==== Proof.RefVec.lean ====
/-
  The reference's result as ONE whole-array term of the four argument arrays, in the host operations' own order, built
  in layers: the fill-mode take along the class axis (`takeVec`), the cross-entropy (`ceVec`), the pairwise distance
  map of an array's rows (`cdistVec`) and its thresholded form (`disVec`), the distance-map term (`klVec`), the focal
  term (`focalVec`), and their sum with the dice term (`refVec`).
-/
import proofs.«171995_j84464826843907_1_alg».proof.Proof.Terms

noncomputable section

namespace Cert.RefSide

open Idealize.ShloMosaic Idealize.ShloMosaic.ValueIdx

/-! ## More shapes and their relations -/

abbrev SI : Shape := ⟨4, ![2, 4096, 1, 1]⟩
abbrev S1 : Shape := ⟨1, ![1]⟩
abbrev SU : Shape := ⟨4, ![1, 1, 1, 1]⟩
abbrev SM : Shape := ⟨3, ![2, 1, 4096]⟩
abbrev SN : Shape := ⟨3, ![2, 4096, 4096]⟩

theorem bc_S0_SK : S0.BroadcastsInDim SK (![] : Fin 0 → Fin SK.rank) := by decide
theorem cast_SK_SI : SK.ShapeCasts SI := by decide
theorem bc_S0_SI : S0.BroadcastsInDim SI (![] : Fin 0 → Fin SI.rank) := by decide
theorem bc_S1_SU : S1.BroadcastsInDim SU (![3] : Fin 1 → Fin SU.rank) := by decide
theorem bc_SU_SI : SU.BroadcastsInDim SI (![0, 1, 2, 3] : Fin 4 → Fin SI.rank) := by decide
theorem red_SI_SK : SI.ReducesTo [3] SK := by decide
theorem cast_SK_ST : SK.ShapeCasts ST := by decide
theorem red_ST_S0 : ST.ReducesTo [0, 1] S0 := by decide
theorem bc_ST_SM : ST.BroadcastsInDim SM (![0, 2] : Fin 2 → Fin SM.rank) := by decide
theorem bc_SK_SN : SK.BroadcastsInDim SN (![0, 1, 2] : Fin 3 → Fin SN.rank) := by decide
theorem bc_SM_SN : SM.BroadcastsInDim SN (![0, 1, 2] : Fin 3 → Fin SN.rank) := by decide
theorem bc_S0_SN : S0.BroadcastsInDim SN (![] : Fin 0 → Fin SN.rank) := by decide
theorem red_SN_S0 : SN.ReducesTo [0, 1, 2] S0 := by decide
theorem bc_S0_SF : S0.BroadcastsInDim SF (![] : Fin 0 → Fin SF.rank) := by decide
theorem takeLast_wf : GatherDims.WF SX SI SK [] [2] [0, 1] [2] [0, 1] 3 ![1, 1, 1] := by decide
theorem rowDot_wf : DotDims.WF SX SX SN [2] [2] [1] [1] [0] [0] := by decide

/-- The dimension numbers of a take along the last axis: operand [2,4096,33], start indices [2,4096,1,1], result
    [2,4096,1]; the two leading axes batch, the class axis is collapsed and indexed. -/
abbrev takeLastDims : GatherDims SX SI SK where
  offsetDims := []
  collapsedSliceDims := [2]
  operandBatchingDims := [0, 1]
  startIndicesBatchingDims := [0, 1]
  startIndexMap := [2]
  indexVectorDim := 3
  sliceSizes := ![1, 1, 1]
  wf := takeLast_wf

/-- The dimension numbers of the rows' products: batch axis 0, rows n and m free, the class axis contracted. -/
abbrev rowDotDims : DotDims SX SX SN where
  lhsContracting := [2]
  rhsContracting := [2]
  lhsNonContracting := [1]
  rhsNonContracting := [1]
  lhsBatch := [0]
  rhsBatch := [0]
  wf := rowDot_wf

/-! ## The take along the class axis -/

/-- T with a trailing unit axis, negative entries wrapped by +33. -/
def wrapVec (T : IVec ST 32) : IVec SK 32 :=
  select (cmpi .slt (broadcastInDim SK ![0, 1] bc_ST_SK T) (broadcastInDim SK ![] bc_S0_SK (constantI S0 32 0#32)))
    (addi (broadcastInDim SK ![0, 1] bc_ST_SK T) (broadcastInDim SK ![] bc_S0_SK (constantI S0 32 33#32)))
    (broadcastInDim SK ![0, 1] bc_ST_SK T)

/-- The start indices [2,4096,1,1]. -/
def startVec (T : IVec ST 32) : IVec SI 32 := shapeCast SI (wrapVec T) cast_SK_SI

/-- 0 ≤ start ≤ 32, and-reduced over the (unit) index-vector axis from 1. -/
def inRangeVec (T : IVec ST 32) : IVec SK 1 :=
  Host.reduce IntOp.andi
    (andi (cmpi .sge (startVec T) (broadcastInDim SI ![] bc_S0_SI (constantI S0 32 0#32)))
      (cmpi .sle (startVec T)
        (broadcastInDim SI ![0, 1, 2, 3] bc_SU_SI (broadcastInDim SU ![3] bc_S1_SU (constantI S1 32 32#32)))))
    (constantI S0 1 1#1) red_SI_SK pos_S0

/-- The fill-mode take of A along the class axis at T, [2,4096,1]. -/
def takeVec (A : FVec Ideal SX .f32) (T : IVec ST 32) : FVec Ideal SK .f32 :=
  select (inRangeVec T) (Host.gather takeLastDims A (startVec T))
    (broadcastInDim SK ![] bc_S0_SK (constant (F := Ideal) S0 .f32 0x7FC00000#32))

/-- ce = -(Σ take(logp) / 8192), rank 0. -/
def ceVec (X : FVec Ideal SX .f32) (T : IVec ST 32) : FVec Ideal S0 .f32 :=
  Host.negf
    (Host.divf
      (Host.reduceAdd (shapeCast ST (takeVec (logpVec X) T) cast_SK_ST) (constant (F := Ideal) S0 .f32 0x00000000#32)
        red_ST_S0 pos_S0)
      (constant (F := Ideal) S0 .f32 0x46000000#32))

/-! ## The distance maps -/

/-- max(|a_n|² + |a_m|² - 2⟨a_n, a_m⟩, 0), [2,4096,4096]. -/
def d2Vec (A : FVec Ideal SX .f32) : FVec Ideal SN .f32 :=
  maximumf
    (subf
      (addf
        (broadcastInDim SN ![0, 1, 2] bc_SK_SN (broadcastInDim SK ![0, 1] bc_ST_SK
          (Host.reduceAdd (mulf A A) (constant (F := Ideal) S0 .f32 0x00000000#32) red_SX_ST pos_S0)))
        (broadcastInDim SN ![0, 1, 2] bc_SM_SN (broadcastInDim SM ![0, 2] bc_ST_SM
          (Host.reduceAdd (mulf A A) (constant (F := Ideal) S0 .f32 0x00000000#32) red_SX_ST pos_S0))))
      (mulf (broadcastInDim SN ![] bc_S0_SN (constant (F := Ideal) S0 .f32 0x40000000#32))
        (Host.dotGeneral rowDotDims none A A)))
    (broadcastInDim SN ![] bc_S0_SN (constant (F := Ideal) S0 .f32 0x00000000#32))

/-- d2 > 0 ? sqrt (d2 > 0 ? d2 : 1) : 0. -/
def cdistVec (A : FVec Ideal SX .f32) : FVec Ideal SN .f32 :=
  select (cmpf .ogt (d2Vec A) (broadcastInDim SN ![] bc_S0_SN (constant (F := Ideal) S0 .f32 0x00000000#32)))
    (Host.sqrt
      (select (cmpf .ogt (d2Vec A) (broadcastInDim SN ![] bc_S0_SN (constant (F := Ideal) S0 .f32 0x00000000#32)))
        (d2Vec A) (broadcastInDim SN ![] bc_S0_SN (constant (F := Ideal) S0 .f32 0x3F800000#32))))
    (broadcastInDim SN ![] bc_S0_SN (constant (F := Ideal) S0 .f32 0x00000000#32))

/-- The thresholds: > 1 → 0x3F666666, then < 1 → 0x3D4CCCCD. -/
def threshVec (D : FVec Ideal SN .f32) : FVec Ideal SN .f32 :=
  select
    (cmpf .olt
      (select (cmpf .ogt D (broadcastInDim SN ![] bc_S0_SN (constant (F := Ideal) S0 .f32 0x3F800000#32)))
        (broadcastInDim SN ![] bc_S0_SN (constant (F := Ideal) S0 .f32 0x3F666666#32)) D)
      (broadcastInDim SN ![] bc_S0_SN (constant (F := Ideal) S0 .f32 0x3F800000#32)))
    (broadcastInDim SN ![] bc_S0_SN (constant (F := Ideal) S0 .f32 0x3D4CCCCD#32))
    (select (cmpf .ogt D (broadcastInDim SN ![] bc_S0_SN (constant (F := Ideal) S0 .f32 0x3F800000#32)))
      (broadcastInDim SN ![] bc_S0_SN (constant (F := Ideal) S0 .f32 0x3F666666#32)) D)

/-- The thresholded distance map of Y's rows. -/
def disVec (Y : FVec Ideal SX .f32) : FVec Ideal SN .f32 := threshVec (cdistVec Y)

/-- (Σ D · (log D - E)) / 2^25, rank 0. -/
def klVec (X Y : FVec Ideal SX .f32) : FVec Ideal S0 .f32 :=
  Host.divf
    (Host.reduceAdd (mulf (disVec Y) (subf (Host.log (disVec Y)) (cdistVec (smxVec X))))
      (constant (F := Ideal) S0 .f32 0x00000000#32) red_SN_S0 pos_S0)
    (constant (F := Ideal) S0 .f32 0x4C000000#32)

/-! ## The focal term -/

/-- take(exp logp), flattened to [8192]. -/
def pnVec (X : FVec Ideal SX .f32) (T : IVec ST 32) : FVec Ideal SF .f32 :=
  shapeCast SF (shapeCast ST (takeVec (Host.exp (logpVec X)) T) cast_SK_ST) cast_ST_SF

/-- (Σ (1 - pn)^2 · ce) / 8192, rank 0. -/
def focalVec (X : FVec Ideal SX .f32) (T : IVec ST 32) : FVec Ideal S0 .f32 :=
  Host.divf
    (Host.reduceAdd
      (mulf
        (Host.powf (subf (broadcastInDim SF ![] bc_S0_SF (constant (F := Ideal) S0 .f32 0x3F800000#32)) (pnVec X T))
          (broadcastInDim SF ![] bc_S0_SF (constant (F := Ideal) S0 .f32 0x40000000#32)))
        (broadcastInDim SF ![] bc_S0_SF (ceVec X T)))
      (constant (F := Ideal) S0 .f32 0x00000000#32) red_SF_S0 pos_S0)
    (constant (F := Ideal) S0 .f32 0x46000000#32)

/-! ## The whole result -/

/-- (focal + dice) + kl, rank 0. -/
def refVec (X Y : FVec Ideal SX .f32) (T Pc : IVec ST 32) : FVec Ideal S0 .f32 :=
  addf (addf (focalVec X T) (diceVec T Pc)) (klVec X Y)

end Cert.RefSide

end
-- ==== Proof.KernelTerms.lean ====
/-
  The kernel's result as ONE whole-array term of the argument arrays and of the scalar the sweep leaves, in the host
  operations' own order: the focal term in the kernel's arrangement — the cross-entropy times the mean weight —, the
  dice term, and the sweep's sum divided by the number of pairs.
-/
import proofs.«171995_j84464826843907_1_alg».proof.Proof.RefVec

noncomputable section

namespace Cert.KernelSide

open Idealize.ShloMosaic Idealize.ShloMosaic.ValueIdx
open Cert.RefSide

abbrev S11 : Shape := ⟨2, ![1, 1]⟩
theorem cast_S11_S0 : S11.ShapeCasts S0 := by decide

/-- The focal term as the kernel's host program arranges it: ce · (Σ (1 - exp(take logp))² / 8192), rank 0. -/
def focalKVec (X : FVec Ideal SX .f32) (T : IVec ST 32) : FVec Ideal S0 .f32 :=
  mulf (ceVec X T)
    (Host.divf
      (Host.reduceAdd
        (Host.powf
          (subf (broadcastInDim SF ![] bc_S0_SF (constant (F := Ideal) S0 .f32 0x3F800000#32))
            (shapeCast SF (Host.exp (shapeCast ST (takeVec (logpVec X) T) cast_SK_ST)) cast_ST_SF))
          (broadcastInDim SF ![] bc_S0_SF (constant (F := Ideal) S0 .f32 0x40000000#32)))
        (constant (F := Ideal) S0 .f32 0x00000000#32) red_SF_S0 pos_S0)
      (constant (F := Ideal) S0 .f32 0x46000000#32))

/-- (focal + dice) + sweep / 2^25, rank 0, `S` the [1,1] array the sweep leaves. -/
def kernelVec (X : FVec Ideal SX .f32) (T Pc : IVec ST 32) (S : FVec Ideal S11 .f32) : FVec Ideal S0 .f32 :=
  addf (addf (focalKVec X T) (diceVec T Pc))
    (Host.divf (shapeCast S0 S cast_S11_S0) (constant (F := Ideal) S0 .f32 0x4C000000#32))

end Cert.KernelSide

end
-- ==== Proof.LibCallBuffers.lean ====
/-
  Two small facts about a host program read as a list of operations (Lib/StableHlo/Run.lean), for any values:

  * `after_append`: the buffers' contents after a list of operations run in two parts — the second part starts from what
    the first part leaves. It lets a long program be read in pieces, each over the previous piece's results as atoms.
  * `ofBuf_toBuf`: a value stored into a called function's typed buffer and read back from it is the value (the two
    transports along the buffer's type equation cancel). A function that jax outlined (relu, log_softmax, where …)
    passes every intermediate value through such a pair; rewriting them away first leaves the operations' plain term.
-/
import Idealize.ShloMosaic.Lib.StableHlo.Run

namespace Idealize.ShloMosaic.StableHlo

variable {τ : Topo} {sig : RefSig} {Val : EltTy → Type}

/-- Running a list of operations in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Stored into a typed buffer and read back: the value. -/
theorem TRef.ofBuf_toBuf {T : BufTy} (x : TRef sig T) (v : T.Contents Val) : x.ofBuf (x.toBuf v) = v := by
  obtain ⟨r, h, _, _⟩ := x
  subst h
  rfl

end Idealize.ShloMosaic.StableHlo
-- ==== Proof.KernelIdealHost.lean ====
/-
  What the kernel's host program computes around the sweep, at the ideal values, as whole-array terms of the launch
  contents: the class probabilities the sweep reads (the softmax of the predictions), the focal term in the kernel's
  arrangement — the cross-entropy times the mean weight —, and the targets array passing through untouched.
-/
import proofs.«171995_j84464826843907_1_alg».proof.Proof.KernelIdealData
import proofs.«171995_j84464826843907_1_alg».proof.Proof.KernelTerms
import proofs.«171995_j84464826843907_1_alg».proof.Proof.LibCallBuffers

noncomputable section

namespace Cert.KernelIdeal.Sweep

open Cert.KernelIdeal Cert.KernelIdeal.Gen
open Idealize.ShloMosaic Idealize.ShloMosaic.TcCoe Idealize.SL.Sem Idealize.ShloMosaic.StableHlo
open Cert.RefSide (SX ST SK S0 SF logpVec smxVec takeVec ceVec diceVec)
open Cert.KernelSide (focalKVec kernelVec)

variable (m : (ℓ : Loc nD τ sig) → Buf (Elt Ideal) ℓ)

set_option maxRecDepth 65536 in
set_option maxHeartbeats 78000000 in
/-- The sweep's probability array is the softmax of the predictions. -/
theorem V4_smx (c : Dev nD) :
    V4 m c (Proc.devRef .tc main_v26) = smxVec (m ((c.tc : Thread nD τ).loc main_arg0)) := by
  show after hostOps0_3 (after hostOps0_2 (after hostOps0_1 (after hostOps0 (V0 m c)))) _ = _
  after_results_simp
  try simp only [TRef.ofBuf_toBuf]
  rfl

set_option maxRecDepth 65536 in
set_option maxHeartbeats 78000000 in
/-- The focal term before the sweep. -/
theorem V4_focal (c : Dev nD) :
    V4 m c (Proc.devRef .tc main_v15)
      = focalKVec (m ((c.tc : Thread nD τ).loc main_arg0)) (m ((c.tc : Thread nD τ).loc main_arg2)) := by
  show after hostOps0_3 (after hostOps0_2 (after hostOps0_1 (after hostOps0 (V0 m c)))) _ = _
  after_results_simp
  try simp only [TRef.ofBuf_toBuf]
  rfl

set_option maxRecDepth 65536 in
set_option maxHeartbeats 78000000 in
/-- The arrays the closing arithmetic reads pass through the host prefix untouched. -/
theorem V4_arg1 (c : Dev nD) : V4 m c (Proc.devRef .tc main_arg1) = m ((c.tc : Thread nD τ).loc main_arg1) := by
  show after hostOps0_3 (after hostOps0_2 (after hostOps0_1 (after hostOps0 (V0 m c)))) _ = _
  after_results_simp <;> rfl

set_option maxRecDepth 65536 in
set_option maxHeartbeats 78000000 in
theorem V4_arg2 (c : Dev nD) : V4 m c (Proc.devRef .tc main_arg2) = m ((c.tc : Thread nD τ).loc main_arg2) := by
  show after hostOps0_3 (after hostOps0_2 (after hostOps0_1 (after hostOps0 (V0 m c)))) _ = _
  after_results_simp <;> rfl

set_option maxRecDepth 65536 in
set_option maxHeartbeats 78000000 in
theorem V4_arg3 (c : Dev nD) : V4 m c (Proc.devRef .tc main_arg3) = m ((c.tc : Thread nD τ).loc main_arg3) := by
  show after hostOps0_3 (after hostOps0_2 (after hostOps0_1 (after hostOps0 (V0 m c)))) _ = _
  after_results_simp <;> rfl

end Cert.KernelIdeal.Sweep

end
-- ==== Proof.TileLib.lean ====
/-
  Layout operations and sums of small rank read at an index given by coordinates, at the ideal values: the sum
  of a matrix along its rows or down its columns as a sum over one coordinate; a column vector made from a vector
  (`[a] → [a, 1]`); a column broadcast across the rows' length (`[a, 1] → [a, b]`). Each is the library's general
  statement (the sum over one axis; a shape cast reads the element of the same row-major position; a broadcast
  reads `0` on a unit axis) with the coordinates written out.
-/
import Idealize.ShloMosaic.PureOps.Ideal.Laws
import Idealize.ShloMosaic.Lib.ValueLayout

namespace Cert.KernelIdeal.Tile

open Idealize.ShloMosaic Idealize.ShloMosaic.ValueIdx
open scoped BigOperators

variable {α : Type}

/-- The sum of a matrix along each row (a reduction over axis 1), read at row `r`: the sum over the columns. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ v 0x00000000#32 h hφ hacc (ix1 r) = ∑ k : Fin b, v (ix2 r k) := by
  refine (Ideal.multiReduction_add_single v 0x00000000#32 h hφ hacc (ix1 r)).trans ?_
  refine Finset.sum_congr rfl fun k _ => congrArg v ?_
  funext d
  match d with
  | ⟨0, _⟩ => rfl
  | ⟨1, _⟩ => rfl

/-- The sum of a matrix down each column (a reduction over axis 0), read at column `c`: the sum over the rows. -/
theorem colSum_apply {a b : ℕ} (v : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (c : Fin b) :
    multiReduction (F := Ideal) .add [0] ⟨1, ![b]⟩ v 0x00000000#32 h hφ hacc (ix1 c) = ∑ r : Fin a, v (ix2 r c) := by
  refine (Ideal.multiReduction_add_single v 0x00000000#32 h hφ hacc (ix1 c)).trans ?_
  refine Finset.sum_congr rfl fun k _ => congrArg v ?_
  funext d
  match d with
  | ⟨0, _⟩ => rfl
  | ⟨1, _⟩ => rfl

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Tile
-- ==== Proof.Tile.lean ====
/-
  One tile of the kernel at the ideal values. For the four staged blocks `yq, yk, pq, pk` (each `[1, 512, 33]`) the
  kernel forms, for every row `r` of the first and `c` of the second, the squared distance of the two rows as
  `|u|² + |v|² - 2⟨u, v⟩` clipped at `0` (the squared norms as row sums of squares, one kept as a column and one
  transposed to a row, both broadcast to the square; the inner products as a matrix product with the transposed second
  operand; a change of format is the identity on extended reals), its guarded square root, the two thresholds on the
  first pair, and `D * (log D - E)`; then sums the square along its rows, the resulting column down to one number, and
  adds it to the accumulator. Read at its one index, the result is the accumulator plus the double sum over `(r, c)` of
  that entry — the same function of the four rows that the reference's whole-array term is.
-/
import proofs.«171995_j84464826843907_1_alg».proof.Proof.Gen.KernelIdeal.Skeleton
import proofs.«171995_j84464826843907_1_alg».proof.Proof.Terms
import proofs.«171995_j84464826843907_1_alg».proof.Proof.TileLib

noncomputable section

namespace Cert.KernelIdeal.Tile

open Idealize.ShloMosaic Idealize.ShloMosaic.ValueIdx Cert.KernelIdeal Cert.KernelIdeal.Gen
open scoped BigOperators

/-! ### The staged block as a matrix -/

/-- The block `[1, 512, 33]` cast to `[512, 33]` reads, at `(r, k)`, the block at `(0, r, k)`. -/
theorem pay3_apply (p : Vec Ideal S1x512x33 .f32) (r : Fin 512) (k : Fin 33) :
    k0_pay3 p (ix2 r k) = p (ix3 (0 : Fin 1) r k) :=
  shapeCast_1ab_ab_apply p shapeCasts_S1x512x33_S512x33 r k

theorem pay4_apply (p : Vec Ideal S1x512x33 .f32) (r : Fin 512) (k : Fin 33) :
    k0_pay4 p (ix2 r k) = p (ix3 (0 : Fin 1) r k) :=
  shapeCast_1ab_ab_apply p shapeCasts_S1x512x33_S512x33 r k

/-! ### The squared norms of the rows, as a column -/

/-- The rows' squared norms kept as a column `[512, 1]`: the printed operations. -/
def sqCol (u : FVec Ideal S512x33 .f32) : FVec Ideal S512x1 .f32 :=
  shapeCast S512x1 (multiReduction (F := Ideal) .add [1] S512 (mulf u u) 0x00000000#32 reduces_S512x33_S512 (.inl rfl) rfl)
    shapeCasts_S512_S512x1

/-- At row `r` it is the sum of the squares of that row's entries. -/
theorem sqCol_apply (u : FVec Ideal S512x33 .f32) (r : Fin 512) (z : Fin 1) :
    sqCol u (ix2 r z) = Cert.RefSide.sq (fun k => u (ix2 r k)) := by
  unfold sqCol
  refine (shapeCast_a_a1_apply _ shapeCasts_S512_S512x1 r z).trans ?_
  exact rowSum_apply (mulf u u) reduces_S512x33_S512 (.inl rfl) rfl r

/-! ### The inner products of the rows, as a matrix product -/

/-- The product of the first operand with the transposed second, into the zero accumulator: the printed operations. -/
def gram (u v : FVec Ideal S512x33 .f32) : FVec Ideal S512x512 .f32 :=
  matmul (F := Ideal) dot_S512x33_S33x512_S512x512_1_0_0_1_n_n none (truncf .bf16 u bitsLt_bf16_f32)
    (transpose S33x512 [1, 0] (truncf .bf16 v bitsLt_bf16_f32) transposes_S512x33_p1_0_S33x512)
    (constant (F := Ideal) S512x512 .f32 0x00000000#32)

/-- At `(r, c)` it is the inner product of row `r` of the first operand and row `c` of the second. -/
theorem gram_apply (u v : FVec Ideal S512x33 .f32) (r c : Fin 512) :
    gram u v (ix2 r c) = Cert.RefSide.dotp (fun k => u (ix2 r k)) (fun k => v (ix2 c k)) := by
  unfold gram
  refine (Ideal.matmul_constant_zero_apply dot_S512x33_S33x512_S512x512_1_0_0_1_n_n none _ _ (ix2 r c)).trans ?_
  unfold Cert.RefSide.dotp
  refine ((Equiv.sum_comp (contrEquiv1 dot_S512x33_S33x512_S512x512_1_0_0_1_n_n 33 rfl rfl).symm _).symm).trans ?_
  refine Finset.sum_congr rfl fun k _ => ?_
  have hl : dot_S512x33_S33x512_S512x512_1_0_0_1_n_n.lhsIdx (ix2 r c)
      ((contrEquiv1 dot_S512x33_S33x512_S512x512_1_0_0_1_n_n 33 rfl rfl).symm k) = ix2 r k := by
    funext d
    match d with
    | ⟨0, _⟩ => rfl
    | ⟨1, _⟩ =>
      refine Fin.ext ?_
      exact (DotDims.lhsIdx_val_of_single _ (cl := (1 : Fin 2)) rfl _ _).trans (contrEquiv1_symm_val dot_S512x33_S33x512_S512x512_1_0_0_1_n_n 33 rfl rfl k)
  have hr : dot_S512x33_S33x512_S512x512_1_0_0_1_n_n.rhsIdx (ix2 r c)
      ((contrEquiv1 dot_S512x33_S33x512_S512x512_1_0_0_1_n_n 33 rfl rfl).symm k) = ix2 k c := by
    funext d
    match d with
    | ⟨0, _⟩ =>
      refine Fin.ext ?_
      exact (DotDims.rhsIdx_val_of_single _ (cr := (0 : Fin 2)) rfl _ _).trans (contrEquiv1_symm_val dot_S512x33_S33x512_S512x512_1_0_0_1_n_n 33 rfl rfl k)
    | ⟨1, _⟩ => rfl
  rw [hl, hr]
  show u (ix2 r k) * transpose S33x512 [1, 0] (truncf .bf16 v bitsLt_bf16_f32) transposes_S512x33_p1_0_S33x512 (ix2 k c) = _
  rw [transpose_ix2_apply]
  rfl

/-! ### The squared-distance matrix -/

/-- The kernel's squared-distance matrix as one term: the clipped `|u|² + |v|² - 2⟨u, v⟩`, from the pieces above. -/
theorem pay7_eq (u v : FVec Ideal S512x33 .f32) :
    k0_pay7 u v
      = maximumf
          (subf
            (addf (broadcastTo S512x512 (sqCol u) broadcasts_S512x1_S512x512)
              (broadcastTo S512x512 (transpose S1x512 [1, 0] (sqCol v) transposes_S512x1_p1_0_S1x512)
                broadcasts_S1x512_S512x512))
            (mulf (broadcast S512x512 (Scalar.ofBits (F := Ideal) .f32 0x40000000#32)) (gram u v)))
          (broadcast S512x512 (Scalar.ofBits (F := Ideal) .f32 0x00000000#32)) := rfl

/-- At `(r, c)` it is the clipped squared distance of row `r` of the first operand and row `c` of the second. -/
theorem pay7_apply (u v : FVec Ideal S512x33 .f32) (r c : Fin 512) :
    k0_pay7 u v (ix2 r c) = Cert.RefSide.dist2 (fun k => u (ix2 r k)) (fun k => v (ix2 c k)) := by
  rw [pay7_eq]
  show max (broadcastTo S512x512 (sqCol u) broadcasts_S512x1_S512x512 (ix2 r c)
        + broadcastTo S512x512 (transpose S1x512 [1, 0] (sqCol v) transposes_S512x1_p1_0_S1x512)
            broadcasts_S1x512_S512x512 (ix2 r c)
        - Ideal.ofBits .f32 0x40000000#32 * gram u v (ix2 r c)) (Ideal.ofBits .f32 0x00000000#32) = _
  rw [broadcastTo_a1_ab_apply, broadcastTo_1b_ab_apply, transpose_ix2_apply, sqCol_apply, sqCol_apply, gram_apply]
  rfl

/-- The first pair's matrix is the same operations after the two casts. -/
theorem pay5_eq (yq yk : Vec Ideal S1x512x33 .f32) : k0_pay5 yq yk = k0_pay7 (k0_pay3 yq) (k0_pay4 yk) := rfl

theorem pay5_apply (yq yk : Vec Ideal S1x512x33 .f32) (r c : Fin 512) :
    k0_pay5 yq yk (ix2 r c)
      = Cert.RefSide.dist2 (fun k => yq (ix3 (0 : Fin 1) r k)) (fun k => yk (ix3 (0 : Fin 1) c k)) := by
  rw [pay5_eq, pay7_apply]
  simp only [pay3_apply, pay4_apply]

/-! ### The guarded square root, the thresholds and the entry: pointwise -/

/-- The thresholded distance, at any index: the guarded square root, then the two thresholds. -/
theorem pay6_apply (D : FVec Ideal S512x512 .f32) (i : S512x512.Idx) :
    k0_pay6 D (Scalar.ofBits (F := Ideal) .f32 0x00000000#32) i = Cert.RefSide.thresh (Cert.RefSide.safeSqrt (D i)) := rfl

/-- The second pair's guarded square root, at any index, from its three printed parts. -/
theorem safeSqrt_apply (u v : FVec Ideal S512x33 .f32) (i : S512x512.Idx) :
    select (k0_pay9 u v) (k0_pay8 u v) (k0_pay10 (F := Ideal)) i = Cert.RefSide.safeSqrt (k0_pay7 u v i) := rfl

/-- The entry `D * (log D - E)` as the printed operations. -/
def entryMat (v50 v74 : FVec Ideal S512x512 .f32) (v76 : IVec S512x512 1) (v77 : FVec Ideal S512x512 .f32) :
    FVec Ideal S512x512 .f32 :=
  mulf v50 (subf (log v50) (select v76 v74 v77))

theorem entryMat_apply (v50 v74 : FVec Ideal S512x512 .f32) (v76 : IVec S512x512 1) (v77 : FVec Ideal S512x512 .f32)
    (i : S512x512.Idx) :
    entryMat v50 v74 v76 v77 i = v50 i * (Ideal.log (v50 i) - select v76 v74 v77 i) := rfl

/-! ### The sum of the square into the accumulator -/

/-- The accumulating payload as one term. -/
theorem pay1_eq (v50 v74 : FVec Ideal S512x512 .f32) (v76 : IVec S512x512 1) (v77 : FVec Ideal S512x512 .f32)
    (acc : Vec Ideal S1x1 .f32) :
    k0_pay1 v50 v74 v76 v77 acc
      = addf (shapeCast S1x1 acc shapeCasts_S1x1_S1x1)
          (shapeCast S1x1
            (multiReduction (F := Ideal) .add [0] S1
              (shapeCast S512x1
                (multiReduction (F := Ideal) .add [1] S512 (entryMat v50 v74 v76 v77) 0x00000000#32 reduces_S512x512_S512
                  (.inl rfl) rfl)
                shapeCasts_S512_S512x1)
              0x00000000#32 reduces_S512x1_S1 (.inl rfl) rfl)
            shapeCasts_S1_S1x1) := rfl

/-- At its one index: the accumulator plus the double sum of the entries. -/
theorem pay1_apply (v50 v74 : FVec Ideal S512x512 .f32) (v76 : IVec S512x512 1) (v77 : FVec Ideal S512x512 .f32)
    (acc : Vec Ideal S1x1 .f32) :
    k0_pay1 v50 v74 v76 v77 acc (ix2 (0 : Fin 1) (0 : Fin 1))
      = acc (ix2 (0 : Fin 1) (0 : Fin 1)) + ∑ r : Fin 512, ∑ c : Fin 512, entryMat v50 v74 v76 v77 (ix2 r c) := by
  rw [pay1_eq]
  show shapeCast S1x1 acc shapeCasts_S1x1_S1x1 (ix2 (0 : Fin 1) (0 : Fin 1)) + _ = _
  rw [shapeCast_self]
  refine congrArg (acc (ix2 (0 : Fin 1) (0 : Fin 1)) + ·) ?_
  refine (shapeCast_a_a1_apply _ shapeCasts_S1_S1x1 (0 : Fin 1) (0 : Fin 1)).trans ?_
  refine (colSum_apply _ reduces_S512x1_S1 (.inl rfl) rfl (0 : Fin 1)).trans ?_
  refine Finset.sum_congr rfl fun r _ => ?_
  refine (shapeCast_a_a1_apply _ shapeCasts_S512_S512x1 r (0 : Fin 1)).trans ?_
  exact rowSum_apply _ reduces_S512x512_S512 (.inl rfl) rfl r

/-! ### The tile -/

/-- THE TILE. The kernel's accumulating payload over the four staged blocks, at its one index, is the accumulator
    plus the sum over the rows `r` of the first blocks and `c` of the second of the entry `D * (log D - E)` of those
    four rows. -/
theorem tile_apply (yq yk pq pk : Vec Ideal S1x512x33 .f32) (acc : Vec Ideal S1x1 .f32) :
    k0_pay1 (k0_pay6 (k0_pay5 yq yk) (Scalar.ofBits (F := Ideal) .f32 0x00000000#32))
        (k0_pay8 (k0_pay3 pq) (k0_pay4 pk)) (k0_pay9 (k0_pay3 pq) (k0_pay4 pk)) (k0_pay10 (F := Ideal)) acc
        (ix2 (0 : Fin 1) (0 : Fin 1))
      = acc (ix2 (0 : Fin 1) (0 : Fin 1))
        + ∑ r : Fin 512, ∑ c : Fin 512,
            Cert.RefSide.klEntry (fun k => yq (ix3 (0 : Fin 1) r k)) (fun k => yk (ix3 (0 : Fin 1) c k))
              (fun k => pq (ix3 (0 : Fin 1) r k)) (fun k => pk (ix3 (0 : Fin 1) c k)) := by
  rw [pay1_apply]
  refine congrArg (acc (ix2 (0 : Fin 1) (0 : Fin 1)) + ·) ?_
  refine Finset.sum_congr rfl fun r _ => Finset.sum_congr rfl fun c _ => ?_
  rw [entryMat_apply, pay6_apply, safeSqrt_apply, pay5_apply, pay7_apply]
  simp only [pay3_apply, pay4_apply]
  rfl

end Cert.KernelIdeal.Tile

end
-- ==== Proof.AlgebraSum.lean ====
/-
  Sums over a tiled index set. The double sum over a 4096 × 4096 square, for each of two batches,
  equals the sum over the 2 × 8 × 8 grid of 512 × 512 tiles of each tile's double sum: a sum in a
  commutative monoid does not depend on how its index set is enumerated. Also: a running total that
  starts at `0 + g 0` and adds `g (t+1)` at step `t+1` is the sum of `g` over the steps taken.
  Nothing here is about floats: everything holds in any additive commutative monoid.
-/
import Mathlib.Algebra.BigOperators.Fin
import Mathlib.Algebra.BigOperators.Group.Finset.Basic
import Mathlib.Data.Fintype.BigOperators
import Mathlib.Data.EReal.Basic

namespace Cert.Proof.Algebra

open scoped BigOperators

/-- Position `r` of tile `i` along an axis of 4096 cut into 8 tiles of 512: the index `512 * i + r`. -/
def tileEquiv : Fin 8 × Fin 512 ≃ Fin 4096 where
  toFun p := ⟨512 * p.1.val + p.2.val, by omega⟩
  invFun n := (⟨n.val / 512, by omega⟩, ⟨n.val % 512, by omega⟩)
  left_inv p := by
    rcases p with ⟨⟨i, hi⟩, ⟨r, hr⟩⟩
    apply Prod.ext <;> apply Fin.ext <;> simp only <;> omega
  right_inv n := by
    rcases n with ⟨n, hn⟩
    apply Fin.ext; simp only; omega

@[simp] theorem tileEquiv_val (p : Fin 8 × Fin 512) : (tileEquiv p).val = 512 * p.1.val + p.2.val := rfl

/-- Point `t` of the row-major 2 × 8 × 8 grid: its coordinates `(t / 64, (t / 8) % 8, t % 8)`. -/
def gridEquiv : Fin 128 ≃ Fin 2 × Fin 8 × Fin 8 where
  toFun t := (⟨t.val / 64, by omega⟩, ⟨(t.val / 8) % 8, by omega⟩, ⟨t.val % 8, by omega⟩)
  invFun p := ⟨64 * p.1.val + 8 * p.2.1.val + p.2.2.val, by omega⟩
  left_inv t := by
    rcases t with ⟨t, ht⟩
    apply Fin.ext; simp only; omega
  right_inv p := by
    rcases p with ⟨⟨b, hb⟩, ⟨i, hi⟩, ⟨j, hj⟩⟩
    refine Prod.ext (Fin.ext ?_) (Prod.ext (Fin.ext ?_) (Fin.ext ?_)) <;> simp only <;> omega

@[simp] theorem gridEquiv_fst_val (t : Fin 128) : (gridEquiv t).1.val = t.val / 64 := rfl
@[simp] theorem gridEquiv_snd_fst_val (t : Fin 128) : (gridEquiv t).2.1.val = (t.val / 8) % 8 := rfl
@[simp] theorem gridEquiv_snd_snd_val (t : Fin 128) : (gridEquiv t).2.2.val = t.val % 8 := rfl

section Sum
variable {M : Type*} [AddCommMonoid M]

/-- A sum over an axis of 4096 is the sum over its 8 tiles of the sum over each tile's 512 positions. -/
theorem sum_axis_tiles (h : Fin 4096 → M) : ∑ n, h n = ∑ i : Fin 8, ∑ r : Fin 512, h (tileEquiv (i, r)) := by
  rw [← Equiv.sum_comp tileEquiv h, Fintype.sum_prod_type]

/-- The whole sum, with both square axes cut into tiles: batch, row tile, column tile, then the tile. -/
theorem sum_whole_eq_tiles (f : Fin 2 → Fin 4096 → Fin 4096 → M) :
    ∑ b, ∑ n, ∑ m, f b n m
      = ∑ b : Fin 2, ∑ i : Fin 8, ∑ j : Fin 8, ∑ r : Fin 512, ∑ c : Fin 512,
          f b (tileEquiv (i, r)) (tileEquiv (j, c)) := by
  refine Finset.sum_congr rfl fun b _ => ?_
  rw [sum_axis_tiles]
  refine Finset.sum_congr rfl fun i _ => ?_
  calc ∑ r : Fin 512, ∑ m, f b (tileEquiv (i, r)) m
      = ∑ r : Fin 512, ∑ j : Fin 8, ∑ c : Fin 512, f b (tileEquiv (i, r)) (tileEquiv (j, c)) :=
        Finset.sum_congr rfl fun r _ => sum_axis_tiles _
    _ = ∑ j : Fin 8, ∑ r : Fin 512, ∑ c : Fin 512, f b (tileEquiv (i, r)) (tileEquiv (j, c)) :=
        Finset.sum_comm

/-- TILED SUM = WHOLE SUM, for any enumeration `e` of the 2 × 8 × 8 grid by 128 points. -/
theorem sum_tiles_equiv (e : Fin 128 ≃ Fin 2 × Fin 8 × Fin 8) (f : Fin 2 → Fin 4096 → Fin 4096 → M) :
    ∑ t : Fin 128, ∑ r : Fin 512, ∑ c : Fin 512,
        f (e t).1 (tileEquiv ((e t).2.1, r)) (tileEquiv ((e t).2.2, c))
      = ∑ b, ∑ n, ∑ m, f b n m := by
  rw [sum_whole_eq_tiles]
  rw [Equiv.sum_comp e (fun p : Fin 2 × Fin 8 × Fin 8 =>
    ∑ r : Fin 512, ∑ c : Fin 512, f p.1 (tileEquiv (p.2.1, r)) (tileEquiv (p.2.2, c)))]
  rw [Fintype.sum_prod_type]
  refine Finset.sum_congr rfl fun b _ => ?_
  rw [Fintype.sum_prod_type]

/-- TILED SUM = WHOLE SUM over the row-major grid: point `t` is batch `t / 64`, row tile `(t / 8) % 8`,
    column tile `t % 8`. -/
theorem sum_tiles_rowMajor (f : Fin 2 → Fin 4096 → Fin 4096 → M) :
    ∑ t : Fin 128, ∑ r : Fin 512, ∑ c : Fin 512,
        f ⟨t.val / 64, by omega⟩ ⟨512 * ((t.val / 8) % 8) + r.val, by omega⟩ ⟨512 * (t.val % 8) + c.val, by omega⟩
      = ∑ b, ∑ n, ∑ m, f b n m :=
  sum_tiles_equiv gridEquiv f

/-- The same, for ANY way of writing the three indices whose VALUES are those of the row-major grid: the batch
    `B t`, the row `R t r` and the column `C t c` are given as functions, with their values as hypotheses. -/
theorem sum_tiles_of_val (f : Fin 2 → Fin 4096 → Fin 4096 → M) (B : Fin 128 → Fin 2)
    (R C : Fin 128 → Fin 512 → Fin 4096) (hB : ∀ t, (B t).val = t.val / 64)
    (hR : ∀ t r, (R t r).val = 512 * ((t.val / 8) % 8) + r.val)
    (hC : ∀ t c, (C t c).val = 512 * (t.val % 8) + c.val) :
    ∑ t : Fin 128, ∑ r : Fin 512, ∑ c : Fin 512, f (B t) (R t r) (C t c) = ∑ b, ∑ n, ∑ m, f b n m := by
  rw [← sum_tiles_rowMajor f]
  refine Finset.sum_congr rfl fun t _ => Finset.sum_congr rfl fun r _ => Finset.sum_congr rfl fun c _ => ?_
  have e1 : B t = ⟨t.val / 64, by omega⟩ := Fin.ext (hB t)
  have e2 : R t r = ⟨512 * ((t.val / 8) % 8) + r.val, by omega⟩ := Fin.ext (hR t r)
  have e3 : C t c = ⟨512 * (t.val % 8) + c.val, by omega⟩ := Fin.ext (hC t c)
  rw [e1, e2, e3]

/-- The same for any enumeration `e` of the grid, the indices given by their values. -/
theorem sum_tiles_equiv_of_val (e : Fin 128 ≃ Fin 2 × Fin 8 × Fin 8) (f : Fin 2 → Fin 4096 → Fin 4096 → M)
    (B : Fin 128 → Fin 2) (R C : Fin 128 → Fin 512 → Fin 4096) (hB : ∀ t, B t = (e t).1)
    (hR : ∀ t r, (R t r).val = 512 * (e t).2.1.val + r.val)
    (hC : ∀ t c, (C t c).val = 512 * (e t).2.2.val + c.val) :
    ∑ t : Fin 128, ∑ r : Fin 512, ∑ c : Fin 512, f (B t) (R t r) (C t c) = ∑ b, ∑ n, ∑ m, f b n m := by
  rw [← sum_tiles_equiv e f]
  refine Finset.sum_congr rfl fun t _ => Finset.sum_congr rfl fun r _ => Finset.sum_congr rfl fun c _ => ?_
  have e2 : R t r = tileEquiv ((e t).2.1, r) := Fin.ext (hR t r)
  have e3 : C t c = tileEquiv ((e t).2.2, c) := Fin.ext (hC t c)
  rw [hB t, e2, e3]

/-! ### A running total -/

/-- A running total over the naturals: from `0 + g 0`, adding `g (t+1)` at step `t+1`, the total after step `n`
    is the sum of `g` over `0, …, n`. -/
theorem acc_nat_eq_sum (g acc : ℕ → M) (h0 : acc 0 = 0 + g 0) (hs : ∀ t, acc (t + 1) = acc t + g (t + 1)) (n : ℕ) :
    acc n = ∑ t ∈ Finset.range (n + 1), g t := by
  induction n with
  | zero => rw [h0, zero_add, Finset.sum_range_one]
  | succ k ih => rw [hs, ih, Finset.sum_range_succ _ (k + 1)]

/-- The same with the steps bounded: only the steps below `N` are known. -/
theorem acc_nat_eq_sum_of_lt (N : ℕ) (g acc : ℕ → M) (h0 : acc 0 = 0 + g 0)
    (hs : ∀ t, t + 1 < N → acc (t + 1) = acc t + g (t + 1)) (n : ℕ) (hn : n < N) :
    acc n = ∑ t ∈ Finset.range (n + 1), g t := by
  induction n with
  | zero => rw [h0, zero_add, Finset.sum_range_one]
  | succ k ih => rw [hs k hn, ih (by omega), Finset.sum_range_succ _ (k + 1)]

/-- A running total over the 128 grid points: from `0 + g 0`, adding `g (t+1)` at point `t+1`, the total at the
    last point is the sum of `g` over all 128. -/
theorem acc_fin_eq_sum (g acc : Fin 128 → M) (h0 : acc 0 = 0 + g 0)
    (hs : ∀ (t : ℕ) (h : t + 1 < 128), acc ⟨t + 1, h⟩ = acc ⟨t, by omega⟩ + g ⟨t + 1, h⟩) :
    acc 127 = ∑ t, g t := by
  have key : ∀ (n : ℕ) (hn : n < 128), acc ⟨n, hn⟩ = ∑ t ∈ Finset.range (n + 1), (fun k => if h : k < 128 then g ⟨k, h⟩ else 0) t := by
    intro n
    induction n with
    | zero => intro hn; rw [Finset.sum_range_one, dif_pos hn]; exact h0.trans (zero_add _)
    | succ k ih =>
      intro hn
      rw [hs k hn, ih (by omega), Finset.sum_range_succ _ (k + 1), dif_pos hn]
  have h127 : (127 : Fin 128) = ⟨127, by omega⟩ := rfl
  rw [h127, key 127 (by omega), Fin.sum_univ_eq_sum_range (fun k => if h : k < 128 then g ⟨k, h⟩ else 0) 128 |>.symm]
  refine Finset.sum_congr rfl fun t _ => ?_
  rw [dif_pos t.isLt]

end Sum

/-- The statements at the extended reals, as they are used. -/
example (f : Fin 2 → Fin 4096 → Fin 4096 → EReal) :
    ∑ t : Fin 128, ∑ r : Fin 512, ∑ c : Fin 512,
        f ⟨t.val / 64, by omega⟩ ⟨512 * ((t.val / 8) % 8) + r.val, by omega⟩ ⟨512 * (t.val % 8) + c.val, by omega⟩
      = ∑ b, ∑ n, ∑ m, f b n m :=
  sum_tiles_rowMajor f

end Cert.Proof.Algebra
-- ==== Proof.KernelIdealSum.lean ====
/-
  The sweep's running sum after the last grid point is the whole sum. Window 0 and window 2 hold, at point `t` of
  the row-major 2 × 8 × 8 grid, the 512 rows `512 * ((t / 8) % 8) + r` of batch `t / 64` of the two arrays; windows 1
  and 3 the rows `512 * (t % 8) + c` of the same batch. Each point adds its tile's double sum of entries to the running
  sum, which starts from zero; a sum over the tiles of the tiles' double sums is the double sum over the whole square,
  for each batch.
-/
import proofs.«171995_j84464826843907_1_alg».proof.Proof.KernelIdealData
import proofs.«171995_j84464826843907_1_alg».proof.Proof.Tile
import proofs.«171995_j84464826843907_1_alg».proof.Proof.AlgebraSum

set_option maxRecDepth 16384

noncomputable section

namespace Cert.KernelIdeal.Sweep

open Cert.KernelIdeal Cert.KernelIdeal.Gen
open Idealize.ShloMosaic Idealize.ShloMosaic.ValueIdx Idealize.ShloMosaic.TcCoe
open Idealize.ShloMosaic.Pipeline (Dat Cfg Window)
open scoped BigOperators

variable (m : (ℓ : Loc nD τ sig) → Buf (Elt Ideal) ℓ)

/-- The grid has 128 points. -/
theorem t_lt (t : Fin cfg0.N) : t.val < 128 := lt_of_lt_of_eq t.isLt (show cfg0.N = 128 from N_0)

/-- The printed index maps, decided over the grid: the query windows are at block `(t / 64, (t / 8) % 8, 0)`, the key
    windows at block `(t / 64, t % 8, 0)`. -/
theorem idx_facts : ∀ t : Fin cfg0.N,
    (win0_0.index t (0 : Fin 3) = t.val / 64 ∧ win0_0.index t (1 : Fin 3) = (t.val / 8) % 8 ∧ win0_0.index t (2 : Fin 3) = 0)
    ∧ (win0_1.index t (0 : Fin 3) = t.val / 64 ∧ win0_1.index t (1 : Fin 3) = t.val % 8 ∧ win0_1.index t (2 : Fin 3) = 0)
    ∧ (win0_2.index t (0 : Fin 3) = t.val / 64 ∧ win0_2.index t (1 : Fin 3) = (t.val / 8) % 8 ∧ win0_2.index t (2 : Fin 3) = 0)
    ∧ (win0_3.index t (0 : Fin 3) = t.val / 64 ∧ win0_3.index t (1 : Fin 3) = t.val % 8 ∧ win0_3.index t (2 : Fin 3) = 0) :=
  (by decide +kernel : ∀ t : Fin grid0.N, _)

/-! ### The blocks read off the arrays -/

/-- The query block of the first array at point `t`: row `r` is row `512 * ((t / 8) % 8) + r` of batch `t / 64`. -/
theorem iblk0_apply (c : Dev nD) (t : Fin cfg0.N) (r : Fin 512) (k : Fin 33) :
    iblk m c 0 t (ix3 (0 : Fin 1) r k)
      = Ve m c main_arg1 (ix3 (⟨t.val / 64, by have := t_lt t; omega⟩ : Fin 2)
          (⟨512 * ((t.val / 8) % 8) + r.val, by have := t_lt t; omega⟩ : Fin 4096) k) := by
  obtain ⟨⟨e0, e1, e2⟩, -⟩ := idx_facts t
  show Ve m c main_arg1 (((cfg0.win 0).blk t).view.emb (ix3 (0 : Fin 1) r k)) = _
  refine congrArg (Ve m c main_arg1) (funext fun a => Fin.ext ?_)
  match a with
  | ⟨0, _⟩ => show win0_0.index t (0 : Fin 3) * 1 + 1 * 0 = t.val / 64; omega
  | ⟨1, _⟩ => show win0_0.index t (1 : Fin 3) * 512 + 1 * r.val = 512 * ((t.val / 8) % 8) + r.val; omega
  | ⟨2, _⟩ => show win0_0.index t (2 : Fin 3) * 33 + 1 * k.val = k.val; omega

/-- The key block of the first array at point `t`: row `c'` is row `512 * (t % 8) + c'` of batch `t / 64`. -/
theorem iblk1_apply (c : Dev nD) (t : Fin cfg0.N) (r : Fin 512) (k : Fin 33) :
    iblk m c 1 t (ix3 (0 : Fin 1) r k)
      = Ve m c main_arg1 (ix3 (⟨t.val / 64, by have := t_lt t; omega⟩ : Fin 2)
          (⟨512 * (t.val % 8) + r.val, by have := t_lt t; omega⟩ : Fin 4096) k) := by
  obtain ⟨-, ⟨e0, e1, e2⟩, -⟩ := idx_facts t
  show Ve m c main_arg1 (((cfg0.win 1).blk t).view.emb (ix3 (0 : Fin 1) r k)) = _
  refine congrArg (Ve m c main_arg1) (funext fun a => Fin.ext ?_)
  match a with
  | ⟨0, _⟩ => show win0_1.index t (0 : Fin 3) * 1 + 1 * 0 = t.val / 64; omega
  | ⟨1, _⟩ => show win0_1.index t (1 : Fin 3) * 512 + 1 * r.val = 512 * (t.val % 8) + r.val; omega
  | ⟨2, _⟩ => show win0_1.index t (2 : Fin 3) * 33 + 1 * k.val = k.val; omega

/-- The query block of the second array. -/
theorem iblk2_apply (c : Dev nD) (t : Fin cfg0.N) (r : Fin 512) (k : Fin 33) :
    iblk m c 2 t (ix3 (0 : Fin 1) r k)
      = Ve m c main_v26 (ix3 (⟨t.val / 64, by have := t_lt t; omega⟩ : Fin 2)
          (⟨512 * ((t.val / 8) % 8) + r.val, by have := t_lt t; omega⟩ : Fin 4096) k) := by
  obtain ⟨-, -, ⟨e0, e1, e2⟩, -⟩ := idx_facts t
  show Ve m c main_v26 (((cfg0.win 2).blk t).view.emb (ix3 (0 : Fin 1) r k)) = _
  refine congrArg (Ve m c main_v26) (funext fun a => Fin.ext ?_)
  match a with
  | ⟨0, _⟩ => show win0_2.index t (0 : Fin 3) * 1 + 1 * 0 = t.val / 64; omega
  | ⟨1, _⟩ => show win0_2.index t (1 : Fin 3) * 512 + 1 * r.val = 512 * ((t.val / 8) % 8) + r.val; omega
  | ⟨2, _⟩ => show win0_2.index t (2 : Fin 3) * 33 + 1 * k.val = k.val; omega

/-- The key block of the second array. -/
theorem iblk3_apply (c : Dev nD) (t : Fin cfg0.N) (r : Fin 512) (k : Fin 33) :
    iblk m c 3 t (ix3 (0 : Fin 1) r k)
      = Ve m c main_v26 (ix3 (⟨t.val / 64, by have := t_lt t; omega⟩ : Fin 2)
          (⟨512 * (t.val % 8) + r.val, by have := t_lt t; omega⟩ : Fin 4096) k) := by
  obtain ⟨-, -, -, ⟨e0, e1, e2⟩⟩ := idx_facts t
  show Ve m c main_v26 (((cfg0.win 3).blk t).view.emb (ix3 (0 : Fin 1) r k)) = _
  refine congrArg (Ve m c main_v26) (funext fun a => Fin.ext ?_)
  match a with
  | ⟨0, _⟩ => show win0_3.index t (0 : Fin 3) * 1 + 1 * 0 = t.val / 64; omega
  | ⟨1, _⟩ => show win0_3.index t (1 : Fin 3) * 512 + 1 * r.val = 512 * (t.val % 8) + r.val; omega
  | ⟨2, _⟩ => show win0_3.index t (2 : Fin 3) * 33 + 1 * k.val = k.val; omega

/-! ### One point's contribution -/

/-- The two arrays as the sweep finds them. -/
abbrev Yarr (c : Dev nD) : FVec Ideal Cert.RefSide.SX .f32 := Ve m c main_arg1
abbrev Parr (c : Dev nD) : FVec Ideal Cert.RefSide.SX .f32 := Ve m c main_v26

/-- The entry of rows `n`, `n'` of batch `b` of the two arrays. -/
def entryAt (c : Dev nD) (b : Fin 2) (n n' : Fin 4096) : EReal :=
  Cert.RefSide.klEntry (Cert.RefSide.row (Yarr m c) b n) (Cert.RefSide.row (Yarr m c) b n')
    (Cert.RefSide.row (Parr m c) b n) (Cert.RefSide.row (Parr m c) b n')

/-- The step at its one index: the accumulator plus the tile's double sum of entries. -/
theorem stepAcc_apply (yq yk pq pk : Vec Ideal S1x512x33 .f32) (acc : Vec Ideal S1x1 .f32) :
    stepAcc yq yk pq pk acc (ix2 (0 : Fin 1) (0 : Fin 1))
      = acc (ix2 (0 : Fin 1) (0 : Fin 1))
        + ∑ r : Fin 512, ∑ c : Fin 512,
            Cert.RefSide.klEntry (fun k => yq (ix3 (0 : Fin 1) r k)) (fun k => yk (ix3 (0 : Fin 1) c k))
              (fun k => pq (ix3 (0 : Fin 1) r k)) (fun k => pk (ix3 (0 : Fin 1) c k)) :=
  Cert.KernelIdeal.Tile.tile_apply yq yk pq pk acc

/-- Point `t`'s tile: the entries of rows `512 * ((t / 8) % 8) + r` and `512 * (t % 8) + c'` of batch `t / 64`. -/
def tileSum (c : Dev nD) (t : Fin cfg0.N) : EReal :=
  ∑ r : Fin 512, ∑ c' : Fin 512,
    entryAt m c (⟨t.val / 64, by have := t_lt t; omega⟩ : Fin 2)
      (⟨512 * ((t.val / 8) % 8) + r.val, by have := t_lt t; omega⟩ : Fin 4096)
      (⟨512 * (t.val % 8) + c'.val, by have := t_lt t; omega⟩ : Fin 4096)

/-- The step over the blocks at point `t` adds that tile. -/
theorem stepAcc_iblk (c : Dev nD) (t : Fin cfg0.N) (acc : Vec Ideal S1x1 .f32) :
    stepAcc (iblk m c 0 t) (iblk m c 1 t) (iblk m c 2 t) (iblk m c 3 t) acc (ix2 (0 : Fin 1) (0 : Fin 1))
      = acc (ix2 (0 : Fin 1) (0 : Fin 1)) + tileSum m c t := by
  refine (stepAcc_apply (iblk m c 0 t) (iblk m c 1 t) (iblk m c 2 t) (iblk m c 3 t) acc).trans ?_
  refine congrArg (acc (ix2 (0 : Fin 1) (0 : Fin 1)) + ·) ?_
  unfold tileSum entryAt Cert.RefSide.row
  refine Finset.sum_congr rfl fun r _ => Finset.sum_congr rfl fun c' _ => ?_
  simp only [iblk0_apply, iblk1_apply, iblk2_apply, iblk3_apply]

/-! ### The running sum -/

/-- The running sum after point `n` is the sum of the tiles of the points `0, …, n`. -/
theorem accAt_eq_sum (c : Dev nD) : ∀ (n : ℕ) (hn : n < cfg0.N),
    accAt m c n hn (ix2 (0 : Fin 1) (0 : Fin 1))
      = ∑ k ∈ Finset.range (n + 1), (if h : k < cfg0.N then tileSum m c ⟨k, h⟩ else 0)
  | 0, hn => by
    show stepAcc (iblk m c 0 ⟨0, hn⟩) (iblk m c 1 ⟨0, hn⟩) (iblk m c 2 ⟨0, hn⟩) (iblk m c 3 ⟨0, hn⟩) (k0_pay2 (F := Ideal))
      (ix2 (0 : Fin 1) (0 : Fin 1)) = _
    rw [stepAcc_iblk, Finset.sum_range_one, dif_pos hn]
    show Ideal.ofBits .f32 0x00000000#32 + _ = _
    rw [Ideal.ofBits_zero_f32, zero_add]
  | n + 1, hn => by
    show stepAcc (iblk m c 0 ⟨n + 1, hn⟩) (iblk m c 1 ⟨n + 1, hn⟩) (iblk m c 2 ⟨n + 1, hn⟩) (iblk m c 3 ⟨n + 1, hn⟩)
      (accAt m c n (Nat.lt_of_succ_lt hn)) (ix2 (0 : Fin 1) (0 : Fin 1)) = _
    rw [stepAcc_iblk, accAt_eq_sum c n (Nat.lt_of_succ_lt hn), Finset.sum_range_succ _ (n + 1), dif_pos hn]

/-- THE RUNNING SUM AFTER THE LAST POINT IS THE WHOLE SUM: `0 +` the sum over the batches and over all pairs of rows
    of the entry — the reference's term. -/
theorem accAt_last (c : Dev nD) (h : 127 < cfg0.N) :
    accAt m c 127 h (ix2 (0 : Fin 1) (0 : Fin 1)) = Cert.RefSide.klRef (Yarr m c) (Parr m c) := by
  rw [accAt_eq_sum m c 127 h]
  unfold Cert.RefSide.klRef
  rw [zero_add]
  have hN : cfg0.N = 128 := N_0
  -- the sum over the first 128 naturals is the sum over the 128 points
  have e1 : ∑ k ∈ Finset.range (127 + 1), (if h : k < cfg0.N then tileSum m c ⟨k, h⟩ else 0)
      = ∑ t : Fin 128, tileSum m c ⟨t.val, by rw [hN]; exact t.isLt⟩ := by
    rw [Fin.sum_univ_eq_sum_range (fun k => if h : k < cfg0.N then tileSum m c ⟨k, h⟩ else 0) 128 |>.symm]
    refine Finset.sum_congr rfl fun t _ => ?_
    rw [dif_pos (by rw [hN]; exact t.isLt)]
  rw [e1]
  exact Cert.Proof.Algebra.sum_tiles_rowMajor (fun b n n' => entryAt m c b n n')

end Cert.KernelIdeal.Sweep

end
-- ==== Proof.KernelIdealOut.lean ====
/-
  The scalar result's array after the sweep. Its window is the whole one-entry array, written back after the last
  grid point only; what is written back there is the running sum after that point. So after the run the array
  holds the running sum after point 127.
-/
import proofs.«171995_j84464826843907_1_alg».proof.Proof.KernelIdealData
import Idealize.ShloMosaic.Lib.ValueIdx

set_option maxRecDepth 16384

noncomputable section

namespace Cert.KernelIdeal.Sweep

open Cert.KernelIdeal Cert.KernelIdeal.Gen
open Idealize.ShloMosaic Idealize.ShloMosaic.ValueIdx Idealize.ShloMosaic.TcCoe
open Idealize.ShloMosaic.Pipeline (Dat Cfg Window)

variable {F : FTy → Type} [FloatOps F]
variable (m : (ℓ : Loc nD τ sig) → Buf (Elt F) ℓ)

/-- The grid has 128 points. -/
theorem point_lt (t : Fin cfg0.N) : t.val < 128 := lt_of_lt_of_eq t.isLt (show cfg0.N = 128 from N_0)

/-- The result window's block index is `(0, 0)` at every point. -/
theorem idx_out : ∀ t : Fin cfg0.N, win0_4.index t (0 : Fin 2) = 0 ∧ win0_4.index t (1 : Fin 2) = 0 :=
  (by decide +kernel : ∀ t : Fin grid0.N, _)

/-- An index of the result array is in point `t`'s block iff each coordinate is in the block's range. -/
theorem mem_blk_out (t : Fin cfg0.N) (i : S1x1.Idx) :
    i ∈ ((cfg0.win 4).blk t).view.set
      ↔ ∀ a : Fin 2, win0_4.index t a * S1x1.size a ≤ (i a).val ∧ (i a).val < win0_4.index t a * S1x1.size a + S1x1.size a := by
  show i ∈ ((View.whole main_v27).slice (win0_4.rect t)).set ↔ _
  rw [View.set_slice_whole, Rect.mem_set_unit]
  exact Iff.rfl

/-- THE RESULT ARRAY AFTER THE RUN is the running sum after the last point. -/
theorem arrAt_out (c : Dev nD) (h : 127 < cfg0.N) : (dats m 0 c).arrAt 4 cfg0.N = accAt m c 127 h := by
  refine (dats m 0 c).arrAt_eq_of_cover 4 (accAt m c 127 h) (fun t hf => ?_) (fun i => ?_)
  · -- only the last point writes back, and it writes the running sum there
    have ht : t.val = 127 := by
      have h1 := (flush0_4 t).mp hf
      have h2 := point_lt t
      omega
    obtain ⟨e0, e1⟩ := idx_out t
    show (dats m 0 c).after 4 t = _
    rw [after_4]
    obtain ⟨n, hn⟩ := t
    obtain rfl : n = 127 := ht
    funext y
    show accAt m c 127 hn y = accAt m c 127 h (((cfg0.win 4).blk ⟨127, hn⟩).view.emb y)
    refine congrArg (accAt m c 127 h) (funext fun a => Fin.ext ?_)
    match a with
    | ⟨0, _⟩ => show (y 0).val = win0_4.index ⟨127, hn⟩ (0 : Fin 2) * 1 + 1 * (y 0).val; omega
    | ⟨1, _⟩ => show (y 1).val = win0_4.index ⟨127, hn⟩ (1 : Fin 2) * 1 + 1 * (y 1).val; omega
  · -- the last point's block is the whole array
    refine ⟨⟨127, h⟩, (flush0_4 _).mpr rfl, ?_⟩
    rw [mem_blk_out]
    obtain ⟨e0, e1⟩ := idx_out ⟨127, h⟩
    intro a
    match a with
    | ⟨0, _⟩ =>
      show win0_4.index ⟨127, h⟩ (0 : Fin 2) * 1 ≤ (i 0).val ∧ (i 0).val < win0_4.index ⟨127, h⟩ (0 : Fin 2) * 1 + 1
      have hi : (i 0).val < 1 := (i 0).isLt
      omega
    | ⟨1, _⟩ =>
      show win0_4.index ⟨127, h⟩ (1 : Fin 2) * 1 ≤ (i 1).val ∧ (i 1).val < win0_4.index ⟨127, h⟩ (1 : Fin 2) * 1 + 1
      have hi : (i 1).val < 1 := (i 1).isLt
      omega

/-- At its one index. -/
theorem arrAt_out_apply (c : Dev nD) (h : 127 < cfg0.N) :
    (dats m 0 c).arrAt 4 cfg0.N (ix2 (0 : Fin 1) (0 : Fin 1)) = accAt m c 127 h (ix2 (0 : Fin 1) (0 : Fin 1)) :=
  congrFun (arrAt_out m c h) _

end Cert.KernelIdeal.Sweep

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.LibCastReads.lean ====
/-
  More array operations READ AT AN INDEX, over shapes of literal rank and any extents: a scalar broadcast anywhere;
  the broadcasts [a, b] → [a, 1, b] and [a, 1, b] → [a, c, b]; the reshapes [a, b, 1] → [a, b], [a, b, 1] → [a, b, 1, 1]
  and [a, b] → [a·b] (row-major).
-/
import Idealize.ShloMosaic.Lib.Pipeline.Value
import Idealize.ShloMosaic.Lib.ValueIdx

noncomputable section

namespace Idealize.ShloMosaic.CastReads

open Idealize.ShloMosaic Idealize.ShloMosaic.ValueIdx

section Layout
variable {α : Type}

/-- A rank-0 array broadcast to any shape: every entry is its one entry. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun d => d.elim0)

/-- [a, b] given a middle unit axis: entry (i, 0, j) is entry (i, j). -/
theorem bcast_mid_apply {a b : Nat} (h : (⟨2, ![a, b]⟩ : Shape).BroadcastsInDim ⟨3, ![a, 1, b]⟩ ![0, 2])
    (x : (⟨2, ![a, b]⟩ : Shape).Idx → α) (i : Fin a) (z : Fin 1) (j : Fin b) :
    broadcastInDim ⟨3, ![a, 1, b]⟩ ![0, 2] h x (ix3 i z j) = x (ix2 i j) :=
  broadcastInDim_apply _ h x (ix3 i z j) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, 1, b] repeated along the middle axis: entry (i, k, j) is entry (i, 0, j). -/
theorem bcast_rows_apply {a b c : Nat} (h : (⟨3, ![a, 1, b]⟩ : Shape).BroadcastsInDim ⟨3, ![a, c, b]⟩ ![0, 1, 2])
    (x : (⟨3, ![a, 1, b]⟩ : Shape).Idx → α) (i : Fin a) (k : Fin c) (j : Fin b) :
    broadcastInDim ⟨3, ![a, c, b]⟩ ![0, 1, 2] h x (ix3 i k j) = x (ix3 i 0 j) :=
  broadcastInDim_apply _ h x (ix3 i k j) (ix3 i 0 j) (fun d => by
    match d with
    | ⟨0, _⟩ =>
      show i.val = if a = 1 then 0 else i.val
      split
      · have := i.isLt; omega
      · rfl
    | ⟨1, _⟩ => show 0 = if (1 : Nat) = 1 then 0 else k.val; rw [if_pos rfl]
    | ⟨2, _⟩ =>
      show j.val = if b = 1 then 0 else j.val
      split
      · have := j.isLt; omega
      · rfl)

/-- [a, b, 1] with the unit axis dropped: entry (i, j) is entry (i, j, 0). -/
theorem cast_drop_apply {a b : Nat} (h : (⟨3, ![a, b, 1]⟩ : Shape).ShapeCasts ⟨2, ![a, b]⟩)
    (x : (⟨3, ![a, b, 1]⟩ : Shape).Idx → α) (i : Fin a) (j : Fin b) :
    shapeCast ⟨2, ![a, b]⟩ x h (ix2 i j) = x (ix3 i j 0) :=
  shapeCast_apply x h (ix2 i j) (ix3 i j 0) (by
    rw [Shape.rowMajor_val_three, Shape.rowMajor_val_two]
    show (i.val * b + j.val) * 1 + 0 = i.val * b + j.val
    rw [Nat.mul_one, Nat.add_zero])

/-- [a, b, 1] given one more unit axis: entry (i, j, z, 0) is entry (i, j, z). -/
theorem cast_unit_apply {a b : Nat} (h : (⟨3, ![a, b, 1]⟩ : Shape).ShapeCasts ⟨4, ![a, b, 1, 1]⟩)
    (x : (⟨3, ![a, b, 1]⟩ : Shape).Idx → α) (i : Fin a) (j : Fin b) (z : Fin 1) :
    shapeCast ⟨4, ![a, b, 1, 1]⟩ x h (ix4 i j z ⟨0, Nat.one_pos⟩) = x (ix3 i j z) :=
  shapeCast_apply x h (ix4 i j z ⟨0, Nat.one_pos⟩) (ix3 i j z) (by
    rw [Shape.rowMajor_val_three, Shape.rowMajor_val_four]
    show (i.val * b + j.val) * 1 + z.val = ((i.val * b + j.val) * 1 + z.val) * 1 + 0
    rw [Nat.mul_one, Nat.mul_one, Nat.add_zero])

/-- [a, b] flattened row-major to [n], n = a·b: entry i·b + j is entry (i, j). -/
theorem cast_flat_apply {a b n : Nat} (h : (⟨2, ![a, b]⟩ : Shape).ShapeCasts ⟨1, ![n]⟩)
    (x : (⟨2, ![a, b]⟩ : Shape).Idx → α) (i : Fin a) (j : Fin b) (hk : i.val * b + j.val < n) :
    shapeCast ⟨1, ![n]⟩ x h (ix1 ⟨i.val * b + j.val, hk⟩) = x (ix2 i j) :=
  shapeCast_apply x h (ix1 ⟨i.val * b + j.val, hk⟩) (ix2 i j) (by
    rw [Shape.rowMajor_val_two, Shape.rowMajor_val_one]
    rfl)

end Layout

end Idealize.ShloMosaic.CastReads

end
-- ==== Proof.LibIdxSums.lean ====
/-
  Sums over an index set of literal rank as iterated sums over the coordinates: rank 1, rank 3, and a flat index
  k = i·b + j of a product extent a·b as the double sum over (i, j).
-/
import Idealize.ShloMosaic.Lib.ValueIdx

noncomputable section

open scoped BigOperators

namespace Idealize.ShloMosaic.IdxSums

open Idealize.ShloMosaic Idealize.ShloMosaic.ValueIdx

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The flat position of (i, j) in a row-major a × b grid is below a·b. -/
theorem flat_lt {a b : Nat} (i : Fin a) (j : Fin b) : i.val * b + j.val < a * b := by
  have hi := i.isLt
  have hj := j.isLt
  calc i.val * b + j.val < i.val * b + b := by omega
    _ = (i.val + 1) * b := by ring
    _ ≤ a * b := Nat.mul_le_mul_right b hi

/-- A sum over the flat positions of a row-major a × b grid is the double sum over rows and columns. -/
theorem sum_flat {M : Type*} [AddCommMonoid M] {a b n : Nat} (h : a * b = n) (f : Fin n → M) :
    ∑ k, f k = ∑ i : Fin a, ∑ j : Fin b, f ⟨i.val * b + j.val, h ▸ flat_lt i j⟩ := by
  subst h
  rw [← Equiv.sum_comp (finProdFinEquiv (m := a) (n := b)) f, Fintype.sum_prod_type]
  refine Finset.sum_congr rfl fun i _ => Finset.sum_congr rfl fun j _ => congrArg f (Fin.ext ?_)
  show j.val + b * i.val = i.val * b + j.val
  rw [Nat.mul_comm, Nat.add_comm]

end Idealize.ShloMosaic.IdxSums

end
-- ==== Proof.AlgebraFocal.lean ====
/-
  The focal term, on the extended reals. With `c = -(Σ lt / N)` (the cross entropy) the two programs compute
  `c * (Σ_k (1 - exp (lt_k))^2 / N)` and `(Σ_k (1 - pn_k)^2 * c) / N`, where at each `k` either `lt_k` is a real
  number and `pn_k = exp (lt_k)`, or both are `⊥` (an index out of range). If every `lt_k` is real, everything
  is real and the two agree by distributivity. If some `lt_k = ⊥`, then `Σ lt = ⊥`, so `c = ⊤`, and both sides are
  `⊤`: on the left every weight `(1 - exp (lt_k))^2` is a real `≥ 0` and the one at `⊥` is `(1 - 0)^2 = 1`, so
  the mean weight is a positive real and `⊤` times it is `⊤`; on the right the term at `⊥` is
  `(1 - ⊥)^2 * ⊤ = ⊤^2 * ⊤ = ⊤` and every other term is a nonnegative real times `⊤`, which is `≥ 0`, so the sum
  is `⊤` and so is its quotient by `N > 0`.
-/
import Idealize.ShloMosaic.PureOps.Ideal
import Idealize.ShloMosaic.PureOps.Ideal.Laws
import Idealize.ShloMosaic.Lib.IdealHost

namespace Cert.Proof.Algebra

open Idealize.ShloMosaic
open scoped BigOperators

/-! ### Finite sums of extended reals -/

/-- A finite sum of real numbers, read in the extended reals, is the real sum. -/
theorem sum_coe {ι : Type*} (s : Finset ι) (a : ι → ℝ) :
    ∑ k ∈ s, ((a k : ℝ) : EReal) = ((∑ k ∈ s, a k : ℝ) : EReal) := by
  classical
  refine Finset.induction_on s (by simp) fun k s hk ih => ?_
  rw [Finset.sum_insert hk, Finset.sum_insert hk, ih, EReal.coe_add]

/-- A finite sum with a term `⊥` is `⊥`. -/
theorem sum_eq_bot {ι : Type*} (s : Finset ι) (f : ι → EReal) (k : ι) (hk : k ∈ s) (h : f k = ⊥) :
    ∑ i ∈ s, f i = ⊥ := by
  classical
  rw [← Finset.add_sum_erase s f hk, h, EReal.bot_add]

/-- A finite sum of nonnegative terms is not `⊥`. -/
theorem sum_ne_bot_of_nonneg {ι : Type*} (s : Finset ι) (f : ι → EReal) (h0 : ∀ i ∈ s, 0 ≤ f i) :
    ∑ i ∈ s, f i ≠ ⊥ :=
  ne_of_gt (lt_of_lt_of_le EReal.bot_lt_zero (Finset.sum_nonneg h0))

/-- A finite sum of nonnegative terms, one of them `⊤`, is `⊤`. -/
theorem sum_eq_top {ι : Type*} (s : Finset ι) (f : ι → EReal) (k : ι) (hk : k ∈ s) (h : f k = ⊤)
    (h0 : ∀ i ∈ s, 0 ≤ f i) : ∑ i ∈ s, f i = ⊤ := by
  classical
  rw [← Finset.add_sum_erase s f hk, h]
  exact EReal.top_add_of_ne_bot
    (sum_ne_bot_of_nonneg _ _ fun i hi => h0 i (Finset.mem_of_mem_erase hi))

/-! ### The constants -/

/-- The word `0x46000000` is the real number 8192. -/
theorem ofBits_8192_f32 : Ideal.ofBits .f32 0x46000000#32 = ((8192 : ℝ) : EReal) := by
  simp [Ideal.ofBits, Ideal.ieee, -EReal.coe_mul]; norm_num

/-- The word `0x40000000` is the real number 2. -/
theorem ofBits_two_f32 : Ideal.ofBits .f32 0x40000000#32 = ((2 : ℝ) : EReal) := by
  simp [Ideal.ofBits, Ideal.ieee, -EReal.coe_mul]; norm_num

/-! ### The weight `(1 - e)^2` -/

/-- For a real `e` the weight `(1 - e)` to the power `2` is the real square. -/
theorem pow_one_sub_coe_two (e : ℝ) :
    Ideal.pow ((1 : EReal) - (e : EReal)) ((2 : ℝ) : EReal) = (((1 - e) ^ 2 : ℝ) : EReal) := by
  rw [← EReal.coe_one, ← EReal.coe_sub, Ideal.pow_coe_coe]
  exact congrArg Real.toEReal (Real.rpow_two (1 - e))

/-- At `⊥` the weight is `⊤`: `1 - ⊥ = ⊤` and `⊤` to a positive power is `⊤`. -/
theorem pow_one_sub_bot_two : Ideal.pow ((1 : EReal) - ⊥) ((2 : ℝ) : EReal) = ⊤ := by
  rw [← EReal.coe_one, EReal.coe_sub_bot, Ideal.pow_top, if_pos (EReal.coe_pos.mpr two_pos)]

/-! ### The focal term -/

section Focal
variable {ι : Type*} [Fintype ι]

/-- THE FOCAL TERM, over any finite index set and any positive real count `N`. -/
theorem focal_eq (N : ℝ) (hN : 0 < N) (lt pn : ι → EReal)
    (h : ∀ k, (∃ r : ℝ, lt k = (r : EReal) ∧ pn k = Ideal.exp (lt k)) ∨ (lt k = ⊥ ∧ pn k = ⊥)) :
    (-(Ideal.div (0 + ∑ k, lt k) (N : EReal)))
        * (Ideal.div (0 + ∑ k, Ideal.pow ((1 : EReal) - Ideal.exp (lt k)) ((2 : ℝ) : EReal)) (N : EReal))
      = Ideal.div (0 + ∑ k, Ideal.pow ((1 : EReal) - pn k) ((2 : ℝ) : EReal)
          * (-(Ideal.div (0 + ∑ k, lt k) (N : EReal)))) (N : EReal) := by
  have hN0 : N ≠ 0 := hN.ne'
  have hinv : (0 : ℝ) < 1 / N := by positivity
  simp only [Ideal.div_coe hN0, zero_add]
  by_cases hb : ∃ k, lt k = ⊥
  · -- some index is out of range: both sides are `⊤`
    obtain ⟨k0, hk0⟩ := hb
    have hS : ∑ k, lt k = ⊥ := sum_eq_bot _ _ k0 (Finset.mem_univ _) hk0
    have hc : -((⊥ : EReal) * ((1 / N : ℝ) : EReal)) = ⊤ := by
      rw [EReal.bot_mul_coe_of_pos hinv, EReal.neg_bot]
    rw [hS, hc]
    -- the left side: the weights are reals `≥ 0`, the one at `k0` is `1`
    have hw : ∀ k, ∃ w : ℝ, (0 ≤ w ∧ (lt k = ⊥ → w = 1))
        ∧ Ideal.pow ((1 : EReal) - Ideal.exp (lt k)) ((2 : ℝ) : EReal) = (w : EReal) := by
      intro k
      rcases h k with ⟨r, hr, -⟩ | ⟨hk, -⟩
      · refine ⟨(1 - Real.exp r) ^ 2, ⟨sq_nonneg _, fun hbot => ?_⟩, ?_⟩
        · rw [hr] at hbot; exact absurd hbot (EReal.coe_ne_bot r)
        · rw [hr, Ideal.exp_coe, pow_one_sub_coe_two]
      · refine ⟨1, ⟨zero_le_one, fun _ => rfl⟩, ?_⟩
        rw [hk, Ideal.exp_bot, ← EReal.coe_zero, pow_one_sub_coe_two]; norm_num
    choose w hw1 hw2 using hw
    have hW : (0 : ℝ) < ∑ k, w k := by
      have h1 : w k0 ≤ ∑ k, w k := Finset.single_le_sum (fun i _ => (hw1 i).1) (Finset.mem_univ k0)
      rw [(hw1 k0).2 hk0] at h1
      linarith
    have hL : ⊤ * ((∑ k, Ideal.pow ((1 : EReal) - Ideal.exp (lt k)) ((2 : ℝ) : EReal)) * ((1 / N : ℝ) : EReal)) = ⊤ := by
      rw [Finset.sum_congr rfl fun k _ => hw2 k, sum_coe, ← EReal.coe_mul]
      exact EReal.top_mul_coe_of_pos (mul_pos hW hinv)
    -- the right side: the term at `k0` is `⊤`, the others are `≥ 0`
    have hR : ∑ k, Ideal.pow ((1 : EReal) - pn k) ((2 : ℝ) : EReal) * ⊤ = ⊤ := by
      refine sum_eq_top _ _ k0 (Finset.mem_univ _) ?_ fun k _ => ?_
      · rcases h k0 with ⟨r, hr, -⟩ | ⟨-, hp⟩
        · rw [hr] at hk0; exact absurd hk0 (EReal.coe_ne_bot r)
        · rw [hp, pow_one_sub_bot_two, EReal.top_mul_top]
      · rcases h k with ⟨r, hr, hp⟩ | ⟨-, hp⟩
        · rw [hp, hr, Ideal.exp_coe, pow_one_sub_coe_two]
          exact EReal.mul_nonneg (EReal.coe_nonneg.mpr (sq_nonneg _)) le_top
        · rw [hp, pow_one_sub_bot_two, EReal.top_mul_top]; exact le_top
    rw [hL, hR, EReal.top_mul_coe_of_pos hinv]
  · -- every index is in range: real arithmetic
    have hr : ∀ k, ∃ r : ℝ, lt k = (r : EReal) ∧ pn k = Ideal.exp (lt k) :=
      fun k => (h k).resolve_right fun hk => hb ⟨k, hk.1⟩
    choose a ha hp using hr
    have e1 : ∑ k, lt k = ((∑ k, a k : ℝ) : EReal) := by
      rw [Finset.sum_congr rfl fun k _ => ha k, sum_coe]
    have e2 : ∑ k, Ideal.pow ((1 : EReal) - Ideal.exp (lt k)) ((2 : ℝ) : EReal)
        = ((∑ k, (1 - Real.exp (a k)) ^ 2 : ℝ) : EReal) := by
      rw [Finset.sum_congr rfl fun k _ => by rw [ha k, Ideal.exp_coe, pow_one_sub_coe_two], sum_coe]
    have e3 : ∀ c : ℝ, ∑ k, Ideal.pow ((1 : EReal) - pn k) ((2 : ℝ) : EReal) * (c : EReal)
        = ((∑ k, (1 - Real.exp (a k)) ^ 2 * c : ℝ) : EReal) := by
      intro c
      rw [Finset.sum_congr rfl fun k _ => by
        rw [hp k, ha k, Ideal.exp_coe, pow_one_sub_coe_two, ← EReal.coe_mul], sum_coe]
    rw [e1, e2, ← EReal.coe_mul, ← EReal.coe_neg, e3, ← EReal.coe_mul, ← EReal.coe_mul, ← EReal.coe_mul]
    refine congrArg Real.toEReal ?_
    rw [← Finset.sum_mul]
    ring

/-- THE FOCAL TERM as the two programs write it: the count 8192, the exponent 2 and the 1 as the f32 words
    `0x46000000`, `0x40000000`, `0x3F800000`; the index set the 8192 positions. -/
theorem focal_eq_words (lt pn : Fin 8192 → EReal)
    (h : ∀ k, (∃ r : ℝ, lt k = (r : EReal) ∧ pn k = Ideal.exp (lt k)) ∨ (lt k = ⊥ ∧ pn k = ⊥)) :
    (-(Ideal.div (0 + ∑ k, lt k) (Ideal.ofBits .f32 0x46000000#32)))
        * (Ideal.div (0 + ∑ k, Ideal.pow (Ideal.ofBits .f32 0x3F800000#32 - Ideal.exp (lt k))
            (Ideal.ofBits .f32 0x40000000#32)) (Ideal.ofBits .f32 0x46000000#32))
      = Ideal.div (0 + ∑ k, Ideal.pow (Ideal.ofBits .f32 0x3F800000#32 - pn k) (Ideal.ofBits .f32 0x40000000#32)
          * (-(Ideal.div (0 + ∑ k, lt k) (Ideal.ofBits .f32 0x46000000#32)))) (Ideal.ofBits .f32 0x46000000#32) := by
  rw [ofBits_8192_f32, ofBits_two_f32, Ideal.ofBits_one_f32]
  exact focal_eq 8192 (by norm_num) lt pn h

end Focal

end Cert.Proof.Algebra
-- ==== Proof.AlgebraLogSoftmax.lean ====
/-
  The log-softmax of a row of real numbers is real. The row's maximum, taken as the fold of `max` from `⊥`
  (and then once more against `⊥`), is one of the row's entries, hence real; each `exp (x c - M)` is then a
  positive real, so their sum `s` is a positive real, its logarithm is real, and `(x c - M) - log s` is real.
-/
import Idealize.ShloMosaic.PureOps.Ideal
import Idealize.ShloMosaic.PureOps.Ideal.Laws
import proofs.«171995_j84464826843907_1_alg».proof.Proof.AlgebraFocal

namespace Cert.Proof.Algebra

open Idealize.ShloMosaic
open scoped BigOperators

/-! ### The maximum of real numbers, folded from `⊥` -/

/-- The fold of `max` from `⊥` over a finite set of reals is `⊥` (the empty set) or a real. -/
theorem fold_max_bot_or_coe {ι : Type*} (s : Finset ι) (a : ι → ℝ) :
    s.fold max (⊥ : EReal) (fun c => (a c : EReal)) = ⊥
      ∨ ∃ m : ℝ, s.fold max (⊥ : EReal) (fun c => (a c : EReal)) = (m : EReal) := by
  classical
  refine Finset.induction_on s (Or.inl (Finset.fold_empty)) fun k s hk ih => Or.inr ?_
  rw [Finset.fold_insert hk]
  rcases ih with h | ⟨m, h⟩
  · exact ⟨a k, by rw [h, max_eq_left bot_le]⟩
  · exact ⟨max (a k) m, by rw [h]; exact (EReal.coe_strictMono.monotone.map_max).symm⟩

/-- Over a set that is not empty it is a real, and every entry is below it. -/
theorem fold_max_coe {ι : Type*} (s : Finset ι) (hs : s.Nonempty) (a : ι → ℝ) :
    ∃ m : ℝ, s.fold max (⊥ : EReal) (fun c => (a c : EReal)) = (m : EReal) ∧ ∀ c ∈ s, a c ≤ m := by
  obtain ⟨k, hk⟩ := hs
  have hle : ∀ c ∈ s, (a c : EReal) ≤ s.fold max (⊥ : EReal) (fun c => (a c : EReal)) :=
    fun c hc => (Finset.le_fold_max _).mpr (Or.inr ⟨c, hc, le_rfl⟩)
  rcases fold_max_bot_or_coe s a with h | ⟨m, h⟩
  · have := hle k hk
    rw [h] at this
    exact absurd (le_bot_iff.mp this) (EReal.coe_ne_bot _)
  · exact ⟨m, h, fun c hc => by have := hle c hc; rw [h] at this; exact EReal.coe_le_coe_iff.mp this⟩

/-! ### The log-softmax at a real maximum -/

section Row
variable {ι : Type*} [Fintype ι] [Nonempty ι]

/-- With real entries `a` and a real `m`, the sum `0 + Σ exp (a c - m)` is the real sum of exponentials. -/
theorem sumExp_coe (a : ι → ℝ) (m : ℝ) :
    (0 : EReal) + ∑ c, Ideal.exp ((a c : EReal) - (m : EReal)) = ((∑ c, Real.exp (a c - m) : ℝ) : EReal) := by
  rw [zero_add, Finset.sum_congr rfl fun c _ => by rw [← EReal.coe_sub, Ideal.exp_coe], sum_coe]

/-- That real sum is positive. -/
theorem sumExp_pos (a : ι → ℝ) (m : ℝ) : 0 < ∑ c, Real.exp (a c - m) :=
  Finset.sum_pos (fun c _ => Real.exp_pos _) Finset.univ_nonempty

/-- The log-softmax entry: `(a c - m) - log (0 + Σ exp (a c' - m))` is the real number of that formula. -/
theorem logSoftmax_coe (a : ι → ℝ) (m : ℝ) (c : ι) :
    ((a c : EReal) - (m : EReal)) - Ideal.log ((0 : EReal) + ∑ c', Ideal.exp ((a c' : EReal) - (m : EReal)))
      = ((a c - m - Real.log (∑ c', Real.exp (a c' - m)) : ℝ) : EReal) := by
  rw [sumExp_coe, Ideal.log_coe, if_neg (not_le.mpr (sumExp_pos a m)), ← EReal.coe_sub, ← EReal.coe_sub]

end Row

/-! ### The row of 33 entries, the maximum as the programs take it -/

/-- LOG-SOFTMAX OF A REAL ROW IS REAL. For a row `x` of 33 real numbers, with `M` the fold of `max` from `⊥` over
    the row, once more maxed against `⊥`, and `s = 0 + Σ exp (x c - M)`: `M` is a real `m` above every entry, `s` is a
    positive real, and each `(x c - M) - log s` is the real number `a c - m - log (Σ exp (a c' - m))`. -/
theorem logSoftmax_row_real (x : Fin 33 → EReal) (a : Fin 33 → ℝ) (hx : ∀ c, x c = (a c : EReal)) :
    ∃ m : ℝ, max (⊥ : EReal) ((Finset.univ : Finset (Fin 33)).fold max (⊥ : EReal) x) = (m : EReal)
      ∧ (∀ c, a c ≤ m)
      ∧ (0 : EReal) + ∑ c, Ideal.exp (x c - (m : EReal)) = ((∑ c, Real.exp (a c - m) : ℝ) : EReal)
      ∧ 0 < ∑ c, Real.exp (a c - m)
      ∧ ∀ c, (x c - (m : EReal)) - Ideal.log ((0 : EReal) + ∑ c', Ideal.exp (x c' - (m : EReal)))
          = ((a c - m - Real.log (∑ c', Real.exp (a c' - m)) : ℝ) : EReal) := by
  have hxa : x = fun c => (a c : EReal) := funext hx
  subst hxa
  obtain ⟨m, hm, hle⟩ := fold_max_coe (Finset.univ : Finset (Fin 33)) Finset.univ_nonempty a
  refine ⟨m, by rw [hm, max_eq_right bot_le], fun c => hle c (Finset.mem_univ c), sumExp_coe a m, sumExp_pos a m,
    fun c => logSoftmax_coe a m c⟩

/-- The same with the row given only as "every entry is real". -/
theorem logSoftmax_row_real' (x : Fin 33 → EReal) (hx : ∀ c, ∃ r : ℝ, x c = (r : EReal)) :
    ∃ m : ℝ, max (⊥ : EReal) ((Finset.univ : Finset (Fin 33)).fold max (⊥ : EReal) x) = (m : EReal)
      ∧ (∃ σ : ℝ, 0 < σ ∧ (0 : EReal) + ∑ c, Ideal.exp (x c - (m : EReal)) = (σ : EReal))
      ∧ ∀ c, ∃ r : ℝ, (x c - (m : EReal)) - Ideal.log ((0 : EReal) + ∑ c', Ideal.exp (x c' - (m : EReal))) = (r : EReal) := by
  choose a ha using hx
  obtain ⟨m, h1, -, h3, h4, h5⟩ := logSoftmax_row_real x a ha
  exact ⟨m, h1, ⟨_, h4, h3⟩, fun c => ⟨_, h5 c⟩⟩

/-- The maximum against `⊥` in the other order is the same. -/
theorem max_bot_right' (M : EReal) : max M (⊥ : EReal) = max (⊥ : EReal) M := max_comm _ _

end Cert.Proof.Algebra
-- ==== Proof.AlgebraConst.lean ====
/-
  The f32 words of the two programs as extended reals: `-∞` and the quiet NaN pattern are `⊥` (a NaN pattern
  reads as the junk value `⊥`), and the finite ones are the dyadic rationals their bits spell:
  `0x3F666666 = 15099494 / 2^24` (the float nearest 0.9, between 1/2 and 1), `0x3D4CCCCD = 13421773 / 2^28`
  (the float nearest 0.05, between 0 and 1), `0x4C000000 = 2^25`, `0x46800200 = 16385`.
-/
import Idealize.ShloMosaic.PureOps.Ideal
import Idealize.ShloMosaic.PureOps.Ideal.Laws
import Idealize.ShloMosaic.Lib.IdealHost

namespace Cert.Proof.Algebra

open Idealize.ShloMosaic

/-- The word `0xFF800000` (`-∞`) is `⊥`. -/
theorem ofBits_neginf_f32 : Ideal.ofBits .f32 0xFF800000#32 = ⊥ := by
  simp [Ideal.ofBits, Ideal.ieee]

/-- The word `0x7FC00000` (a NaN pattern) is the junk value `⊥`. -/
theorem ofBits_nan_f32 : Ideal.ofBits .f32 0x7FC00000#32 = ⊥ := by
  simp [Ideal.ofBits, Ideal.ieee]

/-- The word `0x4C000000` is `2^25 = 33554432`. -/
theorem ofBits_two_pow_25_f32 : Ideal.ofBits .f32 0x4C000000#32 = ((33554432 : ℝ) : EReal) := by
  simp [Ideal.ofBits, Ideal.ieee, -EReal.coe_mul]; norm_num

/-- The word `0x46800200` is `16385`. -/
theorem ofBits_16385_f32 : Ideal.ofBits .f32 0x46800200#32 = ((16385 : ℝ) : EReal) := by
  simp [Ideal.ofBits, Ideal.ieee, -EReal.coe_mul]; norm_num

/-- The word `0x3F666666` is `15099494 / 2^24`. -/
theorem ofBits_point9_f32 : Ideal.ofBits .f32 0x3F666666#32 = ((15099494 / 16777216 : ℝ) : EReal) := by
  simp [Ideal.ofBits, Ideal.ieee, -EReal.coe_mul]; norm_num

/-- The word `0x3D4CCCCD` is `13421773 / 2^28`. -/
theorem ofBits_point05_f32 : Ideal.ofBits .f32 0x3D4CCCCD#32 = ((13421773 / 268435456 : ℝ) : EReal) := by
  simp [Ideal.ofBits, Ideal.ieee, -EReal.coe_mul]; norm_num

end Cert.Proof.Algebra
-- ==== Proof.FocalBridge.lean ====
/-
  The focal term as the kernel writes it equals the reference's. Row by row the log-softmax of a real array is real
  (its row maximum, folded from `-∞`, is a real; the sum of the shifted exponentials is a positive real), so the take
  along the class axis at a position is EITHER a real number `ℓ`, with the take of `exp (logp)` equal to `exp ℓ` (the class
  index in range: both read the same entry), OR both are the fill value `⊥` (out of range). With that at every position
  the pure extended-real identity gives
    `ce * (Σ (1 - exp lt)^2 / 8192) = (Σ (1 - pn)^2 * ce) / 8192`,
  the right side being the reference's focal term.
-/
import proofs.«171995_j84464826843907_1_alg».proof.Proof.Terms
import proofs.«171995_j84464826843907_1_alg».proof.Proof.LibHostReads
import proofs.«171995_j84464826843907_1_alg».proof.Proof.LibCastReads
import proofs.«171995_j84464826843907_1_alg».proof.Proof.LibIdxSums
import proofs.«171995_j84464826843907_1_alg».proof.Proof.AlgebraFocal
import proofs.«171995_j84464826843907_1_alg».proof.Proof.AlgebraLogSoftmax
import proofs.«171995_j84464826843907_1_alg».proof.Proof.AlgebraConst

noncomputable section

open scoped BigOperators

namespace Cert.RefSide.Focal

open Idealize.ShloMosaic Idealize.ShloMosaic.ValueIdx Idealize.ShloMosaic.HostReads Idealize.ShloMosaic.CastReads
  Idealize.ShloMosaic.IdxSums Cert.RefSide Cert.Proof.Algebra

theorem reduces_SX_ST' : SX.Reduces [2] ST := by decide

/-! ### The log-softmax read at an index -/

/-- The row maximum at `(b, n)`: `-∞` maxed with the fold of `max` from `-∞` over the row. -/
theorem rowMaxVec_apply (X : FVec Ideal SX .f32) (b : Fin 2) (n : Fin 4096) :
    rowMaxVec X (ix2 b n)
      = max (⊥ : EReal) ((Finset.univ : Finset (Fin 33)).fold max (⊥ : EReal) (fun c => X (ix3 b n c))) := by
  unfold rowMaxVec
  show max (broadcastInDim ST ![] bc_S0_ST (constant (F := Ideal) S0 .f32 0xFF800000#32) (ix2 b n))
      (Host.reduce FloatOps.maximumf X (constant (F := Ideal) S0 .f32 0xFF800000#32) red_SX_ST pos_S0 (ix2 b n)) = _
  rw [bcast_scalar_apply, Host.reduce_eq_fold_single FloatOps.maximumf X _ red_SX_ST reduces_SX_ST' pos_S0 (ix2 b n)]
  show max (Ideal.ofBits .f32 0xFF800000#32)
      ((Finset.univ : Finset (Fin 33)).fold max (Ideal.ofBits .f32 0xFF800000#32)
        (X ∘ reduces_SX_ST'.lift (ix2 b n))) = _
  rw [ofBits_neginf_f32]
  refine congrArg (max (⊥ : EReal)) (congrArg (fun g => (Finset.univ : Finset (Fin 33)).fold max (⊥ : EReal) g) ?_)
  funext c
  refine congrArg X (funext fun d => ?_)
  match d with
  | ⟨0, _⟩ => rfl
  | ⟨1, _⟩ => rfl
  | ⟨2, _⟩ => rfl

/-- The shifted entry. -/
theorem shiftVec_apply (X : FVec Ideal SX .f32) (b : Fin 2) (n : Fin 4096) (c : Fin 33) :
    shiftVec X (ix3 b n c) = X (ix3 b n c) - rowMaxVec X (ix2 b n) := by
  unfold shiftVec
  show X (ix3 b n c) - broadcastInDim SX ![0, 1, 2] bc_SK_SX (broadcastInDim SK ![0, 1] bc_ST_SK (rowMaxVec X)) (ix3 b n c) = _
  rw [bcast_lane3_apply, bcast_keep3_apply]

/-- The sum of the shifted exponentials over the row, from `0`. -/
theorem rowSumVec_apply (X : FVec Ideal SX .f32) (b : Fin 2) (n : Fin 4096) :
    rowSumVec X (ix2 b n) = (0 : EReal) + ∑ c : Fin 33, Ideal.exp (shiftVec X (ix3 b n c)) := by
  unfold rowSumVec
  simp only [Host.reduceAdd, Ideal.hostReduceAdd_def]
  refine (hostSum3_last_apply red_SX_ST reduces_SX_ST' (expShiftVec X) _ b n).trans ?_
  show Ideal.ofBits .f32 0x00000000#32 + _ = _
  rw [Ideal.ofBits_zero_f32]
  rfl

/-- The log-softmax entry. -/
theorem logpVec_apply (X : FVec Ideal SX .f32) (b : Fin 2) (n : Fin 4096) (c : Fin 33) :
    logpVec X (ix3 b n c) = shiftVec X (ix3 b n c) - Ideal.log (rowSumVec X (ix2 b n)) := by
  unfold logpVec
  show shiftVec X (ix3 b n c)
      - broadcastInDim SX ![0, 1, 2] bc_SK_SX (Host.log (broadcastInDim SK ![0, 1] bc_ST_SK (rowSumVec X))) (ix3 b n c) = _
  rw [bcast_lane3_apply]
  show _ - Ideal.log (broadcastInDim SK ![0, 1] bc_ST_SK (rowSumVec X) (ix3 b n 0)) = _
  rw [bcast_keep3_apply]

/-- THE LOG-SOFTMAX OF A REAL ARRAY IS REAL, entry by entry. -/
theorem logpVec_real (X : FVec Ideal SX .f32) (hX : ∀ i, ∃ r : ℝ, X i = (r : EReal)) (b : Fin 2) (n : Fin 4096)
    (c : Fin 33) : ∃ r : ℝ, logpVec X (ix3 b n c) = (r : EReal) := by
  obtain ⟨m, hm, -, h3⟩ := logSoftmax_row_real' (fun c => X (ix3 b n c)) (fun c => hX _)
  obtain ⟨r, hr⟩ := h3 c
  refine ⟨r, ?_⟩
  rw [logpVec_apply, rowSumVec_apply]
  simp only [shiftVec_apply, rowMaxVec_apply, hm]
  exact hr

/-! ### The take at a position: in range or out of range -/

/-- At a position the take of `A` is a real with the take of `exp A` its exponential, or both are `⊥`. -/
theorem takeAt_cases (A : FVec Ideal SX .f32) (hA : ∀ b n c, ∃ r : ℝ, A (ix3 b n c) = (r : EReal)) (T : IVec ST 32)
    (b : Fin 2) (n : Fin 4096) :
    (∃ r : ℝ, takeAt A T b n = (r : EReal) ∧ takeAt (Host.exp A) T b n = Ideal.exp (takeAt A T b n))
      ∨ (takeAt A T b n = ⊥ ∧ takeAt (Host.exp A) T b n = ⊥) := by
  unfold takeAt
  rcases BitVec.eq_zero_or_eq_one (inRange (wrapT (T (ix2 b n)))) with h0 | h1
  · right
    rw [h0, select_zero, select_zero, ofBits_nan_f32]
    exact ⟨rfl, rfl⟩
  · left
    rw [h1, select_one, select_one]
    obtain ⟨r, hr⟩ := hA b n ⟨min (wrapT (T (ix2 b n))).toInt.toNat 32, by omega⟩
    exact ⟨r, hr, rfl⟩

/-! ### The focal term -/

/-- THE KERNEL'S FOCAL TERM IS THE REFERENCE'S: the cross entropy times the mean of the weights `(1 - exp lt)^2`, the
    take `lt` of the log-softmax summed over the positions `(b, n)`. -/
theorem focal_kernel_eq_ref (X : FVec Ideal SX .f32) (hX : ∀ i, ∃ r : ℝ, X i = (r : EReal)) (T : IVec ST 32) :
    ceRef X T
        * Ideal.div
            (0 + ∑ b : Fin 2, ∑ n : Fin 4096,
              Ideal.pow (Ideal.ofBits .f32 0x3F800000#32 - Ideal.exp (takeAt (logpVec X) T b n))
                (Ideal.ofBits .f32 0x40000000#32))
            (Ideal.ofBits .f32 0x46000000#32)
      = focalRef X T := by
  have h := focal_eq (ι := Fin 2 × Fin 4096) 8192 (by norm_num)
    (fun p => takeAt (logpVec X) T p.1 p.2) (fun p => takeAt (Host.exp (logpVec X)) T p.1 p.2)
    (fun p => takeAt_cases (logpVec X) (logpVec_real X hX) T p.1 p.2)
  simp only [Fintype.sum_prod_type] at h
  unfold focalRef ceRef
  rw [ofBits_8192_f32, ofBits_two_f32, Ideal.ofBits_one_f32]
  exact h

/-- The same with the weights summed over the 8192 flat positions `k = 4096 b + n`: `ltF` is any function of the flat
    position that reads the take at `(b, n)`. -/
theorem focal_kernel_flat_eq_ref (X : FVec Ideal SX .f32) (hX : ∀ i, ∃ r : ℝ, X i = (r : EReal)) (T : IVec ST 32)
    (ltF : Fin 8192 → EReal)
    (hlt : ∀ (b : Fin 2) (n : Fin 4096) (hk : b.val * 4096 + n.val < 8192),
      ltF ⟨b.val * 4096 + n.val, hk⟩ = takeAt (logpVec X) T b n) :
    ceRef X T
        * Ideal.div
            (0 + ∑ k : Fin 8192,
              Ideal.pow (Ideal.ofBits .f32 0x3F800000#32 - Ideal.exp (ltF k)) (Ideal.ofBits .f32 0x40000000#32))
            (Ideal.ofBits .f32 0x46000000#32)
      = focalRef X T := by
  rw [← focal_kernel_eq_ref X hX T, sum_flat (a := 2) (b := 4096) rfl]
  simp only [hlt]

end Cert.RefSide.Focal

end
-- ==== Proof.LibTakeAlong.lean ====
/-
  The two non-pointwise operations of a fill-mode take along the last axis, read at an index:

  * the gather of an operand [A, B, C] at start indices [A, B, 1, 1] into [A, B, 1] whose two leading axes batch and
    whose last axis is collapsed and indexed: result entry (a, b, z) is the operand's entry (a, b, s) with s the start
    index at (a, b, z, 0) read signed and clamped into [0, C - 1];
  * the and-reduction of a bit array [A, B, 1, 1] over its last (unit) axis: entry (a, b, z) is the one bit it folds,
    and-ed with the initial bit.
-/
import Idealize.ShloMosaic.PureOps.Reduce
import Idealize.ShloMosaic.Lib.ValueIdx

noncomputable section

namespace Idealize.ShloMosaic.TakeAlong

open Idealize.ShloMosaic Idealize.ShloMosaic.ValueIdx

/-- A bit and-ed with 1 is the bit. -/
theorem andi_one (x : BitVec 1) : IntOp.andi x 1#1 = x := by
  rcases BitVec.eq_zero_or_eq_one x with h | h <;> subst h <;> rfl

section Take
variable {α : Type}

/-- The take's dimension numbers over extents A, B, C; their conditions `wf` are decided on literal shapes. -/
abbrev takeLastDims (A B C : Nat)
    (wf : GatherDims.WF ⟨3, ![A, B, C]⟩ ⟨4, ![A, B, 1, 1]⟩ ⟨3, ![A, B, 1]⟩ [] [2] [0, 1] [2] [0, 1] 3 ![1, 1, 1]) :
    GatherDims ⟨3, ![A, B, C]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- THE GATHER READ AT (a, b, z): the operand at (a, b, ·) with the class the start index at (a, b, z, 0), read signed
    and clamped into [0, C - 1]. -/
theorem gather_takeLast_apply {A B C w : Nat} (hC : 0 < C)
    (wf : GatherDims.WF ⟨3, ![A, B, C]⟩ ⟨4, ![A, B, 1, 1]⟩ ⟨3, ![A, B, 1]⟩ [] [2] [0, 1] [2] [0, 1] 3 ![1, 1, 1])
    (x : (⟨3, ![A, B, C]⟩ : Shape).Idx → α) (idx : IVec ⟨4, ![A, B, 1, 1]⟩ w) (a : Fin A) (b : Fin B) (z : Fin 1) :
    Host.gather (takeLastDims A B C wf) x idx (ix3 a b z)
      = x (ix3 a b ⟨min (idx (ix4 a b z ⟨0, Nat.one_pos⟩)).toInt.toNat (C - 1), by omega⟩) := by
  unfold Host.gather
  congr 1
  funext d
  refine Fin.ext ?_
  match d with
  | ⟨0, _⟩ =>
    show (takeLastDims A B C wf).start (ix3 a b z) idx 0 + (takeLastDims A B C wf).batchCoord (ix3 a b z) 0
        + (takeLastDims A B C wf).offCoord (ix3 a b z) 0 = a.val
    rw [GatherDims.start_batching _ _ _ _ (show (0 : Fin 3) ∈ [0, 1] by decide),
      GatherDims.offCoord_eq_zero _ _ _ (fun h => ((GatherDims.mem_sKept _ _).mp h).2 (show (0 : Fin 3) ∈ [0, 1] by decide))]
    simp only [Nat.zero_add, Nat.add_zero]
    rfl
  | ⟨1, _⟩ =>
    show (takeLastDims A B C wf).start (ix3 a b z) idx 1 + (takeLastDims A B C wf).batchCoord (ix3 a b z) 1
        + (takeLastDims A B C wf).offCoord (ix3 a b z) 1 = b.val
    rw [GatherDims.start_batching _ _ _ _ (show (1 : Fin 3) ∈ [0, 1] by decide),
      GatherDims.offCoord_eq_zero _ _ _ (fun h => ((GatherDims.mem_sKept _ _).mp h).2 (show (1 : Fin 3) ∈ [0, 1] by decide))]
    simp only [Nat.zero_add, Nat.add_zero]
    rfl
  | ⟨2, _⟩ =>
    show (takeLastDims A B C wf).start (ix3 a b z) idx 2 + (takeLastDims A B C wf).batchCoord (ix3 a b z) 2
        + (takeLastDims A B C wf).offCoord (ix3 a b z) 2 = min (idx (ix4 a b z ⟨0, Nat.one_pos⟩)).toInt.toNat (C - 1)
    rw [GatherDims.batchCoord_eq_zero _ _ _ (show (2 : Fin 3) ∉ [0, 1] by decide),
      GatherDims.offCoord_eq_zero _ _ _ (fun h => ((GatherDims.mem_sKept _ _).mp h).1 (show (2 : Fin 3) ∈ [2] by decide))]
    simp only [Nat.add_zero]
    unfold GatherDims.start
    rw [dif_pos (show (2 : Fin 3) ∈ (takeLastDims A B C wf).startIndexMap from List.mem_singleton.mpr rfl)]
    have hsi : (takeLastDims A B C wf).siIdx (ix3 a b z) ⟨List.idxOf (2 : Fin 3) (takeLastDims A B C wf).startIndexMap,
        List.idxOf_lt_length_iff.2 (List.mem_singleton.mpr rfl)⟩ = ix4 a b z ⟨0, Nat.one_pos⟩ := by
      funext e; refine Fin.ext ?_
      match e with
      | ⟨0, _⟩ => rfl
      | ⟨1, _⟩ => rfl
      | ⟨2, _⟩ => rfl
      | ⟨3, _⟩ => rfl
    rw [hsi]
    rfl

end Take

/-- A fold over a one-element coordinate range is the operation on its one value and the initial value. -/
theorem fold_fin_one {β : Type} (op : β → β → β) [Std.Commutative op] [Std.Associative op] (b : β) {n : Nat} (hn : n = 1)
    (f : Fin n → β) : (Finset.univ : Finset (Fin n)).fold op b f = op (f ⟨0, by omega⟩) b := by
  subst hn
  rw [Finset.univ_unique, Finset.fold_singleton]
  rfl

/-- THE AND-REDUCTION OVER THE UNIT LAST AXIS READ AT (a, b, z): the bit at (a, b, z, 0) and-ed with the initial bit. -/
theorem reduce_andi_unitLast {A B : Nat} {u : Shape}
    (h' : (⟨4, ![A, B, 1, 1]⟩ : Shape).ReducesTo [3] ⟨3, ![A, B, 1]⟩)
    (h : (⟨4, ![A, B, 1, 1]⟩ : Shape).Reduces [3] ⟨3, ![A, B, 1]⟩) (hu : 0 < u.numel)
    (x : IVec ⟨4, ![A, B, 1, 1]⟩ 1) (init : u.Idx → BitVec 1) (a : Fin A) (b : Fin B) (z : Fin 1) :
    Host.reduce IntOp.andi x init h' hu (ix3 a b z)
      = IntOp.andi (x (ix4 a b z ⟨0, Nat.one_pos⟩)) (init (Shape.Idx.first hu)) := by
  rw [Host.reduce_eq_fold_single IntOp.andi x init h' h hu]
  refine (fold_fin_one IntOp.andi (init (Shape.Idx.first hu)) rfl (x ∘ h.lift (ix3 a b z))).trans ?_
  show IntOp.andi (x (h.lift (ix3 a b z) ⟨0, Nat.one_pos⟩)) _ = _
  congr 2
  funext e; refine Fin.ext ?_
  match e with
  | ⟨0, _⟩ => rfl
  | ⟨1, _⟩ => rfl
  | ⟨2, _⟩ => rfl
  | ⟨3, _⟩ => rfl

end Idealize.ShloMosaic.TakeAlong

end
-- ==== Proof.RefTake.lean ====
/-
  The fill-mode take along the class axis and the cross-entropy, read at an index: `takeVec A T` at (b, n, z) is
  `takeAt A T b n`, and `ceVec X T` at its one index is `ceRef X T`. Also the two host sums this side uses, as
  the initial value plus a sum over the coordinates.
-/
import proofs.«171995_j84464826843907_1_alg».proof.Proof.RefVec
import proofs.«171995_j84464826843907_1_alg».proof.Proof.LibTakeAlong
import proofs.«171995_j84464826843907_1_alg».proof.Proof.LibHostReads
import proofs.«171995_j84464826843907_1_alg».proof.Proof.LibCastReads

noncomputable section

open scoped BigOperators

namespace Cert.RefSide

open Idealize.ShloMosaic Idealize.ShloMosaic.ValueIdx Idealize.ShloMosaic.HostReads Idealize.ShloMosaic.CastReads

theorem reduces_SI_SK : SI.Reduces [3] SK := by decide
theorem reduces_SX_ST : SX.Reduces [2] ST := by decide

/-! ## Host sums -/

/-- A host sum over every axis, into rank 0: the initial value plus the sum of every entry. -/
theorem hostSum_total {s : Shape} {axes : List (Fin s.rank)} (h' : s.ReducesTo axes S0) (x : FVec Ideal s .f32)
    (init : FVec Ideal S0 .f32) (i : S0.Idx) :
    Host.reduceAdd x init h' pos_S0 i = init (Shape.Idx.first pos_S0) + ∑ j : s.Idx, x j := by
  simp only [Host.reduceAdd, Ideal.hostReduceAdd_def]
  exact Ideal.hostReduceAdd_total h' (fun b => b.elim0) x _ i

/-- A host sum over the class axis at (b, n): the initial value plus the sum over the 33 classes. -/
theorem hostSum_class (x : FVec Ideal SX .f32) (init : FVec Ideal S0 .f32) (b : Fin 2) (n : Fin 4096) :
    Host.reduceAdd x init red_SX_ST pos_S0 (ix2 b n) = init (Shape.Idx.first pos_S0) + ∑ k : Fin 33, x (ix3 b n k) := by
  simp only [Host.reduceAdd, Ideal.hostReduceAdd_def]
  exact hostSum3_last_apply red_SX_ST reduces_SX_ST x _ b n

/-! ## The take -/

/-- The wrapped class index at (b, n, z). -/
theorem wrapVec_apply (T : IVec ST 32) (b : Fin 2) (n : Fin 4096) (z : Fin 1) :
    wrapVec T (ix3 b n z) = wrapT (T (ix2 b n)) := by
  unfold wrapVec wrapT
  show Scalar.select (IntOp.cmpi .slt (broadcastInDim SK ![0, 1] bc_ST_SK T (ix3 b n z)) 0#32)
      (IntOp.addi (broadcastInDim SK ![0, 1] bc_ST_SK T (ix3 b n z)) 33#32)
      (broadcastInDim SK ![0, 1] bc_ST_SK T (ix3 b n z)) = _
  rw [bcast_keep3_apply bc_ST_SK T b n z]

/-- The start index at (b, n, z, 0). -/
theorem startVec_apply (T : IVec ST 32) (b : Fin 2) (n : Fin 4096) (z : Fin 1) :
    startVec T (ix4 b n z ⟨0, Nat.one_pos⟩) = wrapT (T (ix2 b n)) := by
  unfold startVec
  rw [cast_unit_apply cast_SK_SI (wrapVec T) b n z, wrapVec_apply]

/-- The in-range bit at (b, n, z). -/
theorem inRangeVec_apply (T : IVec ST 32) (b : Fin 2) (n : Fin 4096) (z : Fin 1) :
    inRangeVec T (ix3 b n z) = inRange (wrapT (T (ix2 b n))) := by
  unfold inRangeVec
  rw [TakeAlong.reduce_andi_unitLast red_SI_SK reduces_SI_SK pos_S0]
  show IntOp.andi (IntOp.andi (IntOp.cmpi .sge (startVec T (ix4 b n z ⟨0, Nat.one_pos⟩)) 0#32)
      (IntOp.cmpi .sle (startVec T (ix4 b n z ⟨0, Nat.one_pos⟩)) 32#32)) 1#1 = _
  rw [TakeAlong.andi_one, startVec_apply]
  rfl

/-- The take at (b, n, z). -/
theorem takeVec_apply (A : FVec Ideal SX .f32) (T : IVec ST 32) (b : Fin 2) (n : Fin 4096) (z : Fin 1) :
    takeVec A T (ix3 b n z) = takeAt A T b n := by
  unfold takeVec takeAt
  show Scalar.select (inRangeVec T (ix3 b n z)) (Host.gather takeLastDims A (startVec T) (ix3 b n z))
      (Ideal.ofBits .f32 0x7FC00000#32) = _
  rw [inRangeVec_apply, TakeAlong.gather_takeLast_apply (by decide) takeLast_wf A (startVec T) b n z]
  simp only [startVec_apply] <;> rfl

/-- The take with its unit axis dropped, at (b, n). -/
theorem takeFlat_apply (A : FVec Ideal SX .f32) (T : IVec ST 32) (b : Fin 2) (n : Fin 4096) :
    shapeCast ST (takeVec A T) cast_SK_ST (ix2 b n) = takeAt A T b n := by
  rw [cast_drop_apply cast_SK_ST (takeVec A T) b n, takeVec_apply]

/-! ## The cross-entropy -/

theorem ceVec_apply (X : FVec Ideal SX .f32) (T : IVec ST 32) (i : S0.Idx) : ceVec X T i = ceRef X T := by
  unfold ceVec ceRef
  show -(Ideal.div (Host.reduceAdd (shapeCast ST (takeVec (logpVec X) T) cast_SK_ST)
      (constant (F := Ideal) S0 .f32 0x00000000#32) red_ST_S0 pos_S0 i) (Ideal.ofBits .f32 0x46000000#32)) = _
  rw [hostSum_total red_ST_S0, sum_idx2]
  simp only [takeFlat_apply]
  show -(Ideal.div (Ideal.ofBits .f32 0x00000000#32 + _) _) = _
  rw [Ideal.ofBits_zero_f32]

end Cert.RefSide

end
-- ==== Proof.KernelValue.lean ====
/-
  The kernel's composed whole-array term read at its one index: when every entry of X is a real number,
  `kernelVec X T Pc S` is focal + dice + S[0,0] / 2^25 with the reference's own focal and dice terms — the kernel's
  focal arrangement (cross-entropy times the mean weight over the 8192 flat positions k = b·4096 + n, each position's
  take read at (b, n) through the two reshapes) equals the reference's by the focal identity — and so it is `refTotal`
  once the sweep's scalar S[0,0] is the distance-map sum.
-/
import proofs.«171995_j84464826843907_1_alg».proof.Proof.KernelTerms
import proofs.«171995_j84464826843907_1_alg».proof.Proof.FocalBridge
import proofs.«171995_j84464826843907_1_alg».proof.Proof.RefTake

noncomputable section

open scoped BigOperators

namespace Cert.KernelSide

open Idealize.ShloMosaic Idealize.ShloMosaic.ValueIdx Idealize.ShloMosaic.HostReads Idealize.ShloMosaic.CastReads
  Idealize.ShloMosaic.IdxSums Cert.RefSide

/-- The kernel's focal term at its one index is the reference's. -/
theorem focalKVec_apply (X : FVec Ideal SX .f32) (hX : ∀ i, ∃ r : ℝ, X i = (r : EReal)) (T : IVec ST 32) (i : S0.Idx) :
    focalKVec X T i = focalRef X T := by
  unfold focalKVec
  show ceVec X T i
      * Ideal.div
          (Host.reduceAdd
            (Host.powf
              (subf (broadcastInDim SF ![] bc_S0_SF (constant (F := Ideal) S0 .f32 0x3F800000#32))
                (shapeCast SF (Host.exp (shapeCast ST (takeVec (logpVec X) T) cast_SK_ST)) cast_ST_SF))
              (broadcastInDim SF ![] bc_S0_SF (constant (F := Ideal) S0 .f32 0x40000000#32)))
            (constant (F := Ideal) S0 .f32 0x00000000#32) red_SF_S0 pos_S0 i)
          (Ideal.ofBits .f32 0x46000000#32) = _
  rw [ceVec_apply, hostSum_total red_SF_S0, sum_idx1]
  show ceRef X T
      * Ideal.div
          (Ideal.ofBits .f32 0x00000000#32 + ∑ k : Fin 8192,
            Ideal.pow (Ideal.ofBits .f32 0x3F800000#32
                - Ideal.exp (shapeCast SF (shapeCast ST (takeVec (logpVec X) T) cast_SK_ST) cast_ST_SF (ix1 k)))
              (Ideal.ofBits .f32 0x40000000#32))
          (Ideal.ofBits .f32 0x46000000#32) = _
  rw [Ideal.ofBits_zero_f32]
  exact Cert.RefSide.Focal.focal_kernel_flat_eq_ref X hX T
    (fun k => shapeCast SF (shapeCast ST (takeVec (logpVec X) T) cast_SK_ST) cast_ST_SF (ix1 k))
    (fun b n hk => by rw [cast_flat_apply cast_ST_SF _ b n hk, takeFlat_apply])

/-- The sweep's [1,1] array read as a rank-0 array: its one entry. -/
theorem sweepScalar_apply (S : FVec Ideal S11 .f32) (i : S0.Idx) : shapeCast S0 S cast_S11_S0 i = S (ix2 0 0) :=
  shapeCast_apply S cast_S11_S0 i (ix2 0 0) (by
    rw [Shape.rowMajor_val_two]
    have h := (S0.rowMajor i).isLt
    have h1 : S0.numel = 1 := by decide
    show 0 * 1 + 0 = (S0.rowMajor i).val
    omega)

/-- The kernel's composed term at its one index. -/
theorem kernelVec_apply (X : FVec Ideal SX .f32) (hX : ∀ i, ∃ r : ℝ, X i = (r : EReal)) (T Pc : IVec ST 32)
    (S : FVec Ideal S11 .f32) (i : S0.Idx) :
    kernelVec X T Pc S i
      = focalRef X T + diceVal T Pc + Ideal.div (S (ix2 0 0)) (Ideal.ofBits .f32 0x4C000000#32) := by
  unfold kernelVec diceVal
  show (focalKVec X T i + diceVec T Pc i)
      + Ideal.div (shapeCast S0 S cast_S11_S0 i) (Ideal.ofBits .f32 0x4C000000#32) = _
  rw [focalKVec_apply X hX, sweepScalar_apply, eq_ix0 i]

/-- With the sweep's scalar the distance-map sum, the kernel's composed term is the constant array at `refTotal`. -/
theorem kernelVec_eq_refTotal (X Y : FVec Ideal SX .f32) (hX : ∀ i, ∃ r : ℝ, X i = (r : EReal)) (T Pc : IVec ST 32)
    (S : FVec Ideal S11 .f32) (hS : S (ix2 0 0) = klRef Y (smxVec X)) :
    kernelVec X T Pc S = fun _ => refTotal X Y T Pc :=
  funext fun i => by rw [kernelVec_apply X hX, hS]; rfl

end Cert.KernelSide

end
-- ==== Proof.KernelIdealValue.lean ====
/-
  The kernel's result at the ideal values: when the program returns, its result buffer holds the focal term (in the
  kernel's arrangement), plus the dice term, plus the sweep's scalar divided by the number of pairs — the closing
  arithmetic applied to what the host prefix and the sweep left.
-/
import proofs.«171995_j84464826843907_1_alg».proof.Proof.KernelIdealRun
import proofs.«171995_j84464826843907_1_alg».proof.Proof.KernelIdealHost
import proofs.«171995_j84464826843907_1_alg».proof.Proof.KernelIdealSum
import proofs.«171995_j84464826843907_1_alg».proof.Proof.KernelIdealOut
import proofs.«171995_j84464826843907_1_alg».proof.Proof.KernelValue

noncomputable section

namespace Cert.KernelIdeal.Sweep

open Cert.KernelIdeal Cert.KernelIdeal.Gen
open Idealize.ShloMosaic Idealize.ShloMosaic.TcCoe Idealize.SL.Sem Idealize.ShloMosaic.StableHlo
open Cert.KernelSide (focalKVec kernelVec)

variable (m : (ℓ : Loc nD τ sig) → Buf (Elt Ideal) ℓ)

set_option maxRecDepth 65536 in
set_option maxHeartbeats 78000000 in
/-- The result buffer at the return. -/
theorem V6_result (c : Dev nD) :
    V6 m c (Proc.devRef .tc main_v40)
      = kernelVec (m ((c.tc : Thread nD τ).loc main_arg0)) (m ((c.tc : Thread nD τ).loc main_arg2))
          (m ((c.tc : Thread nD τ).loc main_arg3)) ((dats m 0 c).arrAt 4 cfg0.N) := by
  show after hostOps1 (V5 m c) _ = _
  after_results_simp
  rw [V5_out, V5_of_ne m c (Proc.devRef .tc main_v15) (by decide), V5_of_ne m c (Proc.devRef .tc main_arg2) (by decide),
    V5_of_ne m c (Proc.devRef .tc main_arg3) (by decide), V4_focal, V4_arg2, V4_arg3]
  rfl

/-- The grid has a last point, number 127. -/
theorem last_lt : 127 < cfg0.N := by rw [show cfg0.N = 128 from N_0]; norm_num

/-- With real predictions the kernel's result is the reference's: the two focal arrangements agree, the dice terms
    are one term, and the sweep's scalar is the whole sum over (batch, row, row) of the distance-map entries of the
    targets' rows against the softmax's rows. -/
theorem result_eq (c : Dev nD) (hX : ∀ i, ∃ r : ℝ, m ((c.tc : Thread nD τ).loc main_arg0) i = (r : EReal)) :
    V6 m c (Proc.devRef .tc main_v40)
      = fun _ => Cert.RefSide.refTotal (m ((c.tc : Thread nD τ).loc main_arg0)) (m ((c.tc : Thread nD τ).loc main_arg1))
          (m ((c.tc : Thread nD τ).loc main_arg2)) (m ((c.tc : Thread nD τ).loc main_arg3)) := by
  rw [V6_result]
  refine Cert.KernelSide.kernelVec_eq_refTotal _ (m ((c.tc : Thread nD τ).loc main_arg1)) hX _ _ _ ?_
  rw [arrAt_out_apply m c last_lt, accAt_last m c last_lt]
  show Cert.RefSide.klRef (V4 m c (Proc.devRef .tc main_arg1)) (V4 m c (Proc.devRef .tc main_v26)) = _
  rw [V4_arg1, V4_smx]

end Cert.KernelIdeal.Sweep

end
-- ==== Proof.RefOps.lean ====
/-
  The reference program's @main as a list of its 195 host operations, in order (the operations of a function that was
  outlined stand in its call's place), with the facts a run over such a list asks for: @main IS the list run in sequence,
  the signature scopes no buffer and no semaphore, and every operation touches TensorCore buffers only.
-/
import proofs.«171995_j84464826843907_1_alg».proof.Proof.Gen.ReferenceIdeal
import Idealize.ShloMosaic.Lib.StableHlo.Run

noncomputable section

namespace Cert.RefSide.Ops

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev refOps : List (HloOp τ sig (Elt F)) :=
  [ TRef.nullary (TRef.of (T := ⟨S_, .f32⟩) main_call0_cst) (constant S_ .f32 0xFF800000#32),
    TRef.binary (TRef.of (T := ⟨S2x4096x33, .f32⟩) main_arg0) (TRef.of (T := ⟨S_, .f32⟩) main_call0_cst) (TRef.of (T := ⟨S2x4096, .f32⟩) main_call0_v0) (fun x v => Host.reduce FloatOps.maximumf x v reducesTo_S2x4096x33_S2x4096_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S2x4096, .f32⟩) main_call0_v1) (broadcastInDim S2x4096 ![] bcast_S_S2x4096),
    TRef.binary (TRef.of (T := ⟨S2x4096, .f32⟩) main_call0_v1) (TRef.of (T := ⟨S2x4096, .f32⟩) main_call0_v0) (TRef.of (T := ⟨S2x4096, .f32⟩) main_call0_v2) maximumf,
    TRef.unary (TRef.of (T := ⟨S2x4096, .f32⟩) main_call0_v2) (TRef.of (T := ⟨S2x4096x1, .f32⟩) main_call0_v3) (broadcastInDim S2x4096x1 ![0, 1] bcast_S2x4096_S2x4096x1_0_1),
    TRef.unary (TRef.of (T := ⟨S2x4096x1, .f32⟩) main_call0_v3) (TRef.of (T := ⟨S2x4096x33, .f32⟩) main_call0_v4) (broadcastInDim S2x4096x33 ![0, 1, 2] bcast_S2x4096x1_S2x4096x33_0_1_2),
    TRef.binary (TRef.of (T := ⟨S2x4096x33, .f32⟩) main_arg0) (TRef.of (T := ⟨S2x4096x33, .f32⟩) main_call0_v4) (TRef.of (T := ⟨S2x4096x33, .f32⟩) main_call0_v5) subf,
    TRef.unary (TRef.of (T := ⟨S2x4096x33, .f32⟩) main_call0_v5) (TRef.of (T := ⟨S2x4096x33, .f32⟩) main_call0_v6) Host.exp,
    TRef.nullary (TRef.of (T := ⟨S_, .f32⟩) main_call0_cst_1) (constant S_ .f32 0x00000000#32),
    TRef.binary (TRef.of (T := ⟨S2x4096x33, .f32⟩) main_call0_v6) (TRef.of (T := ⟨S_, .f32⟩) main_call0_cst_1) (TRef.of (T := ⟨S2x4096, .f32⟩) main_call0_v7) (fun x v => Host.reduceAdd x v reducesTo_S2x4096x33_S2x4096_d2 h_S_),
    TRef.unary (TRef.of (T := ⟨S2x4096, .f32⟩) main_call0_v7) (TRef.of (T := ⟨S2x4096x1, .f32⟩) main_call0_v8) (broadcastInDim S2x4096x1 ![0, 1] bcast_S2x4096_S2x4096x1_0_1),
    TRef.unary (TRef.of (T := ⟨S2x4096x1, .f32⟩) main_call0_v8) (TRef.of (T := ⟨S2x4096x1, .f32⟩) main_call0_v9) Host.log,
    TRef.unary (TRef.of (T := ⟨S2x4096x1, .f32⟩) main_call0_v9) (TRef.of (T := ⟨S2x4096x33, .f32⟩) main_call0_v10) (broadcastInDim S2x4096x33 ![0, 1, 2] bcast_S2x4096x1_S2x4096x33_0_1_2),
    TRef.binary (TRef.of (T := ⟨S2x4096x33, .f32⟩) main_call0_v5) (TRef.of (T := ⟨S2x4096x33, .f32⟩) main_call0_v10) (TRef.of (T := ⟨S2x4096x33, .f32⟩) main_v0) subf,
    unary main_arg2 main_v1 (broadcastInDim S2x4096x1 ![0, 1] bcast_S2x4096_S2x4096x1_0_1 : (⟨S2x4096, .i32⟩ : BufTy).Contents (Elt F) → (⟨S2x4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S2x4096x1, .i32⟩) main_call1_v0) (broadcastInDim S2x4096x1 ![] bcast_S_S2x4096x1),
    TRef.binary (TRef.of (T := ⟨S2x4096x1, .i32⟩) main_v1) (TRef.of (T := ⟨S2x4096x1, .i32⟩) main_call1_v0) (TRef.of (T := ⟨S2x4096x1, .i1⟩) main_call1_v1) (cmpi .slt),
    TRef.nullary (TRef.of (T := ⟨S_, .i32⟩) main_call1_c_0) (constantI S_ 32 33#32),
    TRef.unary (TRef.of (T := ⟨S_, .i32⟩) main_call1_c_0) (TRef.of (T := ⟨S2x4096x1, .i32⟩) main_call1_v2) (broadcastInDim S2x4096x1 ![] bcast_S_S2x4096x1),
    TRef.binary (TRef.of (T := ⟨S2x4096x1, .i32⟩) main_v1) (TRef.of (T := ⟨S2x4096x1, .i32⟩) main_call1_v2) (TRef.of (T := ⟨S2x4096x1, .i32⟩) main_call1_v3) addi,
    TRef.ternary (TRef.of (T := ⟨S2x4096x1, .i1⟩) main_call1_v1) (TRef.of (T := ⟨S2x4096x1, .i32⟩) main_call1_v3) (TRef.of (T := ⟨S2x4096x1, .i32⟩) main_v1) (TRef.of (T := ⟨S2x4096x1, .i32⟩) main_call1_v4) select,
    TRef.reshape (TRef.of (T := ⟨S2x4096x1, .i32⟩) main_call1_v4) (TRef.of (T := ⟨S2x4096x1x1, .i32⟩) main_call1_v5) rfl shapeCasts_S2x4096x1_S2x4096x1x1,
    TRef.nullary (TRef.of (T := ⟨S1, .i32⟩) main_call1_c_1) (constantI S1 32 32#32),
    TRef.nullary (TRef.of (T := ⟨S_, .i32⟩) main_call1_c_2) (constantI S_ 32 0#32),
    TRef.unary (TRef.of (T := ⟨S_, .i32⟩) main_call1_c_2) (TRef.of (T := ⟨S2x4096x1x1, .i32⟩) main_call1_v6) (broadcastInDim S2x4096x1x1 ![] bcast_S_S2x4096x1x1),
    TRef.binary (TRef.of (T := ⟨S2x4096x1x1, .i32⟩) main_call1_v5) (TRef.of (T := ⟨S2x4096x1x1, .i32⟩) main_call1_v6) (TRef.of (T := ⟨S2x4096x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S2x4096x1x1, .i32⟩) main_call1_v9) (broadcastInDim S2x4096x1x1 ![0, 1, 2, 3] bcast_S1x1x1x1_S2x4096x1x1_0_1_2_3),
    TRef.binary (TRef.of (T := ⟨S2x4096x1x1, .i32⟩) main_call1_v5) (TRef.of (T := ⟨S2x4096x1x1, .i32⟩) main_call1_v9) (TRef.of (T := ⟨S2x4096x1x1, .i1⟩) main_call1_v10) (cmpi .sle),
    TRef.binary (TRef.of (T := ⟨S2x4096x1x1, .i1⟩) main_call1_v7) (TRef.of (T := ⟨S2x4096x1x1, .i1⟩) main_call1_v10) (TRef.of (T := ⟨S2x4096x1x1, .i1⟩) main_call1_v11) andi,
    TRef.nullary (TRef.of (T := ⟨S_, .i1⟩) main_call1_c_3) (constantI S_ 1 1#1),
    TRef.binary (TRef.of (T := ⟨S2x4096x1x1, .i1⟩) main_call1_v11) (TRef.of (T := ⟨S_, .i1⟩) main_call1_c_3) (TRef.of (T := ⟨S2x4096x1, .i1⟩) main_call1_v12) (fun x v => Host.reduce IntOp.andi x v reducesTo_S2x4096x1x1_S2x4096x1_d3 h_S_),
    TRef.binary (TRef.of (T := ⟨S2x4096x33, .f32⟩) main_v0) (TRef.of (T := ⟨S2x4096x1x1, .i32⟩) main_call1_v5) (TRef.of (T := ⟨S2x4096x1, .f32⟩) main_call1_v13) (fun x i => Host.gather gather_S2x4096x33_S2x4096x1x1_S2x4096x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S2x4096x1, .f32⟩) main_call1_v14) (broadcastInDim S2x4096x1 ![] bcast_S_S2x4096x1),
    TRef.ternary (TRef.of (T := ⟨S2x4096x1, .i1⟩) main_call1_v12) (TRef.of (T := ⟨S2x4096x1, .f32⟩) main_call1_v13) (TRef.of (T := ⟨S2x4096x1, .f32⟩) main_call1_v14) (TRef.of (T := ⟨S2x4096x1, .f32⟩) main_v2) select,
    reshape main_v2 main_v3 rfl shapeCasts_S2x4096x1_S2x4096,
    nullary main_cst (constant S_ .f32 0x00000000#32),
    binary main_v3 main_cst main_v4 ((fun x v => Host.reduceAdd x v reducesTo_S2x4096_S_d0_1 h_S_) : (⟨S2x4096, .f32⟩ : BufTy).Contents (Elt F) → (⟨S_, .f32⟩ : BufTy).Contents (Elt F) → (⟨S_, .f32⟩ : BufTy).Contents (Elt F)),
    nullary main_cst_0 (constant S_ .f32 0x46000000#32),
    binary main_v4 main_cst_0 main_v5 (Host.divf : (⟨S_, .f32⟩ : BufTy).Contents (Elt F) → (⟨S_, .f32⟩ : BufTy).Contents (Elt F) → (⟨S_, .f32⟩ : BufTy).Contents (Elt F)),
    unary main_v5 main_v6 (Host.negf : (⟨S_, .f32⟩ : BufTy).Contents (Elt F) → (⟨S_, .f32⟩ : BufTy).Contents (Elt F)),
    binary main_arg1 main_arg1 main_v7 (mulf : (⟨S2x4096x33, .f32⟩ : BufTy).Contents (Elt F) → (⟨S2x4096x33, .f32⟩ : BufTy).Contents (Elt F) → (⟨S2x4096x33, .f32⟩ : BufTy).Contents (Elt F)),
    nullary main_cst_1 (constant S_ .f32 0x00000000#32),
    binary main_v7 main_cst_1 main_v8 ((fun x v => Host.reduceAdd x v reducesTo_S2x4096x33_S2x4096_d2 h_S_) : (⟨S2x4096x33, .f32⟩ : BufTy).Contents (Elt F) → (⟨S_, .f32⟩ : BufTy).Contents (Elt F) → (⟨S2x4096, .f32⟩ : BufTy).Contents (Elt F)),
    unary main_v8 main_v9 (broadcastInDim S2x4096x1 ![0, 1] bcast_S2x4096_S2x4096x1_0_1 : (⟨S2x4096, .f32⟩ : BufTy).Contents (Elt F) → (⟨S2x4096x1, .f32⟩ : BufTy).Contents (Elt F)),
    unary main_v8 main_v10 (broadcastInDim S2x1x4096 ![0, 2] bcast_S2x4096_S2x1x4096_0_2 : (⟨S2x4096, .f32⟩ : BufTy).Contents (Elt F) → (⟨S2x1x4096, .f32⟩ : BufTy).Contents (Elt F)),
    unary main_v9 main_v11 (broadcastInDim S2x4096x4096 ![0, 1, 2] bcast_S2x4096x1_S2x4096x4096_0_1_2 : (⟨S2x4096x1, .f32⟩ : BufTy).Contents (Elt F) → (⟨S2x4096x4096, .f32⟩ : BufTy).Contents (Elt F)),
    unary main_v10 main_v12 (broadcastInDim S2x4096x4096 ![0, 1, 2] bcast_S2x1x4096_S2x4096x4096_0_1_2 : (⟨S2x1x4096, .f32⟩ : BufTy).Contents (Elt F) → (⟨S2x4096x4096, .f32⟩ : BufTy).Contents (Elt F)),
    binary main_v11 main_v12 main_v13 (addf : (⟨S2x4096x4096, .f32⟩ : BufTy).Contents (Elt F) → (⟨S2x4096x4096, .f32⟩ : BufTy).Contents (Elt F) → (⟨S2x4096x4096, .f32⟩ : BufTy).Contents (Elt F)),
    binary main_arg1 main_arg1 main_v14 ((fun l r => Host.dotGeneral dot_S2x4096x33_S2x4096x33_S2x4096x4096_2_2_1_1_0_0 none l r) : (⟨S2x4096x33, .f32⟩ : BufTy).Contents (Elt F) → (⟨S2x4096x33, .f32⟩ : BufTy).Contents (Elt F) → (⟨S2x4096x4096, .f32⟩ : BufTy).Contents (Elt F)),
    nullary main_cst_2 (constant S_ .f32 0x40000000#32),
    unary main_cst_2 main_v15 (broadcastInDim S2x4096x4096 ![] bcast_S_S2x4096x4096 : (⟨S_, .f32⟩ : BufTy).Contents (Elt F) → (⟨S2x4096x4096, .f32⟩ : BufTy).Contents (Elt F)),
    binary main_v15 main_v14 main_v16 (mulf : (⟨S2x4096x4096, .f32⟩ : BufTy).Contents (Elt F) → (⟨S2x4096x4096, .f32⟩ : BufTy).Contents (Elt F) → (⟨S2x4096x4096, .f32⟩ : BufTy).Contents (Elt F)),
    binary main_v13 main_v16 main_v17 (subf : (⟨S2x4096x4096, .f32⟩ : BufTy).Contents (Elt F) → (⟨S2x4096x4096, .f32⟩ : BufTy).Contents (Elt F) → (⟨S2x4096x4096, .f32⟩ : BufTy).Contents (Elt F)),
    nullary main_cst_3 (constant S_ .f32 0x00000000#32),
    unary main_cst_3 main_v18 (broadcastInDim S2x4096x4096 ![] bcast_S_S2x4096x4096 : (⟨S_, .f32⟩ : BufTy).Contents (Elt F) → (⟨S2x4096x4096, .f32⟩ : BufTy).Contents (Elt F)),
    binary main_v17 main_v18 main_v19 (maximumf : (⟨S2x4096x4096, .f32⟩ : BufTy).Contents (Elt F) → (⟨S2x4096x4096, .f32⟩ : BufTy).Contents (Elt F) → (⟨S2x4096x4096, .f32⟩ : BufTy).Contents (Elt F)),
    nullary main_cst_4 (constant S_ .f32 0x00000000#32),
    unary main_cst_4 main_v20 (broadcastInDim S2x4096x4096 ![] bcast_S_S2x4096x4096 : (⟨S_, .f32⟩ : BufTy).Contents (Elt F) → (⟨S2x4096x4096, .f32⟩ : BufTy).Contents (Elt F)),
    binary main_v19 main_v20 main_v21 (cmpf .ogt : (⟨S2x4096x4096, .f32⟩ : BufTy).Contents (Elt F) → (⟨S2x4096x4096, .f32⟩ : BufTy).Contents (Elt F) → (⟨S2x4096x4096, .i1⟩ : BufTy).Contents (Elt F)),
    nullary main_cst_5 (constant S_ .f32 0x3F800000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S2x4096x4096, .f32⟩) main_call2_v1) (broadcastInDim S2x4096x4096 ![] bcast_S_S2x4096x4096),
    TRef.ternary (TRef.of (T := ⟨S2x4096x4096, .i1⟩) main_v21) (TRef.of (T := ⟨S2x4096x4096, .f32⟩) main_v19) (TRef.of (T := ⟨S2x4096x4096, .f32⟩) main_call2_v1) (TRef.of (T := ⟨S2x4096x4096, .f32⟩) main_v22) select,
    unary main_v22 main_v23 (Host.sqrt : (⟨S2x4096x4096, .f32⟩ : BufTy).Contents (Elt F) → (⟨S2x4096x4096, .f32⟩ : BufTy).Contents (Elt F)),
    nullary main_cst_6 (constant S_ .f32 0x00000000#32),
    unary main_cst_6 main_v24 (broadcastInDim S2x4096x4096 ![] bcast_S_S2x4096x4096 : (⟨S_, .f32⟩ : BufTy).Contents (Elt F) → (⟨S2x4096x4096, .f32⟩ : BufTy).Contents (Elt F)),
    binary main_v19 main_v24 main_v25 (cmpf .ogt : (⟨S2x4096x4096, .f32⟩ : BufTy).Contents (Elt F) → (⟨S2x4096x4096, .f32⟩ : BufTy).Contents (Elt F) → (⟨S2x4096x4096, .i1⟩ : BufTy).Contents (Elt F)),
    nullary main_cst_7 (constant S_ .f32 0x00000000#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S2x4096x4096, .f32⟩) main_call3_v1) (broadcastInDim S2x4096x4096 ![] bcast_S_S2x4096x4096),
    TRef.ternary (TRef.of (T := ⟨S2x4096x4096, .i1⟩) main_v25) (TRef.of (T := ⟨S2x4096x4096, .f32⟩) main_v23) (TRef.of (T := ⟨S2x4096x4096, .f32⟩) main_call3_v1) (TRef.of (T := ⟨S2x4096x4096, .f32⟩) main_v26) select,
    nullary main_cst_8 (constant S_ .f32 0x3F800000#32),
    unary main_cst_8 main_v27 (broadcastInDim S2x4096x4096 ![] bcast_S_S2x4096x4096 : (⟨S_, .f32⟩ : BufTy).Contents (Elt F) → (⟨S2x4096x4096, .f32⟩ : BufTy).Contents (Elt F)),
    binary main_v26 main_v27 main_v28 (cmpf .ogt : (⟨S2x4096x4096, .f32⟩ : BufTy).Contents (Elt F) → (⟨S2x4096x4096, .f32⟩ : BufTy).Contents (Elt F) → (⟨S2x4096x4096, .i1⟩ : BufTy).Contents (Elt F)),
    nullary main_cst_9 (constant S_ .f32 0x3F666666#32),
    TRef.unary (TRef.of (T := ⟨S_, .f32⟩) main_cst_9) (TRef.of (T := ⟨S_, .f32⟩) main_call4_v0) id,
    TRef.unary (TRef.of (T := ⟨S_, .f32⟩) main_call4_v0) (TRef.of (T := ⟨S2x4096x4096, .f32⟩) main_call4_v1) (broadcastInDim S2x4096x4096 ![] bcast_S_S2x4096x4096),
    TRef.ternary (TRef.of (T := ⟨S2x4096x4096, .i1⟩) main_v28) (TRef.of (T := ⟨S2x4096x4096, .f32⟩) main_call4_v1) (TRef.of (T := ⟨S2x4096x4096, .f32⟩) main_v26) (TRef.of (T := ⟨S2x4096x4096, .f32⟩) main_v29) select,
    nullary main_cst_10 (constant S_ .f32 0x3F800000#32),
    unary main_cst_10 main_v30 (broadcastInDim S2x4096x4096 ![] bcast_S_S2x4096x4096 : (⟨S_, .f32⟩ : BufTy).Contents (Elt F) → (⟨S2x4096x4096, .f32⟩ : BufTy).Contents (Elt F)),
    binary main_v29 main_v30 main_v31 (cmpf .olt : (⟨S2x4096x4096, .f32⟩ : BufTy).Contents (Elt F) → (⟨S2x4096x4096, .f32⟩ : BufTy).Contents (Elt F) → (⟨S2x4096x4096, .i1⟩ : BufTy).Contents (Elt F)),
    nullary main_cst_11 (constant S_ .f32 0x3D4CCCCD#32),
    TRef.unary (TRef.of (T := ⟨S_, .f32⟩) main_cst_11) (TRef.of (T := ⟨S_, .f32⟩) main_call5_v0) id,
    TRef.unary (TRef.of (T := ⟨S_, .f32⟩) main_call5_v0) (TRef.of (T := ⟨S2x4096x4096, .f32⟩) main_call5_v1) (broadcastInDim S2x4096x4096 ![] bcast_S_S2x4096x4096),
    TRef.ternary (TRef.of (T := ⟨S2x4096x4096, .i1⟩) main_v31) (TRef.of (T := ⟨S2x4096x4096, .f32⟩) main_call5_v1) (TRef.of (T := ⟨S2x4096x4096, .f32⟩) main_v29) (TRef.of (T := ⟨S2x4096x4096, .f32⟩) main_v32) select,
    nullary main_cst_12 (constant S_ .f32 0xFF800000#32),
    binary main_arg0 main_cst_12 main_v33 ((fun x v => Host.reduce FloatOps.maximumf x v reducesTo_S2x4096x33_S2x4096_d2 h_S_) : (⟨S2x4096x33, .f32⟩ : BufTy).Contents (Elt F) → (⟨S_, .f32⟩ : BufTy).Contents (Elt F) → (⟨S2x4096, .f32⟩ : BufTy).Contents (Elt F)),
    nullary main_cst_13 (constant S_ .f32 0xFF800000#32),
    unary main_cst_13 main_v34 (broadcastInDim S2x4096 ![] bcast_S_S2x4096 : (⟨S_, .f32⟩ : BufTy).Contents (Elt F) → (⟨S2x4096, .f32⟩ : BufTy).Contents (Elt F)),
    binary main_v34 main_v33 main_v35 (maximumf : (⟨S2x4096, .f32⟩ : BufTy).Contents (Elt F) → (⟨S2x4096, .f32⟩ : BufTy).Contents (Elt F) → (⟨S2x4096, .f32⟩ : BufTy).Contents (Elt F)),
    unary main_v35 main_v36 (broadcastInDim S2x4096x1 ![0, 1] bcast_S2x4096_S2x4096x1_0_1 : (⟨S2x4096, .f32⟩ : BufTy).Contents (Elt F) → (⟨S2x4096x1, .f32⟩ : BufTy).Contents (Elt F)),
    unary main_v36 main_v37 (broadcastInDim S2x4096x33 ![0, 1, 2] bcast_S2x4096x1_S2x4096x33_0_1_2 : (⟨S2x4096x1, .f32⟩ : BufTy).Contents (Elt F) → (⟨S2x4096x33, .f32⟩ : BufTy).Contents (Elt F)),
    binary main_arg0 main_v37 main_v38 (subf : (⟨S2x4096x33, .f32⟩ : BufTy).Contents (Elt F) → (⟨S2x4096x33, .f32⟩ : BufTy).Contents (Elt F) → (⟨S2x4096x33, .f32⟩ : BufTy).Contents (Elt F)),
    unary main_v38 main_v39 (Host.exp : (⟨S2x4096x33, .f32⟩ : BufTy).Contents (Elt F) → (⟨S2x4096x33, .f32⟩ : BufTy).Contents (Elt F)),
    nullary main_cst_14 (constant S_ .f32 0x00000000#32),
    binary main_v39 main_cst_14 main_v40 ((fun x v => Host.reduceAdd x v reducesTo_S2x4096x33_S2x4096_d2 h_S_) : (⟨S2x4096x33, .f32⟩ : BufTy).Contents (Elt F) → (⟨S_, .f32⟩ : BufTy).Contents (Elt F) → (⟨S2x4096, .f32⟩ : BufTy).Contents (Elt F)),
    unary main_v40 main_v41 (broadcastInDim S2x4096x1 ![0, 1] bcast_S2x4096_S2x4096x1_0_1 : (⟨S2x4096, .f32⟩ : BufTy).Contents (Elt F) → (⟨S2x4096x1, .f32⟩ : BufTy).Contents (Elt F)),
    unary main_v41 main_v42 (broadcastInDim S2x4096x33 ![0, 1, 2] bcast_S2x4096x1_S2x4096x33_0_1_2 : (⟨S2x4096x1, .f32⟩ : BufTy).Contents (Elt F) → (⟨S2x4096x33, .f32⟩ : BufTy).Contents (Elt F)),
    binary main_v39 main_v42 main_v43 (Host.divf : (⟨S2x4096x33, .f32⟩ : BufTy).Contents (Elt F) → (⟨S2x4096x33, .f32⟩ : BufTy).Contents (Elt F) → (⟨S2x4096x33, .f32⟩ : BufTy).Contents (Elt F)),
    binary main_v43 main_v43 main_v44 (mulf : (⟨S2x4096x33, .f32⟩ : BufTy).Contents (Elt F) → (⟨S2x4096x33, .f32⟩ : BufTy).Contents (Elt F) → (⟨S2x4096x33, .f32⟩ : BufTy).Contents (Elt F)),
    nullary main_cst_15 (constant S_ .f32 0x00000000#32),
    binary main_v44 main_cst_15 main_v45 ((fun x v => Host.reduceAdd x v reducesTo_S2x4096x33_S2x4096_d2 h_S_) : (⟨S2x4096x33, .f32⟩ : BufTy).Contents (Elt F) → (⟨S_, .f32⟩ : BufTy).Contents (Elt F) → (⟨S2x4096, .f32⟩ : BufTy).Contents (Elt F)),
    unary main_v45 main_v46 (broadcastInDim S2x4096x1 ![0, 1] bcast_S2x4096_S2x4096x1_0_1 : (⟨S2x4096, .f32⟩ : BufTy).Contents (Elt F) → (⟨S2x4096x1, .f32⟩ : BufTy).Contents (Elt F)),
    unary main_v45 main_v47 (broadcastInDim S2x1x4096 ![0, 2] bcast_S2x4096_S2x1x4096_0_2 : (⟨S2x4096, .f32⟩ : BufTy).Contents (Elt F) → (⟨S2x1x4096, .f32⟩ : BufTy).Contents (Elt F)),
    unary main_v46 main_v48 (broadcastInDim S2x4096x4096 ![0, 1, 2] bcast_S2x4096x1_S2x4096x4096_0_1_2 : (⟨S2x4096x1, .f32⟩ : BufTy).Contents (Elt F) → (⟨S2x4096x4096, .f32⟩ : BufTy).Contents (Elt F)),
    unary main_v47 main_v49 (broadcastInDim S2x4096x4096 ![0, 1, 2] bcast_S2x1x4096_S2x4096x4096_0_1_2 : (⟨S2x1x4096, .f32⟩ : BufTy).Contents (Elt F) → (⟨S2x4096x4096, .f32⟩ : BufTy).Contents (Elt F)),
    binary main_v48 main_v49 main_v50 (addf : (⟨S2x4096x4096, .f32⟩ : BufTy).Contents (Elt F) → (⟨S2x4096x4096, .f32⟩ : BufTy).Contents (Elt F) → (⟨S2x4096x4096, .f32⟩ : BufTy).Contents (Elt F)),
    binary main_v43 main_v43 main_v51 ((fun l r => Host.dotGeneral dot_S2x4096x33_S2x4096x33_S2x4096x4096_2_2_1_1_0_0 none l r) : (⟨S2x4096x33, .f32⟩ : BufTy).Contents (Elt F) → (⟨S2x4096x33, .f32⟩ : BufTy).Contents (Elt F) → (⟨S2x4096x4096, .f32⟩ : BufTy).Contents (Elt F)),
    nullary main_cst_16 (constant S_ .f32 0x40000000#32),
    unary main_cst_16 main_v52 (broadcastInDim S2x4096x4096 ![] bcast_S_S2x4096x4096 : (⟨S_, .f32⟩ : BufTy).Contents (Elt F) → (⟨S2x4096x4096, .f32⟩ : BufTy).Contents (Elt F)),
    binary main_v52 main_v51 main_v53 (mulf : (⟨S2x4096x4096, .f32⟩ : BufTy).Contents (Elt F) → (⟨S2x4096x4096, .f32⟩ : BufTy).Contents (Elt F) → (⟨S2x4096x4096, .f32⟩ : BufTy).Contents (Elt F)),
    binary main_v50 main_v53 main_v54 (subf : (⟨S2x4096x4096, .f32⟩ : BufTy).Contents (Elt F) → (⟨S2x4096x4096, .f32⟩ : BufTy).Contents (Elt F) → (⟨S2x4096x4096, .f32⟩ : BufTy).Contents (Elt F)),
    nullary main_cst_17 (constant S_ .f32 0x00000000#32),
    unary main_cst_17 main_v55 (broadcastInDim S2x4096x4096 ![] bcast_S_S2x4096x4096 : (⟨S_, .f32⟩ : BufTy).Contents (Elt F) → (⟨S2x4096x4096, .f32⟩ : BufTy).Contents (Elt F)),
    binary main_v54 main_v55 main_v56 (maximumf : (⟨S2x4096x4096, .f32⟩ : BufTy).Contents (Elt F) → (⟨S2x4096x4096, .f32⟩ : BufTy).Contents (Elt F) → (⟨S2x4096x4096, .f32⟩ : BufTy).Contents (Elt F)),
    nullary main_cst_18 (constant S_ .f32 0x00000000#32),
    unary main_cst_18 main_v57 (broadcastInDim S2x4096x4096 ![] bcast_S_S2x4096x4096 : (⟨S_, .f32⟩ : BufTy).Contents (Elt F) → (⟨S2x4096x4096, .f32⟩ : BufTy).Contents (Elt F)),
    binary main_v56 main_v57 main_v58 (cmpf .ogt : (⟨S2x4096x4096, .f32⟩ : BufTy).Contents (Elt F) → (⟨S2x4096x4096, .f32⟩ : BufTy).Contents (Elt F) → (⟨S2x4096x4096, .i1⟩ : BufTy).Contents (Elt F)),
    nullary main_cst_19 (constant S_ .f32 0x3F800000#32),
    TRef.unary (TRef.of (T := ⟨S_, .f32⟩) main_cst_19) (TRef.of (T := ⟨S_, .f32⟩) main_call6_v0) id,
    TRef.unary (TRef.of (T := ⟨S_, .f32⟩) main_call6_v0) (TRef.of (T := ⟨S2x4096x4096, .f32⟩) main_call6_v1) (broadcastInDim S2x4096x4096 ![] bcast_S_S2x4096x4096),
    TRef.ternary (TRef.of (T := ⟨S2x4096x4096, .i1⟩) main_v58) (TRef.of (T := ⟨S2x4096x4096, .f32⟩) main_v56) (TRef.of (T := ⟨S2x4096x4096, .f32⟩) main_call6_v1) (TRef.of (T := ⟨S2x4096x4096, .f32⟩) main_v59) select,
    unary main_v59 main_v60 (Host.sqrt : (⟨S2x4096x4096, .f32⟩ : BufTy).Contents (Elt F) → (⟨S2x4096x4096, .f32⟩ : BufTy).Contents (Elt F)),
    nullary main_cst_20 (constant S_ .f32 0x00000000#32),
    unary main_cst_20 main_v61 (broadcastInDim S2x4096x4096 ![] bcast_S_S2x4096x4096 : (⟨S_, .f32⟩ : BufTy).Contents (Elt F) → (⟨S2x4096x4096, .f32⟩ : BufTy).Contents (Elt F)),
    binary main_v56 main_v61 main_v62 (cmpf .ogt : (⟨S2x4096x4096, .f32⟩ : BufTy).Contents (Elt F) → (⟨S2x4096x4096, .f32⟩ : BufTy).Contents (Elt F) → (⟨S2x4096x4096, .i1⟩ : BufTy).Contents (Elt F)),
    nullary main_cst_21 (constant S_ .f32 0x00000000#32),
    TRef.unary (TRef.of (T := ⟨S_, .f32⟩) main_cst_21) (TRef.of (T := ⟨S_, .f32⟩) main_call7_v0) id,
    TRef.unary (TRef.of (T := ⟨S_, .f32⟩) main_call7_v0) (TRef.of (T := ⟨S2x4096x4096, .f32⟩) main_call7_v1) (broadcastInDim S2x4096x4096 ![] bcast_S_S2x4096x4096),
    TRef.ternary (TRef.of (T := ⟨S2x4096x4096, .i1⟩) main_v62) (TRef.of (T := ⟨S2x4096x4096, .f32⟩) main_v60) (TRef.of (T := ⟨S2x4096x4096, .f32⟩) main_call7_v1) (TRef.of (T := ⟨S2x4096x4096, .f32⟩) main_v63) select,
    unary main_v32 main_v64 (Host.log : (⟨S2x4096x4096, .f32⟩ : BufTy).Contents (Elt F) → (⟨S2x4096x4096, .f32⟩ : BufTy).Contents (Elt F)),
    binary main_v64 main_v63 main_v65 (subf : (⟨S2x4096x4096, .f32⟩ : BufTy).Contents (Elt F) → (⟨S2x4096x4096, .f32⟩ : BufTy).Contents (Elt F) → (⟨S2x4096x4096, .f32⟩ : BufTy).Contents (Elt F)),
    binary main_v32 main_v65 main_v66 (mulf : (⟨S2x4096x4096, .f32⟩ : BufTy).Contents (Elt F) → (⟨S2x4096x4096, .f32⟩ : BufTy).Contents (Elt F) → (⟨S2x4096x4096, .f32⟩ : BufTy).Contents (Elt F)),
    nullary main_cst_22 (constant S_ .f32 0x00000000#32),
    binary main_v66 main_cst_22 main_v67 ((fun x v => Host.reduceAdd x v reducesTo_S2x4096x4096_S_d0_1_2 h_S_) : (⟨S2x4096x4096, .f32⟩ : BufTy).Contents (Elt F) → (⟨S_, .f32⟩ : BufTy).Contents (Elt F) → (⟨S_, .f32⟩ : BufTy).Contents (Elt F)),
    nullary main_cst_23 (constant S_ .f32 0x4C000000#32),
    binary main_v67 main_cst_23 main_v68 (Host.divf : (⟨S_, .f32⟩ : BufTy).Contents (Elt F) → (⟨S_, .f32⟩ : BufTy).Contents (Elt F) → (⟨S_, .f32⟩ : BufTy).Contents (Elt F)),
    unary main_v0 main_v69 (Host.exp : (⟨S2x4096x33, .f32⟩ : BufTy).Contents (Elt F) → (⟨S2x4096x33, .f32⟩ : BufTy).Contents (Elt F)),
    unary main_arg2 main_v70 (broadcastInDim S2x4096x1 ![0, 1] bcast_S2x4096_S2x4096x1_0_1 : (⟨S2x4096, .i32⟩ : BufTy).Contents (Elt F) → (⟨S2x4096x1, .i32⟩ : BufTy).Contents (Elt F)),
    TRef.nullary (TRef.of (T := ⟨S_, .i32⟩) main_call8_c) (constantI S_ 32 0#32),
    TRef.unary (TRef.of (T := ⟨S_, .i32⟩) main_call8_c) (TRef.of (T := ⟨S2x4096x1, .i32⟩) main_call8_v0) (broadcastInDim S2x4096x1 ![] bcast_S_S2x4096x1),
    TRef.binary (TRef.of (T := ⟨S2x4096x1, .i32⟩) main_v70) (TRef.of (T := ⟨S2x4096x1, .i32⟩) main_call8_v0) (TRef.of (T := ⟨S2x4096x1, .i1⟩) main_call8_v1) (cmpi .slt),
    TRef.nullary (TRef.of (T := ⟨S_, .i32⟩) main_call8_c_0) (constantI S_ 32 33#32),
    TRef.unary (TRef.of (T := ⟨S_, .i32⟩) main_call8_c_0) (TRef.of (T := ⟨S2x4096x1, .i32⟩) main_call8_v2) (broadcastInDim S2x4096x1 ![] bcast_S_S2x4096x1),
    TRef.binary (TRef.of (T := ⟨S2x4096x1, .i32⟩) main_v70) (TRef.of (T := ⟨S2x4096x1, .i32⟩) main_call8_v2) (TRef.of (T := ⟨S2x4096x1, .i32⟩) main_call8_v3) addi,
    TRef.ternary (TRef.of (T := ⟨S2x4096x1, .i1⟩) main_call8_v1) (TRef.of (T := ⟨S2x4096x1, .i32⟩) main_call8_v3) (TRef.of (T := ⟨S2x4096x1, .i32⟩) main_v70) (TRef.of (T := ⟨S2x4096x1, .i32⟩) main_call8_v4) select,
    TRef.reshape (TRef.of (T := ⟨S2x4096x1, .i32⟩) main_call8_v4) (TRef.of (T := ⟨S2x4096x1x1, .i32⟩) main_call8_v5) rfl shapeCasts_S2x4096x1_S2x4096x1x1,
    TRef.nullary (TRef.of (T := ⟨S1, .i32⟩) main_call8_c_1) (constantI S1 32 32#32),
    TRef.nullary (TRef.of (T := ⟨S_, .i32⟩) main_call8_c_2) (constantI S_ 32 0#32),
    TRef.unary (TRef.of (T := ⟨S_, .i32⟩) main_call8_c_2) (TRef.of (T := ⟨S2x4096x1x1, .i32⟩) main_call8_v6) (broadcastInDim S2x4096x1x1 ![] bcast_S_S2x4096x1x1),
    TRef.binary (TRef.of (T := ⟨S2x4096x1x1, .i32⟩) main_call8_v5) (TRef.of (T := ⟨S2x4096x1x1, .i32⟩) main_call8_v6) (TRef.of (T := ⟨S2x4096x1x1, .i1⟩) main_call8_v7) (cmpi .sge),
    TRef.unary (TRef.of (T := ⟨S1, .i32⟩) main_call8_c_1) (TRef.of (T := ⟨S1x1x1x1, .i32⟩) main_call8_v8) (broadcastInDim S1x1x1x1 ![3] bcast_S1_S1x1x1x1_3),
    TRef.unary (TRef.of (T := ⟨S1x1x1x1, .i32⟩) main_call8_v8) (TRef.of (T := ⟨S2x4096x1x1, .i32⟩) main_call8_v9) (broadcastInDim S2x4096x1x1 ![0, 1, 2, 3] bcast_S1x1x1x1_S2x4096x1x1_0_1_2_3),
    TRef.binary (TRef.of (T := ⟨S2x4096x1x1, .i32⟩) main_call8_v5) (TRef.of (T := ⟨S2x4096x1x1, .i32⟩) main_call8_v9) (TRef.of (T := ⟨S2x4096x1x1, .i1⟩) main_call8_v10) (cmpi .sle),
    TRef.binary (TRef.of (T := ⟨S2x4096x1x1, .i1⟩) main_call8_v7) (TRef.of (T := ⟨S2x4096x1x1, .i1⟩) main_call8_v10) (TRef.of (T := ⟨S2x4096x1x1, .i1⟩) main_call8_v11) andi,
    TRef.nullary (TRef.of (T := ⟨S_, .i1⟩) main_call8_c_3) (constantI S_ 1 1#1),
    TRef.binary (TRef.of (T := ⟨S2x4096x1x1, .i1⟩) main_call8_v11) (TRef.of (T := ⟨S_, .i1⟩) main_call8_c_3) (TRef.of (T := ⟨S2x4096x1, .i1⟩) main_call8_v12) (fun x v => Host.reduce IntOp.andi x v reducesTo_S2x4096x1x1_S2x4096x1_d3 h_S_),
    TRef.binary (TRef.of (T := ⟨S2x4096x33, .f32⟩) main_v69) (TRef.of (T := ⟨S2x4096x1x1, .i32⟩) main_call8_v5) (TRef.of (T := ⟨S2x4096x1, .f32⟩) main_call8_v13) (fun x i => Host.gather gather_S2x4096x33_S2x4096x1x1_S2x4096x1_n_2_01_01_2_3_111 x i),
    TRef.nullary (TRef.of (T := ⟨S_, .f32⟩) main_call8_cst) (constant S_ .f32 0x7FC00000#32),
    TRef.unary (TRef.of (T := ⟨S_, .f32⟩) main_call8_cst) (TRef.of (T := ⟨S2x4096x1, .f32⟩) main_call8_v14) (broadcastInDim S2x4096x1 ![] bcast_S_S2x4096x1),
    TRef.ternary (TRef.of (T := ⟨S2x4096x1, .i1⟩) main_call8_v12) (TRef.of (T := ⟨S2x4096x1, .f32⟩) main_call8_v13) (TRef.of (T := ⟨S2x4096x1, .f32⟩) main_call8_v14) (TRef.of (T := ⟨S2x4096x1, .f32⟩) main_v71) select,
    reshape main_v71 main_v72 rfl shapeCasts_S2x4096x1_S2x4096,
    reshape main_v72 main_v73 rfl shapeCasts_S2x4096_S8192,
    nullary main_cst_24 (constant S_ .f32 0x3F800000#32),
    unary main_cst_24 main_v74 (broadcastInDim S8192 ![] bcast_S_S8192 : (⟨S_, .f32⟩ : BufTy).Contents (Elt F) → (⟨S8192, .f32⟩ : BufTy).Contents (Elt F)),
    binary main_v74 main_v73 main_v75 (subf : (⟨S8192, .f32⟩ : BufTy).Contents (Elt F) → (⟨S8192, .f32⟩ : BufTy).Contents (Elt F) → (⟨S8192, .f32⟩ : BufTy).Contents (Elt F)),
    nullary main_cst_25 (constant S_ .f32 0x40000000#32),
    unary main_cst_25 main_v76 (broadcastInDim S8192 ![] bcast_S_S8192 : (⟨S_, .f32⟩ : BufTy).Contents (Elt F) → (⟨S8192, .f32⟩ : BufTy).Contents (Elt F)),
    binary main_v75 main_v76 main_v77 (Host.powf : (⟨S8192, .f32⟩ : BufTy).Contents (Elt F) → (⟨S8192, .f32⟩ : BufTy).Contents (Elt F) → (⟨S8192, .f32⟩ : BufTy).Contents (Elt F)),
    unary main_v6 main_v78 (broadcastInDim S8192 ![] bcast_S_S8192 : (⟨S_, .f32⟩ : BufTy).Contents (Elt F) → (⟨S8192, .f32⟩ : BufTy).Contents (Elt F)),
    binary main_v77 main_v78 main_v79 (mulf : (⟨S8192, .f32⟩ : BufTy).Contents (Elt F) → (⟨S8192, .f32⟩ : BufTy).Contents (Elt F) → (⟨S8192, .f32⟩ : BufTy).Contents (Elt F)),
    nullary main_cst_26 (constant S_ .f32 0x00000000#32),
    binary main_v79 main_cst_26 main_v80 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_27 (constant S_ .f32 0x46000000#32),
    binary main_v80 main_cst_27 main_v81 (Host.divf : (⟨S_, .f32⟩ : BufTy).Contents (Elt F) → (⟨S_, .f32⟩ : BufTy).Contents (Elt F) → (⟨S_, .f32⟩ : BufTy).Contents (Elt F)),
    reshape main_arg2 main_v82 rfl shapeCasts_S2x4096_S8192,
    reshape main_arg3 main_v83 rfl shapeCasts_S2x4096_S8192,
    binary main_v82 main_v83 main_v84 (cmpi .eq : (⟨S8192, .i32⟩ : BufTy).Contents (Elt F) → (⟨S8192, .i32⟩ : BufTy).Contents (Elt F) → (⟨S8192, .i1⟩ : BufTy).Contents (Elt F)),
    unary main_v84 main_v85 (uitofp .f32 : (⟨S8192, .i1⟩ : BufTy).Contents (Elt F) → (⟨S8192, .f32⟩ : BufTy).Contents (Elt F)),
    nullary main_cst_28 (constant S_ .f32 0x00000000#32),
    binary main_v85 main_cst_28 main_v86 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_29 (constant S_ .f32 0x3F800000#32),
    binary main_v86 main_cst_29 main_v87 (addf : (⟨S_, .f32⟩ : BufTy).Contents (Elt F) → (⟨S_, .f32⟩ : BufTy).Contents (Elt F) → (⟨S_, .f32⟩ : BufTy).Contents (Elt F)),
    nullary main_cst_30 (constant S_ .f32 0x46800200#32),
    binary main_v87 main_cst_30 main_v88 (Host.divf : (⟨S_, .f32⟩ : BufTy).Contents (Elt F) → (⟨S_, .f32⟩ : BufTy).Contents (Elt F) → (⟨S_, .f32⟩ : BufTy).Contents (Elt F)),
    nullary main_cst_31 (constant S_ .f32 0x40000000#32),
    binary main_cst_31 main_v88 main_v89 (mulf : (⟨S_, .f32⟩ : BufTy).Contents (Elt F) → (⟨S_, .f32⟩ : BufTy).Contents (Elt F) → (⟨S_, .f32⟩ : BufTy).Contents (Elt F)),
    nullary main_cst_32 (constant S_ .f32 0x3F800000#32),
    binary main_cst_32 main_v89 main_v90 (subf : (⟨S_, .f32⟩ : BufTy).Contents (Elt F) → (⟨S_, .f32⟩ : BufTy).Contents (Elt F) → (⟨S_, .f32⟩ : BufTy).Contents (Elt F)),
    binary main_v81 main_v90 main_v91 (addf : (⟨S_, .f32⟩ : BufTy).Contents (Elt F) → (⟨S_, .f32⟩ : BufTy).Contents (Elt F) → (⟨S_, .f32⟩ : BufTy).Contents (Elt F)),
    binary main_v91 main_v68 main_v92 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq refOps := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (refOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., unary_bufs_sub .., ternary_bufs_sub .., unary_bufs_sub .., binary_bufs_sub .., binary_bufs_sub .., nullary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., reshape_bufs_sub .., nullary_bufs_sub .., unary_bufs_sub .., binary_bufs_sub .., nullary_bufs_sub .., unary_bufs_sub .., binary_bufs_sub .., unary_bufs_sub .., binary_bufs_sub .., nullary_bufs_sub .., binary_bufs_sub .., nullary_bufs_sub .., binary_bufs_sub .., reshape_bufs_sub .., reshape_bufs_sub .., binary_bufs_sub .., unary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., binary_bufs_sub .., binary_bufs_sub ..⟩

end Cert.RefSide.Ops

end
-- ==== Proof.RefRun.lean ====
/-
  The reference program's run: from any memory with zero counters, on every device, every weakly fair execution of
  @main terminates with the result buffer at `refVec` of the four argument arrays' launch contents — the host
  operations' composed term, written in layers in RefVec — and the arguments unchanged.
-/
import proofs.«171995_j84464826843907_1_alg».proof.Proof.RefOps
import proofs.«171995_j84464826843907_1_alg».proof.Proof.RefVec
import proofs.«171995_j84464826843907_1_alg».proof.Proof.LibCallBuffers

noncomputable section

namespace Cert.RefSide

open Cert.ReferenceIdeal Cert.ReferenceIdeal.Gen Idealize.ShloMosaic Idealize.ShloMosaic.TcCoe Idealize.SL.Sem Idealize.ShloMosaic.StableHlo

set_option maxRecDepth 65536 in
set_option maxHeartbeats 78000000 in
/-- The result buffer after the operations, from any contents V: the composed term of V at the four arguments. -/
theorem refOps_value (V : Valuation τ sig (Elt Ideal)) :
    after (Ops.refOps (F := Ideal)) V (Proc.devRef .tc main_v92)
      = refVec (V (Proc.devRef .tc main_arg0)) (V (Proc.devRef .tc main_arg1)) (V (Proc.devRef .tc main_arg2))
          (V (Proc.devRef .tc main_arg3)) := by
  after_results_simp
  simp only [TRef.ofBuf_toBuf]
  rfl

set_option maxRecDepth 8192 in
set_option maxHeartbeats 78000000 in
/-- On every device, from any memory with zero counters: every weakly fair execution of @main terminates with the
    result at `refVec` of the arguments and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v92)
          = refVec (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v92).trans (refOps_value _),
      (h c main_arg0).trans (by after_results_simp <;> rfl),
      (h c main_arg1).trans (by after_results_simp <;> rfl),
      (h c main_arg2).trans (by after_results_simp <;> rfl),
      (h c main_arg3).trans (by after_results_simp <;> rfl)⟩)
    (run_seq Ops.scopedRefs_eq Ops.scopedSems_eq defs main (fun _ => Ops.refOps) Ops.main_eq (fun _ => Ops.ops_sub) m ρ)

end Cert.RefSide

end
-- ==== Proof.RefFocal.lean ====
/-
  The focal term read at its one index: `focalVec X T` is `focalRef X T` — the flat sum over the 8192 positions
  k = b·4096 + n becomes the double sum over (b, n), each position's take read at (b, n).
-/
import proofs.«171995_j84464826843907_1_alg».proof.Proof.RefTake
import proofs.«171995_j84464826843907_1_alg».proof.Proof.LibIdxSums

noncomputable section

open scoped BigOperators

namespace Cert.RefSide

open Idealize.ShloMosaic Idealize.ShloMosaic.ValueIdx Idealize.ShloMosaic.HostReads Idealize.ShloMosaic.CastReads
  Idealize.ShloMosaic.IdxSums

/-- The flattened take of exp(logp) at position b·4096 + n. -/
theorem pnVec_apply (X : FVec Ideal SX .f32) (T : IVec ST 32) (b : Fin 2) (n : Fin 4096)
    (hk : b.val * 4096 + n.val < 8192) :
    pnVec X T (ix1 ⟨b.val * 4096 + n.val, hk⟩) = takeAt (Host.exp (logpVec X)) T b n := by
  unfold pnVec
  rw [cast_flat_apply cast_ST_SF _ b n hk, takeFlat_apply]

theorem focalVec_apply (X : FVec Ideal SX .f32) (T : IVec ST 32) (i : S0.Idx) : focalVec X T i = focalRef X T := by
  unfold focalVec focalRef
  show Ideal.div (Host.reduceAdd
      (mulf
        (Host.powf (subf (broadcastInDim SF ![] bc_S0_SF (constant (F := Ideal) S0 .f32 0x3F800000#32)) (pnVec X T))
          (broadcastInDim SF ![] bc_S0_SF (constant (F := Ideal) S0 .f32 0x40000000#32)))
        (broadcastInDim SF ![] bc_S0_SF (ceVec X T)))
      (constant (F := Ideal) S0 .f32 0x00000000#32) red_SF_S0 pos_S0 i) (Ideal.ofBits .f32 0x46000000#32) = _
  rw [hostSum_total red_SF_S0, sum_idx1, sum_flat (a := 2) (b := 4096) rfl]
  show Ideal.div (Ideal.ofBits .f32 0x00000000#32 + ∑ b : Fin 2, ∑ n : Fin 4096,
      Ideal.pow (Ideal.ofBits .f32 0x3F800000#32 - pnVec X T (ix1 ⟨b.val * 4096 + n.val, _⟩)) (Ideal.ofBits .f32 0x40000000#32)
        * broadcastInDim SF ![] bc_S0_SF (ceVec X T) (ix1 ⟨b.val * 4096 + n.val, _⟩)) _ = _
  have hce : ∀ j : SF.Idx, broadcastInDim SF ![] bc_S0_SF (ceVec X T) j = ceRef X T := fun j =>
    (bcast_scalar_apply bc_S0_SF (ceVec X T) j).trans (ceVec_apply X T ix0)
  simp only [pnVec_apply, hce]
  rw [Ideal.ofBits_zero_f32]

end Cert.RefSide

end
-- ==== Proof.RefDist.lean ====
/-
  The distance maps read at an index: `d2Vec A` at (b, n, m) is `dist2` of rows n and m of batch b of A,
  `cdistVec A` there is its guarded square root, `disVec Y` the thresholded one, and `klVec X Y` at its one index
  is the sum of `klEntry` over (b, n, m), from 0, divided by the word 0x4C000000.
-/
import proofs.«171995_j84464826843907_1_alg».proof.Proof.RefTake
import proofs.«171995_j84464826843907_1_alg».proof.Proof.LibIdxSums

noncomputable section

open scoped BigOperators

namespace Cert.RefSide

open Idealize.ShloMosaic Idealize.ShloMosaic.ValueIdx Idealize.ShloMosaic.HostReads Idealize.ShloMosaic.CastReads
  Idealize.ShloMosaic.IdxSums

/-! ## The rows' products -/

theorem rowDot_lhs0 (i : SN.Idx) (q : rowDotDims.contr.Idx) : (rowDotDims.lhsIdx i q 0).val = (i 0).val := by
  unfold DotDims.lhsIdx
  rw [dif_pos (show (0 : Fin SX.rank) ∈ rowDotDims.lhsBatch by decide)]
  rfl
theorem rowDot_lhs1 (i : SN.Idx) (q : rowDotDims.contr.Idx) : (rowDotDims.lhsIdx i q 1).val = (i 1).val := by
  unfold DotDims.lhsIdx
  rw [dif_neg (show ¬(1 : Fin SX.rank) ∈ rowDotDims.lhsBatch by decide),
    dif_pos (show (1 : Fin SX.rank) ∈ rowDotDims.lhsNonContracting by decide)]
  rfl
theorem rowDot_lhs2 (i : SN.Idx) (q : rowDotDims.contr.Idx) :
    (rowDotDims.lhsIdx i q 2).val = (q ⟨0, by decide⟩).val :=
  rowDotDims.lhsIdx_val_of_single rfl i q
theorem rowDot_rhs0 (i : SN.Idx) (q : rowDotDims.contr.Idx) : (rowDotDims.rhsIdx i q 0).val = (i 0).val := by
  unfold DotDims.rhsIdx
  rw [dif_pos (show (0 : Fin SX.rank) ∈ rowDotDims.rhsBatch by decide)]
  rfl
theorem rowDot_rhs1 (i : SN.Idx) (q : rowDotDims.contr.Idx) : (rowDotDims.rhsIdx i q 1).val = (i 2).val := by
  unfold DotDims.rhsIdx
  rw [dif_neg (show ¬(1 : Fin SX.rank) ∈ rowDotDims.rhsBatch by decide),
    dif_pos (show (1 : Fin SX.rank) ∈ rowDotDims.rhsNonContracting by decide)]
  rfl
theorem rowDot_rhs2 (i : SN.Idx) (q : rowDotDims.contr.Idx) :
    (rowDotDims.rhsIdx i q 2).val = (q ⟨0, by decide⟩).val :=
  rowDotDims.rhsIdx_val_of_single rfl i q

/-- The host's product of rows at (b, n, m): ⟨row n, row m⟩ of batch b. -/
theorem rowDot_apply (A : FVec Ideal SX .f32) (b : Fin 2) (n m : Fin 4096) :
    Host.dotGeneral rowDotDims none A A (ix3 b n m) = dotp (row A b n) (row A b m) := by
  simp only [Host.dotGeneral]
  rw [Ideal.dotGeneral_apply, ← Equiv.sum_comp (ValueIdx.contrEquiv1 rowDotDims 33 rfl rfl).symm]
  unfold dotp row
  refine Finset.sum_congr rfl fun k _ => ?_
  have hk := ValueIdx.contrEquiv1_symm_val rowDotDims 33 rfl rfl k
  have el : rowDotDims.lhsIdx (ix3 b n m) ((ValueIdx.contrEquiv1 rowDotDims 33 rfl rfl).symm k) = ix3 b n k :=
    funext fun a => Fin.ext (by
      match a with
      | ⟨0, _⟩ => exact rowDot_lhs0 _ _
      | ⟨1, _⟩ => exact rowDot_lhs1 _ _
      | ⟨2, _⟩ => exact (rowDot_lhs2 _ _).trans hk)
  have er : rowDotDims.rhsIdx (ix3 b n m) ((ValueIdx.contrEquiv1 rowDotDims 33 rfl rfl).symm k) = ix3 b m k :=
    funext fun a => Fin.ext (by
      match a with
      | ⟨0, _⟩ => exact rowDot_rhs0 _ _
      | ⟨1, _⟩ => exact rowDot_rhs1 _ _
      | ⟨2, _⟩ => exact (rowDot_rhs2 _ _).trans hk)
  rw [el, er]

/-! ## The squared norms and the squared distance -/

/-- The row sums of A·A at (b, n): |row n|². -/
theorem sqSum_apply (A : FVec Ideal SX .f32) (b : Fin 2) (n : Fin 4096) :
    Host.reduceAdd (mulf A A) (constant (F := Ideal) S0 .f32 0x00000000#32) red_SX_ST pos_S0 (ix2 b n)
      = sq (row A b n) := by
  rw [hostSum_class]
  show Ideal.ofBits .f32 0x00000000#32 + ∑ k : Fin 33, A (ix3 b n k) * A (ix3 b n k) = _
  rw [Ideal.ofBits_zero_f32, zero_add]
  rfl

/-- The squared distance at (b, n, m). -/
theorem d2Vec_apply (A : FVec Ideal SX .f32) (b : Fin 2) (n m : Fin 4096) :
    d2Vec A (ix3 b n m) = dist2 (row A b n) (row A b m) := by
  unfold d2Vec dist2
  show max
      ((broadcastInDim SN ![0, 1, 2] bc_SK_SN (broadcastInDim SK ![0, 1] bc_ST_SK
            (Host.reduceAdd (mulf A A) (constant (F := Ideal) S0 .f32 0x00000000#32) red_SX_ST pos_S0)) (ix3 b n m)
          + broadcastInDim SN ![0, 1, 2] bc_SM_SN (broadcastInDim SM ![0, 2] bc_ST_SM
            (Host.reduceAdd (mulf A A) (constant (F := Ideal) S0 .f32 0x00000000#32) red_SX_ST pos_S0)) (ix3 b n m))
        - Ideal.ofBits .f32 0x40000000#32 * Host.dotGeneral rowDotDims none A A (ix3 b n m))
      (Ideal.ofBits .f32 0x00000000#32) = _
  rw [bcast_lane3_apply bc_SK_SN _ b n m, bcast_keep3_apply bc_ST_SK _ b n 0, bcast_rows_apply bc_SM_SN _ b n m,
    bcast_mid_apply bc_ST_SM _ b 0 m, sqSum_apply, sqSum_apply, rowDot_apply]

/-- The distance at (b, n, m). -/
theorem cdistVec_apply (A : FVec Ideal SX .f32) (b : Fin 2) (n m : Fin 4096) :
    cdistVec A (ix3 b n m) = safeSqrt (dist2 (row A b n) (row A b m)) := by
  unfold cdistVec safeSqrt
  show Scalar.select (Ideal.cmp .ogt (d2Vec A (ix3 b n m)) (Ideal.ofBits .f32 0x00000000#32))
      (Ideal.sqrt (Scalar.select (Ideal.cmp .ogt (d2Vec A (ix3 b n m)) (Ideal.ofBits .f32 0x00000000#32))
        (d2Vec A (ix3 b n m)) (Ideal.ofBits .f32 0x3F800000#32)))
      (Ideal.ofBits .f32 0x00000000#32) = _
  rw [d2Vec_apply]

/-- The thresholds at an index. -/
theorem threshVec_apply (D : FVec Ideal SN .f32) (i : SN.Idx) : threshVec D i = thresh (D i) := rfl

/-- The thresholded distance of Y's rows at (b, n, m). -/
theorem disVec_apply (Y : FVec Ideal SX .f32) (b : Fin 2) (n m : Fin 4096) :
    disVec Y (ix3 b n m) = thresh (safeSqrt (dist2 (row Y b n) (row Y b m))) := by
  unfold disVec
  rw [threshVec_apply, cdistVec_apply]

/-! ## The distance-map term -/

theorem klVec_apply (X Y : FVec Ideal SX .f32) (i : S0.Idx) :
    klVec X Y i = Ideal.div (klRef Y (smxVec X)) (Ideal.ofBits .f32 0x4C000000#32) := by
  unfold klVec klRef
  show Ideal.div (Host.reduceAdd (mulf (disVec Y) (subf (Host.log (disVec Y)) (cdistVec (smxVec X))))
      (constant (F := Ideal) S0 .f32 0x00000000#32) red_SN_S0 pos_S0 i) (Ideal.ofBits .f32 0x4C000000#32) = _
  rw [hostSum_total red_SN_S0, sum_idx3]
  show Ideal.div (Ideal.ofBits .f32 0x00000000#32 + ∑ b : Fin 2, ∑ n : Fin 4096, ∑ m : Fin 4096,
      disVec Y (ix3 b n m) * (Ideal.log (disVec Y (ix3 b n m)) - cdistVec (smxVec X) (ix3 b n m))) _ = _
  simp only [disVec_apply, cdistVec_apply]
  rw [Ideal.ofBits_zero_f32]
  rfl

end Cert.RefSide

end
-- ==== Proof.RefValue.lean ====
/-
  The reference's composed whole-array term is `refTotal`: at its one index, `refVec X Y T Pc` is
  focal + dice + kl of Terms, and so the reference's run ends with the result buffer constantly `refTotal`.
-/
import proofs.«171995_j84464826843907_1_alg».proof.Proof.RefFocal
import proofs.«171995_j84464826843907_1_alg».proof.Proof.RefDist

noncomputable section

namespace Cert.RefSide

open Idealize.ShloMosaic Idealize.ShloMosaic.ValueIdx

/-- The composed term at its one index. -/
theorem refVec_apply (X Y : FVec Ideal SX .f32) (T Pc : IVec ST 32) (i : S0.Idx) :
    refVec X Y T Pc i = refTotal X Y T Pc := by
  unfold refVec refTotal diceVal
  show (focalVec X T i + diceVec T Pc i) + klVec X Y i = _
  rw [focalVec_apply, klVec_apply, eq_ix0 i]

/-- The composed term is the constant array at `refTotal`. -/
theorem refVec_eq (X Y : FVec Ideal SX .f32) (T Pc : IVec ST 32) :
    refVec X Y T Pc = fun _ => refTotal X Y T Pc :=
  funext fun i => refVec_apply X Y T Pc i

end Cert.RefSide

end
-- ==== Proof.RefResult.lean ====
/-
  The reference's run with its result named: every weakly fair execution of the reference program terminates with the
  result buffer constantly `refTotal` of the four argument arrays' launch contents, and the arguments unchanged.
-/
import proofs.«171995_j84464826843907_1_alg».proof.Proof.RefRun
import proofs.«171995_j84464826843907_1_alg».proof.Proof.RefValue

noncomputable section

namespace Cert.RefSide

open Cert.ReferenceIdeal Cert.ReferenceIdeal.Gen Idealize.ShloMosaic Idealize.ShloMosaic.TcCoe Idealize.SL.Sem Idealize.ShloMosaic.StableHlo

theorem ref_run_total (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v92)
          = (fun _ => refTotal (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (refVec_eq _ _ _ _), (h c).2⟩) (ref_run m ρ)

end Cert.RefSide

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.RefPre.lean ====
/-
  From the precondition to real entries: where the printed finiteness test of the four argument arrays is all ones,
  every entry of the two float arrays is a real number. (The test is, per float array, "max x (-x) below the
  plus-infinity pattern at every entry", and-reduced to one bit; the two bits and-ed.)
-/
import proofs.«171995_j84464826843907_1_alg».proof.Pre_finite_inputs
import proofs.«171995_j84464826843907_1_alg».proof.Proof.LibFiniteEntries
import Idealize.ShloMosaic.Lib.Affine

noncomputable section

namespace Cert.RefSide

open Idealize.ShloMosaic Idealize.ShloMosaic.ValueIdx

theorem real_of_finite_inputs [Cert.Pre_finite_inputs.Facts]
    (X Y : FVec Ideal Cert.Pre_finite_inputs.S2x4096x33 .f32) (T Pc : IVec Cert.Pre_finite_inputs.S2x4096 32)
    (h : Cert.Pre_finite_inputs.fn (F := Ideal) X Y T Pc = fun _ => 1#1) :
    (∀ i, ∃ r : ℝ, X i = r) ∧ (∀ i, ∃ r : ℝ, Y i = r) := by
  have h0 := congrFun h ix0
  dsimp only [Cert.Pre_finite_inputs.fn] at h0
  obtain ⟨hx, hy⟩ := IntOp.andi_eq_one.mp h0
  exact ⟨fun i => Cert.LibFiniteEntries.real_entries_of_all_lt_inf X _ _ _ _ hx i,
    fun i => Cert.LibFiniteEntries.real_entries_of_all_lt_inf Y _ _ _ _ hy i⟩

end Cert.RefSide

end
-- ==== Proof.lean ====
/-
  The certificate of the focal / dice / distance-map loss: a Pallas kernel that sweeps the pairwise-distance term over
  a (2, 8, 8) grid of 512 × 512 tiles, accumulating one scalar, against the plain whole-array reference.

  Both programs compute, on the host, the row-wise log-softmax and softmax of the predictions, the fill-mode take of
  the log-probabilities at the targets, the cross-entropy ce, and the dice term from the count of targets equal to the
  predicted choices. They differ in two places. The focal term is ce · mean((1 − p)²) in the kernel and
  mean((1 − p)² · ce) in the reference: equal on the extended reals when every prediction is a real number (then every
  log-probability is real and, where a target is in range, the weights and ce are real and the product distributes;
  where a target is out of range the take is the fill value ⊥, ce is ⊤ and both arrangements are ⊤). The
  distance-map term is, in the reference, one sum over (batch, row n, row m) of D · (log D − E) — D the thresholded
  distance of the one-hot rows n and m, E the distance of the softmax rows — and, in the kernel, the same entries
  summed tile by tile into a running scalar: a reordering of one finite sum, which the extended reals allow.

  The three frames: the two kernel programs run through the host prefix, the sweep (its two arrays each read through
  two windows, half a share each) and the closing arithmetic, and leave their arguments as launched; the reference is a
  line of host operations. The idealization rewrote nothing, so it preserves the kernel trivially.
-/
import proofs.«171995_j84464826843907_1_alg».proof.Defs
import proofs.«171995_j84464826843907_1_alg».proof.Proof.Gen.Kernel
import proofs.«171995_j84464826843907_1_alg».proof.Proof.Gen.KernelIdeal
import proofs.«171995_j84464826843907_1_alg».proof.Proof.Gen.ReferenceIdeal
import proofs.«171995_j84464826843907_1_alg».proof.Proof.Gen.Pre_finite_inputs
import proofs.«171995_j84464826843907_1_alg».proof.Proof.KernelRun
import proofs.«171995_j84464826843907_1_alg».proof.Proof.KernelIdealValue
import proofs.«171995_j84464826843907_1_alg».proof.Proof.RefResult
import proofs.«171995_j84464826843907_1_alg».proof.Proof.RefPre
import Idealize.ShloMosaic.Adequacy
import Idealize.ShloMosaic.Init

noncomputable section

namespace Cert.Proof

open Idealize.ShloMosaic Idealize.SL.Sem

/-- The word-level kernel runs to the end and leaves its four arguments as launched. -/
theorem frame_kernel : Cert.frame_Kernel := fun m ρ _ =>
  (θ_run (Cert.Kernel.defs (F := Bits)) _ _).mono
    (fun r h c =>
      ⟨(h c _ (Cert.Kernel.Sweep.mem_uc Cert.Kernel.main_arg0 (by decide))).trans (Cert.Kernel.Sweep.V6_arg0 m c),
       (h c _ (Cert.Kernel.Sweep.mem_uc Cert.Kernel.main_arg1 (by decide))).trans (Cert.Kernel.Sweep.V6_arg1 m c),
       (h c _ (Cert.Kernel.Sweep.mem_uc Cert.Kernel.main_arg2 (by decide))).trans (Cert.Kernel.Sweep.V6_arg2 m c),
       (h c _ (Cert.Kernel.Sweep.mem_uc Cert.Kernel.main_arg3 (by decide))).trans (Cert.Kernel.Sweep.V6_arg3 m c)⟩)
    (Cert.Kernel.Sweep.run_main (F := Bits) m ρ)

/-- So does the idealized kernel. -/
theorem frame_kernelIdeal : Cert.frame_KernelIdeal := fun m ρ _ =>
  (θ_run (Cert.KernelIdeal.defs (F := Ideal)) _ _).mono
    (fun r h c =>
      ⟨(h c _ (Cert.KernelIdeal.Sweep.mem_uc Cert.KernelIdeal.main_arg0 (by decide))).trans (Cert.KernelIdeal.Sweep.V6_arg0 m c),
       (h c _ (Cert.KernelIdeal.Sweep.mem_uc Cert.KernelIdeal.main_arg1 (by decide))).trans (Cert.KernelIdeal.Sweep.V6_arg1 m c),
       (h c _ (Cert.KernelIdeal.Sweep.mem_uc Cert.KernelIdeal.main_arg2 (by decide))).trans (Cert.KernelIdeal.Sweep.V6_arg2 m c),
       (h c _ (Cert.KernelIdeal.Sweep.mem_uc Cert.KernelIdeal.main_arg3 (by decide))).trans (Cert.KernelIdeal.Sweep.V6_arg3 m c)⟩)
    (Cert.KernelIdeal.Sweep.run_main (F := Ideal) m ρ)

/-- The reference is a line of host operations: it runs to the end and writes no argument. -/
theorem frame_reference : Cert.frame_ReferenceIdeal := fun m ρ _ =>
  (θ_run (Cert.ReferenceIdeal.defs (F := Ideal)) _ _).mono (fun _ h c => (h c).2) (Cert.RefSide.ref_run_total m ρ)

/-- The ideal pass rewrote nothing. -/
theorem preserves : Cert.preserves_Kernel_KernelIdeal := trivial

/-- From memories agreeing on the arguments, with finite float inputs, both idealized programs end with the one number
    `refTotal` of the arguments in their result buffers. -/
theorem algebraic : Cert.algebraic_KernelIdeal_ReferenceIdeal := by
  intro m ρ m' ρ' hpre hagree
  refine ⟨fun c => fun _ => Cert.RefSide.refTotal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run (Cert.KernelIdeal.defs (F := Ideal)) _ _).mono (fun r h c => ⟨?_,
       (h c _ (Cert.KernelIdeal.Sweep.mem_uc Cert.KernelIdeal.main_arg0 (by decide))).trans (Cert.KernelIdeal.Sweep.V6_arg0 m c),
       (h c _ (Cert.KernelIdeal.Sweep.mem_uc Cert.KernelIdeal.main_arg1 (by decide))).trans (Cert.KernelIdeal.Sweep.V6_arg1 m c),
       (h c _ (Cert.KernelIdeal.Sweep.mem_uc Cert.KernelIdeal.main_arg2 (by decide))).trans (Cert.KernelIdeal.Sweep.V6_arg2 m c),
       (h c _ (Cert.KernelIdeal.Sweep.mem_uc Cert.KernelIdeal.main_arg3 (by decide))).trans (Cert.KernelIdeal.Sweep.V6_arg3 m c)⟩)
      (Cert.KernelIdeal.Sweep.run_main (F := Ideal) m ρ)
    exact (h c _ (Cert.KernelIdeal.Sweep.mem_uc Cert.KernelIdeal.main_v40 (by decide))).trans
      (Cert.KernelIdeal.Sweep.result_eq m c (Cert.RefSide.real_of_finite_inputs _ _ _ _ (hpre c)).1)
  · refine (θ_run (Cert.ReferenceIdeal.defs (F := Ideal)) _ _).mono (fun r h c => ⟨?_, (h c).2⟩)
      (Cert.RefSide.ref_run_total m' ρ')
    rw [(h c).1, (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
